-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S128x64 .f32) (main_arg10 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S128x128 .f32) (main_arg6 : FVec F S128x128 .f32) (main_arg7 : FVec F S128 .f32) (main_arg8 : FVec F S128x64 .f32) (main_arg9 : FVec F S128x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x64 .f32) (main_arg9 : FVec F S128x64 .f32) (main_arg10 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 80
  | .vmem => 37
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .bf16⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .bf16⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .bf16⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .bf16⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x64, .f32⟩
  | .hbm, ⟨63, _⟩ => ⟨S50000x64, .bf16⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x64, .bf16⟩
  | .hbm, ⟨73, _⟩ => ⟨S800000x64, .f32⟩
  | .hbm, ⟨74, _⟩ => ⟨S_, .f32⟩
  | .hbm, ⟨75, _⟩ => ⟨S50000x64, .f32⟩
  | .hbm, ⟨76, _⟩ => ⟨S800000x1, .i32⟩
  | .hbm, ⟨77, _⟩ => ⟨S50000x64, .f32⟩
  | .hbm, ⟨78, _⟩ => ⟨S1x64, .f32⟩
  | .hbm, ⟨79, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x1, .f32⟩
  | .local _ .vmem, ⟨30, _⟩ => ⟨S5000x1, .f32⟩
  | .local _ .vmem, ⟨31, _⟩ => ⟨S5000x128, .f32⟩
  | .local _ .vmem, ⟨32, _⟩ => ⟨S5000x128, .f32⟩
  | .local _ .vmem, ⟨33, _⟩ => ⟨S128x64, .f32⟩
  | .local _ .vmem, ⟨34, _⟩ => ⟨S1x64, .f32⟩
  | .local _ .vmem, ⟨35, _⟩ => ⟨S5000x64, .f32⟩
  | .local _ .vmem, ⟨36, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_8 : Ref sig .tc := ⟨.hbm, 64, rfl⟩
abbrev main_v43 : Ref sig .tc := ⟨.hbm, 65, rfl⟩
abbrev main_v44 : Ref sig .tc := ⟨.hbm, 66, rfl⟩
abbrev main_c_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem5_1 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bitsLt_bf16_f32 : FTy.bits .bf16 < FTy.bits .f32
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v53) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v55) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 138
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S128x64, .f32⟩
  | 9 => ⟨S128x64, .f32⟩
  | 10 => ⟨S64, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S_, .f32⟩
  | 29 => ⟨S800000, .f32⟩
  | 30 => ⟨S_, .f32⟩
  | 31 => ⟨S50000, .f32⟩
  | 32 => ⟨S800000x1, .i32⟩
  | 33 => ⟨S50000, .f32⟩
  | 34 => ⟨S_, .f32⟩
  | 35 => ⟨S50000, .f32⟩
  | 36 => ⟨S50000, .f32⟩
  | 37 => ⟨S50000x1, .f32⟩
  | 38 => ⟨S50000x128, .f32⟩
  | 39 => ⟨S50000x128, .f32⟩
  | 40 => ⟨S50000x128, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S_, .f32⟩
  | 47 => ⟨S50000x128, .f32⟩
  | 48 => ⟨S50000x128, .i1⟩
  | 49 => ⟨S_, .f32⟩
  | 50 => ⟨S50000x128, .f32⟩
  | 51 => ⟨S50000x128, .i1⟩
  | 52 => ⟨S_, .f32⟩
  | 53 => ⟨S_, .f32⟩
  | 54 => ⟨S50000x128, .f32⟩
  | 55 => ⟨S50000x128, .f32⟩
  | 56 => ⟨S50000x128, .f32⟩
  | 57 => ⟨S_, .f32⟩
  | 58 => ⟨S50000x128, .f32⟩
  | 59 => ⟨S50000x128, .f32⟩
  | 60 => ⟨S50000x128, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S_, .f32⟩
  | 71 => ⟨S50000x128, .f32⟩
  | 72 => ⟨S800000x1, .i32⟩
  | 73 => ⟨S50000x128, .f32⟩
  | 74 => ⟨S_, .f32⟩
  | 75 => ⟨S800000, .f32⟩
  | 76 => ⟨S_, .f32⟩
  | 77 => ⟨S50000, .f32⟩
  | 78 => ⟨S800000x1, .i32⟩
  | 79 => ⟨S50000, .f32⟩
  | 80 => ⟨S_, .f32⟩
  | 81 => ⟨S50000, .f32⟩
  | 82 => ⟨S50000, .f32⟩
  | 83 => ⟨S50000x1, .f32⟩
  | 84 => ⟨S50000x128, .f32⟩
  | 85 => ⟨S50000x128, .f32⟩
  | 86 => ⟨S50000x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S50000x128, .f32⟩
  | 94 => ⟨S50000x128, .i1⟩
  | 95 => ⟨S_, .f32⟩
  | 96 => ⟨S50000x128, .f32⟩
  | 97 => ⟨S50000x128, .i1⟩
  | 98 => ⟨S_, .f32⟩
  | 99 => ⟨S_, .f32⟩
  | 100 => ⟨S50000x128, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S50000x128, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x128, .f32⟩
  | 116 => ⟨S_, .f32⟩
  | 117 => ⟨S50000x128, .f32⟩
  | 118 => ⟨S800000x1, .i32⟩
  | 119 => ⟨S50000x128, .f32⟩
  | 120 => ⟨S_, .f32⟩
  | 121 => ⟨S800000, .f32⟩
  | 122 => ⟨S_, .f32⟩
  | 123 => ⟨S50000, .f32⟩
  | 124 => ⟨S800000x1, .i32⟩
  | 125 => ⟨S50000, .f32⟩
  | 126 => ⟨S_, .f32⟩
  | 127 => ⟨S50000, .f32⟩
  | _ => ⟨S50000x128, .f32⟩

abbrev hbmTy0_1 (i : Nat) : BufTy := match i % 128 with
  | 0 => ⟨S50000, .f32⟩
  | 1 => ⟨S50000x1, .f32⟩
  | 2 => ⟨S50000x128, .f32⟩
  | 3 => ⟨S50000x128, .f32⟩
  | 4 => ⟨S50000x64, .f32⟩
  | 5 => ⟨S50000x64, .f32⟩
  | 6 => ⟨S50000x64, .f32⟩
  | 7 => ⟨S1x64, .f32⟩
  | 8 => ⟨S50000x64, .f32⟩
  | 9 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_cst_0 : Ref sig .tc := ⟨.hbm, 49, rfl⟩
abbrev main_call0_v2 : Ref sig .tc := ⟨.hbm, 50, rfl⟩
abbrev main_call0_v3 : Ref sig .tc := ⟨.hbm, 51, rfl⟩
abbrev main_call0_cst_1 : Ref sig .tc := ⟨.hbm, 52, rfl⟩
abbrev main_call0_call0_v0 : Ref sig .tc := ⟨.hbm, 53, rfl⟩
abbrev main_call0_call0_v1 : Ref sig .tc := ⟨.hbm, 54, rfl⟩
abbrev main_call0_v4 : Ref sig .tc := ⟨.hbm, 55, rfl⟩
abbrev main_call0_v5 : Ref sig .tc := ⟨.hbm, 56, rfl⟩
abbrev main_call0_cst_2 : Ref sig .tc := ⟨.hbm, 57, rfl⟩
abbrev main_call0_v6 : Ref sig .tc := ⟨.hbm, 58, rfl⟩
abbrev main_call0_v7 : Ref sig .tc := ⟨.hbm, 59, rfl⟩
abbrev main_v29 : Ref sig .tc := ⟨.hbm, 60, rfl⟩
abbrev main_c_4 : Ref sig .tc := ⟨.hbm, 61, rfl⟩
abbrev main_v30 : Ref sig .tc := ⟨.hbm, 62, rfl⟩
abbrev main_v31 : Ref sig .tc := ⟨.hbm, 63, rfl⟩
abbrev main_c_5 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_6 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_7 : Ref sig .tc := ⟨.hbm, 74, rfl⟩
abbrev main_v40 : Ref sig .tc := ⟨.hbm, 75, rfl⟩
abbrev main_cst_8 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_9 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_call1_cst : Ref sig .tc := ⟨.hbm, 92, rfl⟩
abbrev main_call1_v0 : Ref sig .tc := ⟨.hbm, 93, rfl⟩
abbrev main_call1_v1 : Ref sig .tc := ⟨.hbm, 94, rfl⟩
abbrev main_call1_cst_0 : Ref sig .tc := ⟨.hbm, 95, rfl⟩
abbrev main_call1_v2 : Ref sig .tc := ⟨.hbm, 96, rfl⟩
abbrev main_call1_v3 : Ref sig .tc := ⟨.hbm, 97, rfl⟩
abbrev main_call1_cst_1 : Ref sig .tc := ⟨.hbm, 98, rfl⟩
abbrev main_call1_call0_v0 : Ref sig .tc := ⟨.hbm, 99, rfl⟩
abbrev main_call1_call0_v1 : Ref sig .tc := ⟨.hbm, 100, rfl⟩
abbrev main_call1_v4 : Ref sig .tc := ⟨.hbm, 101, rfl⟩
abbrev main_call1_v5 : Ref sig .tc := ⟨.hbm, 102, rfl⟩
abbrev main_call1_cst_2 : Ref sig .tc := ⟨.hbm, 103, rfl⟩
abbrev main_call1_v6 : Ref sig .tc := ⟨.hbm, 104, rfl⟩
abbrev main_call1_v7 : Ref sig .tc := ⟨.hbm, 105, rfl⟩
abbrev main_v55 : Ref sig .tc := ⟨.hbm, 106, rfl⟩
abbrev main_c_10 : Ref sig .tc := ⟨.hbm, 107, rfl⟩
abbrev main_v56 : Ref sig .tc := ⟨.hbm, 108, rfl⟩
abbrev main_v57 : Ref sig .tc := ⟨.hbm, 109, rfl⟩
abbrev main_c_11 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_cst_12 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_cst_13 : Ref sig .tc := ⟨.hbm, 120, rfl⟩
abbrev main_v66 : Ref sig .tc := ⟨.hbm, 121, rfl⟩
abbrev main_cst_14 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_cst_15 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The idealized kernel's run, with the result array named.

  The program is seven segments: three stretches of host operations and four launches.  The contents of every buffer at
  each boundary are a fold from the launch memory; the last of them, after the fourth launch, is what every unscoped
  buffer holds in every final state.  Reading that state at the result buffer as well as at the eleven argument buffers
  gives the run this file states: every weakly fair execution terminates, the result buffer holds the last fold's value
  at it, and the arguments are as launched.
-/
import proofs.«114920_j35115652612101_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the value of
    the last boundary's contents at it, and each argument buffer what it held at launch. -/
theorem run_main : θ_run defs (onTc (τ := τ) (main (F := F))) ⟨m, fun _ => 0, ρ⟩ (fun r => ∀ c : Dev nD,
      r.2.mem ((c.tc : Thread nD τ).loc main_v55) = W7 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v55 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KernelIdeal.KRun

end
-- ==== Proof.KHost.lean ====
/-
  The host operations of the idealized kernel's program, read back.

  Between the launches the program computes, from the edge array, the vector of source words and the vector of target
  words (its two rows); the column of source words with negative ones wrapped by the number of nodes; the reciprocal of
  the clamped in-degree as one column (ones added at the targets onto zeros, the maximum with one, one divided by it); and,
  before each launch that needs it, the aggregate of a node array: its rows gathered at the wrapped sources (through a
  narrower float format and back) and added at the targets onto zeros.  A bias vector is reshaped to one row.

  Each stretch of operations is read over an ARBITRARY valuation of the buffers at its entry: what it leaves in the
  buffers that are read later, as these functions of the entry contents, and that it leaves the other buffers alone.
-/
import proofs.«114920_j35115652612101_2_alg».proof.Proof.Gen.KernelIdeal.Launch
import Idealize.ShloMosaic.Lib.StableHlo.Run

noncomputable section

namespace Cert.KernelIdeal.KHost

open Cert.KernelIdeal Cert.KernelIdeal.Gen Idealize.ShloMosaic Idealize.ShloMosaic.TcCoe Idealize.ShloMosaic.StableHlo

variable {F : FTy → Type} [FloatOps F]

/-- The source words: row 0 of the edge array. -/
def srcVec (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

/-- The target words: row 1 of the edge array. -/
def dstVec (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- The source words as a column, a negative word first increased by the number of nodes. -/
def wrapCol (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The target words as a column. -/
def dstCol (d : (⟨S800000, .i32⟩ : BufTy).Contents (Elt F)) : (⟨S800000x1, .i32⟩ : BufTy).Contents (Elt F) :=
  broadcastInDim S800000x1 ![0] bcast_S800000_S800000x1_0 d

/-- One over the clamped in-degree, as a column. -/
def rcCol (d : (⟨S800000, .i32⟩ : BufTy).Contents (Elt F)) : (⟨S50000x1, .f32⟩ : BufTy).Contents (Elt F) :=
  shapeCast S50000x1
    (Host.divf (broadcastInDim S50000 ![] bcast_S_S50000 (constant S_ .f32 0x3F800000#32))
      (maximumf
        (Host.scatterAdd scatter_S50000_S800000x1_S800000_n_0_0_1
          (broadcastInDim S50000 ![] bcast_S_S50000 (constant S_ .f32 0x00000000#32)) (dstCol d)
          (broadcastInDim S800000 ![] bcast_S_S800000 (constant S_ .f32 0x3F800000#32)))
        (broadcastInDim S50000 ![] bcast_S_S50000 (constant S_ .f32 0x3F800000#32))))
    shapeCasts_S50000_S50000x1

/-- The aggregate of an array with 128 columns. -/
def agg128 (h : (⟨S50000x128, .f32⟩ : BufTy).Contents (Elt F)) (s d : (⟨S800000, .i32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32)) (dstCol d)
    (extf .f32 (Host.gather gather_S50000x128_S800000x1_S800000x128_1_0_n_n_0_1_1128 (truncf .bf16 h bitsLt_bf16_f32) (wrapCol s))
      bitsLt_bf16_f32)

/-- The aggregate of an array with 64 columns. -/
def agg64 (h : (⟨S50000x64, .f32⟩ : BufTy).Contents (Elt F)) (s d : (⟨S800000, .i32⟩ : BufTy).Contents (Elt F)) : (⟨S50000x64, .f32⟩ : BufTy).Contents (Elt F) :=
  Host.scatterAdd scatter_S50000x64_S800000x1_S800000x64_1_0_0_1
    (broadcastInDim S50000x64 ![] bcast_S_S50000x64 (constant S_ .f32 0x00000000#32)) (dstCol d)
    (extf .f32 (Host.gather gather_S50000x64_S800000x1_S800000x64_1_0_n_n_0_1_164 (truncf .bf16 h bitsLt_bf16_f32) (wrapCol s))
      bitsLt_bf16_f32)

/-- A bias vector as one row. -/
def biasRow128 (b : (⟨S128, .f32⟩ : BufTy).Contents (Elt F)) : (⟨S1x128, .f32⟩ : BufTy).Contents (Elt F) := shapeCast S1x128 b shapeCasts_S128_S1x128
def biasRow64 (b : (⟨S64, .f32⟩ : BufTy).Contents (Elt F)) : (⟨S1x64, .f32⟩ : BufTy).Contents (Elt F) := shapeCast S1x64 b shapeCasts_S64_S1x64

variable (V : Valuation τ sig (Elt F))

/-! ## The first stretch -/

set_option maxHeartbeats 2000000 in
theorem h0_v1 : after hostOps0 V (Proc.devRef .tc main_v1) = srcVec (V (Proc.devRef .tc main_arg1)) := by
  after_results_simp; rfl
set_option maxHeartbeats 2000000 in
theorem h0_v3 : after hostOps0 V (Proc.devRef .tc main_v3) = dstVec (V (Proc.devRef .tc main_arg1)) := by
  after_results_simp; rfl
set_option maxHeartbeats 2000000 in
theorem h0_v12 : after hostOps0 V (Proc.devRef .tc main_v12) = rcCol (dstVec (V (Proc.devRef .tc main_arg1))) := by
  after_results_simp; rfl
set_option maxHeartbeats 2000000 in
theorem h0_v24 : after hostOps0 V (Proc.devRef .tc main_v24)
    = agg128 (V (Proc.devRef .tc main_arg0)) (srcVec (V (Proc.devRef .tc main_arg1))) (dstVec (V (Proc.devRef .tc main_arg1))) := by
  after_results_simp; rfl
set_option maxHeartbeats 2000000 in
theorem h0_v25 : after hostOps0 V (Proc.devRef .tc main_v25) = biasRow128 (V (Proc.devRef .tc main_arg4)) := by
  after_results_simp; rfl
set_option maxHeartbeats 2000000 in
theorem h0_arg0 : after hostOps0 V (Proc.devRef .tc main_arg0) = V (Proc.devRef .tc main_arg0) := by
  after_results_simp
set_option maxHeartbeats 2000000 in
theorem h0_arg2 : after hostOps0 V (Proc.devRef .tc main_arg2) = V (Proc.devRef .tc main_arg2) := by
  after_results_simp
set_option maxHeartbeats 2000000 in
theorem h0_arg3 : after hostOps0 V (Proc.devRef .tc main_arg3) = V (Proc.devRef .tc main_arg3) := by
  after_results_simp
set_option maxHeartbeats 2000000 in
theorem h0_arg5 : after hostOps0 V (Proc.devRef .tc main_arg5) = V (Proc.devRef .tc main_arg5) := by
  after_results_simp
set_option maxHeartbeats 2000000 in
theorem h0_arg6 : after hostOps0 V (Proc.devRef .tc main_arg6) = V (Proc.devRef .tc main_arg6) := by
  after_results_simp
set_option maxHeartbeats 2000000 in
theorem h0_arg7 : after hostOps0 V (Proc.devRef .tc main_arg7) = V (Proc.devRef .tc main_arg7) := by
  after_results_simp
set_option maxHeartbeats 2000000 in
theorem h0_arg8 : after hostOps0 V (Proc.devRef .tc main_arg8) = V (Proc.devRef .tc main_arg8) := by
  after_results_simp
set_option maxHeartbeats 2000000 in
theorem h0_arg9 : after hostOps0 V (Proc.devRef .tc main_arg9) = V (Proc.devRef .tc main_arg9) := by
  after_results_simp
set_option maxHeartbeats 2000000 in
theorem h0_arg10 : after hostOps0 V (Proc.devRef .tc main_arg10) = V (Proc.devRef .tc main_arg10) := by
  after_results_simp

/-! ## The second stretch -/

set_option maxHeartbeats 2000000 in
theorem h1_v38 : after hostOps1 V (Proc.devRef .tc main_v38)
    = agg128 (V (Proc.devRef .tc main_v26)) (V (Proc.devRef .tc main_v1)) (V (Proc.devRef .tc main_v3)) := by
  after_results_simp; rfl
set_option maxHeartbeats 2000000 in
theorem h1_v39 : after hostOps1 V (Proc.devRef .tc main_v39) = biasRow128 (V (Proc.devRef .tc main_arg7)) := by
  after_results_simp; rfl
set_option maxHeartbeats 2000000 in
theorem h1_v1 : after hostOps1 V (Proc.devRef .tc main_v1) = V (Proc.devRef .tc main_v1) := by
  after_results_simp
set_option maxHeartbeats 2000000 in
theorem h1_v3 : after hostOps1 V (Proc.devRef .tc main_v3) = V (Proc.devRef .tc main_v3) := by
  after_results_simp
set_option maxHeartbeats 2000000 in
theorem h1_v12 : after hostOps1 V (Proc.devRef .tc main_v12) = V (Proc.devRef .tc main_v12) := by
  after_results_simp
set_option maxHeartbeats 2000000 in
theorem h1_v26 : after hostOps1 V (Proc.devRef .tc main_v26) = V (Proc.devRef .tc main_v26) := by
  after_results_simp
set_option maxHeartbeats 2000000 in
theorem h1_arg5 : after hostOps1 V (Proc.devRef .tc main_arg5) = V (Proc.devRef .tc main_arg5) := by
  after_results_simp
set_option maxHeartbeats 2000000 in
theorem h1_arg6 : after hostOps1 V (Proc.devRef .tc main_arg6) = V (Proc.devRef .tc main_arg6) := by
  after_results_simp
set_option maxHeartbeats 2000000 in
theorem h1_arg8 : after hostOps1 V (Proc.devRef .tc main_arg8) = V (Proc.devRef .tc main_arg8) := by
  after_results_simp
set_option maxHeartbeats 2000000 in
theorem h1_arg9 : after hostOps1 V (Proc.devRef .tc main_arg9) = V (Proc.devRef .tc main_arg9) := by
  after_results_simp
set_option maxHeartbeats 2000000 in
theorem h1_arg10 : after hostOps1 V (Proc.devRef .tc main_arg10) = V (Proc.devRef .tc main_arg10) := by
  after_results_simp

/-! ## The third stretch -/

set_option maxHeartbeats 2000000 in
theorem h3_v53 : after hostOps3 V (Proc.devRef .tc main_v53)
    = agg64 (V (Proc.devRef .tc main_v41)) (V (Proc.devRef .tc main_v1)) (V (Proc.devRef .tc main_v3)) := by
  after_results_simp; rfl
set_option maxHeartbeats 2000000 in
theorem h3_v54 : after hostOps3 V (Proc.devRef .tc main_v54) = biasRow64 (V (Proc.devRef .tc main_arg10)) := by
  after_results_simp; rfl
set_option maxHeartbeats 2000000 in
theorem h3_v12 : after hostOps3 V (Proc.devRef .tc main_v12) = V (Proc.devRef .tc main_v12) := by
  after_results_simp
set_option maxHeartbeats 2000000 in
theorem h3_v40 : after hostOps3 V (Proc.devRef .tc main_v40) = V (Proc.devRef .tc main_v40) := by
  after_results_simp
set_option maxHeartbeats 2000000 in
theorem h3_arg9 : after hostOps3 V (Proc.devRef .tc main_arg9) = V (Proc.devRef .tc main_arg9) := by
  after_results_simp

end Cert.KernelIdeal.KHost

end
-- ==== Proof.LibRowWise.lean ====
/-
  Row-wise layers on rank-2 arrays of extended reals.

  Every layer of the network is ROW-WISE: row r of its result is a function of row r of its input (and of a small
  parameter array).  "rowMap f x" applies a row function "f" to every row of "x".  The three row functions:
  "linRow w" (the row times the matrix "w": entry c is the sum over l of z l * w (l, c)), "reluRow b" (add the
  one-row array "b", then the maximum with zero) and "lsmRow b" (add "b", subtract the row's maximum, then subtract
  the logarithm of the sum of the exponentials: the logarithm of the softmax).  The row's maximum is the fold of
  "max" from minus infinity, which is how both a lane reduction and a host reduction read it.

  A row-wise layer commutes with cutting out a band of rows ("rowMap_band"): the band of the result is the result
  of the band.  That one fact is what lets a computation done band by band be compared with the whole computation.
-/
import Idealize.ShloMosaic.Lib.ValueIdx
import Idealize.ShloMosaic.PureOps.Ideal.Laws

noncomputable section

open scoped BigOperators

namespace GcnSpec

open Idealize.ShloMosaic Idealize.ShloMosaic.ValueIdx

/-- An n × k array of extended reals. -/
abbrev Arr (n k : ℕ) : Type := (⟨2, ![n, k]⟩ : Shape).Idx → EReal

/-- Row r of an array, as a function of the column. -/
def row {n k : ℕ} (x : Arr n k) (r : Fin n) : Fin k → EReal := fun l => x (ix2 r l)

/-- A row function applied to every row. -/
def rowMap {n k q : ℕ} (f : (Fin k → EReal) → Fin q → EReal) (x : Arr n k) : Arr n q :=
  fun i => f (row x ⟨(i 0).val, idx2_lt0 i⟩) ⟨(i 1).val, idx2_lt1 i⟩

theorem rowMap_ix2 {n k q : ℕ} (f : (Fin k → EReal) → Fin q → EReal) (x : Arr n k) (r : Fin n) (c : Fin q) :
    rowMap f x (ix2 r c) = f (row x r) c := rfl

/-- To show an array is "rowMap f x" it is enough to read it at every pair of coordinates. -/
theorem eq_rowMap {n k q : ℕ} (f : (Fin k → EReal) → Fin q → EReal) (x : Arr n k) (y : Arr n q)
    (h : ∀ (r : Fin n) (c : Fin q), y (ix2 r c) = f (row x r) c) : y = rowMap f x := by
  funext i
  obtain ⟨r, c, rfl⟩ : ∃ (r : Fin n) (c : Fin q), i = ix2 r c := ⟨i 0, i 1, eq_ix2 i⟩
  rw [h, rowMap_ix2]

/-- A band of rows: the band of the result is the result of the band.  "e₁" and "e₂" send an index of the band to
    the index of the whole array "o" rows further down, in the same column. -/
theorem rowMap_band {N n k q : ℕ} (f : (Fin k → EReal) → Fin q → EReal) (X : Arr N k) (o : ℕ)
    (e₁ : (⟨2, ![n, k]⟩ : Shape).Idx → (⟨2, ![N, k]⟩ : Shape).Idx)
    (e₂ : (⟨2, ![n, q]⟩ : Shape).Idx → (⟨2, ![N, q]⟩ : Shape).Idx)
    (h10 : ∀ j, (e₁ j 0).val = o + (j 0).val) (h11 : ∀ j, (e₁ j 1).val = (j 1).val)
    (h20 : ∀ j, (e₂ j 0).val = o + (j 0).val) (h21 : ∀ j, (e₂ j 1).val = (j 1).val)
    (j : (⟨2, ![n, q]⟩ : Shape).Idx) :
    rowMap f X (e₂ j) = rowMap f (fun y => X (e₁ y)) j := by
  unfold rowMap
  have hr : row X ⟨(e₂ j 0).val, idx2_lt0 (e₂ j)⟩ = row (fun y => X (e₁ y)) ⟨(j 0).val, idx2_lt0 j⟩ := by
    funext l
    unfold row
    refine congrArg X (funext fun a => Fin.ext ?_)
    match a with
    | ⟨0, _⟩ => show (e₂ j 0).val = (e₁ (ix2 ⟨(j 0).val, idx2_lt0 j⟩ l) 0).val; rw [h20, h10]; rfl
    | ⟨1, _⟩ => show l.val = (e₁ (ix2 ⟨(j 0).val, idx2_lt0 j⟩ l) 1).val; rw [h11]; rfl
  have hc : (⟨(e₂ j 1).val, idx2_lt1 (e₂ j)⟩ : Fin q) = ⟨(j 1).val, idx2_lt1 j⟩ := Fin.ext (h21 j)
  rw [hr, hc]

/-! ## The three row functions -/

/-- The row times a matrix. -/
def linRow {k q : ℕ} (w : Arr k q) (z : Fin k → EReal) : Fin q → EReal := fun c => ∑ l : Fin k, z l * w (ix2 l c)

/-- The float zero and minus infinity, kept as the words the programs spell them with. -/
def zeroF : EReal := Ideal.ofBits .f32 0x00000000#32
def negInfF : EReal := Ideal.ofBits .f32 0xFF800000#32

/-- Add the one-row array, then the maximum with zero. -/
def reluRow {k : ℕ} (b : Arr 1 k) (z : Fin k → EReal) : Fin k → EReal :=
  fun c => max (z c + b (ix2 (0 : Fin 1) c)) zeroF

/-- A row's maximum: the fold of "max" from minus infinity. -/
def rowMax {k : ℕ} (y : Fin k → EReal) : EReal := (Finset.univ : Finset (Fin k)).fold max negInfF y

/-- The row shifted by its maximum. -/
def shifted {k : ℕ} (y : Fin k → EReal) : Fin k → EReal := fun c => y c - rowMax y

/-- The logarithm of the softmax of a row. -/
def logSoftmax {k : ℕ} (y : Fin k → EReal) : Fin k → EReal :=
  fun c => shifted y c - Ideal.log (∑ l : Fin k, Ideal.exp (shifted y l))

/-- Add the one-row array, then the logarithm of the softmax. -/
def lsmRow {k : ℕ} (b : Arr 1 k) (z : Fin k → EReal) : Fin k → EReal :=
  logSoftmax fun c => z c + b (ix2 (0 : Fin 1) c)

/-- Minus infinity is the unit of "max". -/
theorem max_negInfF (y : EReal) : max negInfF y = y := by
  unfold negInfF; simp [Ideal.ofBits, Ideal.ieee]

theorem zeroF_eq : zeroF = 0 := Ideal.ofBits_zero_f32

/-! ## The layers -/

/-- The linear layer: every row times the matrix. -/
def lin {n k q : ℕ} (x : Arr n k) (w : Arr k q) : Arr n q := rowMap (linRow w) x
/-- Bias, then the maximum with zero. -/
def relu {n k : ℕ} (a : Arr n k) (b : Arr 1 k) : Arr n k := rowMap (reluRow b) a
/-- Bias, then the logarithm of the softmax along the row. -/
def lsm {n k : ℕ} (a : Arr n k) (b : Arr 1 k) : Arr n k := rowMap (lsmRow b) a

end GcnSpec

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.LibRowCol.lean ====
/-
  A vector seen as a one-column or a one-row array, and the layout operations that compute those views.

  `colOf y` is the `[n, 1]` array whose entry `(p, 0)` is `y p`; `rowOf b` the `[1, k]` array whose entry `(0, q)` is
  `b q`.  A reshape of `[n]` to `[n, 1]` is the column view and a reshape of `[k]` to `[1, k]` the row view
  (`shapeCast_col`, `shapeCast_row`); a view read at an index is the vector at ANY index with the same coordinate
  (`colOf_eq`, `rowOf_eq`), which is how a chain of broadcasts that ends in the vector is matched with the view.
  An `[a, 1]` array broadcast to `[a, b]` reads its one column in the row (`broadcastTo_a1_ab_apply`), and an `[a]`
  array cast to `[a, 1]` reads the vector in the row (`shapeCast_a_a1_apply`).  Over generic extents; indices are built
  from coordinates.
-/
import Idealize.ShloMosaic.Lib.Pipeline.Value
import Idealize.ShloMosaic.Lib.ValueIdx
import Idealize.ShloMosaic.Lib.ValueLayout

noncomputable section

namespace RowCol

open Idealize.ShloMosaic Idealize.ShloMosaic.ValueIdx

/-! ## Layout operations at coordinates -/

section Layout
variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if 1 = 1 then 0 else c.val
    exact (if_pos rfl).symm

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## Column and row views of a vector of extended reals -/

/-- A vector as a one-column array. -/
def colOf {n : ℕ} (y : (⟨1, ![n]⟩ : Shape).Idx → EReal) : (⟨2, ![n, 1]⟩ : Shape).Idx → EReal :=
  fun i => y (ix1 ⟨(i 0).val, idx2_lt0 i⟩)

/-- A vector as a one-row array. -/
def rowOf {k : ℕ} (b : (⟨1, ![k]⟩ : Shape).Idx → EReal) : (⟨2, ![1, k]⟩ : Shape).Idx → EReal :=
  fun i => b (ix1 ⟨(i 1).val, idx2_lt1 i⟩)

theorem colOf_ix2 {n : ℕ} (y : (⟨1, ![n]⟩ : Shape).Idx → EReal) (p : Fin n) (u : Fin 1) : colOf y (ix2 p u) = y (ix1 p) := rfl
theorem rowOf_ix2 {k : ℕ} (b : (⟨1, ![k]⟩ : Shape).Idx → EReal) (u : Fin 1) (q : Fin k) : rowOf b (ix2 u q) = b (ix1 q) := rfl

/-- The column view at an index is the vector at any index with the same row number. -/
theorem colOf_eq {n : ℕ} (y : (⟨1, ![n]⟩ : Shape).Idx → EReal) (i : (⟨2, ![n, 1]⟩ : Shape).Idx) (k : (⟨1, ![n]⟩ : Shape).Idx)
    (hk : (k 0).val = (i 0).val) : colOf y i = y k :=
  congrArg y (funext fun a => Fin.ext (match a with | ⟨0, _⟩ => hk.symm))

/-- The row view at an index is the vector at any index with the same column number. -/
theorem rowOf_eq {k : ℕ} (b : (⟨1, ![k]⟩ : Shape).Idx → EReal) (i : (⟨2, ![1, k]⟩ : Shape).Idx) (l : (⟨1, ![k]⟩ : Shape).Idx)
    (hl : (l 0).val = (i 1).val) : rowOf b i = b l :=
  congrArg b (funext fun a => Fin.ext (match a with | ⟨0, _⟩ => hl.symm))

/-- A reshape of a vector to one column is its column view. -/
theorem shapeCast_col {n : ℕ} (y : (⟨1, ![n]⟩ : Shape).Idx → EReal) (h : (⟨1, ![n]⟩ : Shape).ShapeCasts ⟨2, ![n, 1]⟩) :
    shapeCast ⟨2, ![n, 1]⟩ y h = colOf y := by
  funext i
  obtain ⟨p, u, rfl⟩ : ∃ (p : Fin n) (u : Fin 1), i = ix2 p u := ⟨i 0, i 1, eq_ix2 i⟩
  rw [shapeCast_a_a1_apply, colOf_ix2]

/-- A reshape of a vector to one row is its row view. -/
theorem shapeCast_row {k : ℕ} (b : (⟨1, ![k]⟩ : Shape).Idx → EReal) (h : (⟨1, ![k]⟩ : Shape).ShapeCasts ⟨2, ![1, k]⟩) :
    shapeCast ⟨2, ![1, k]⟩ b h = rowOf b := by
  funext i
  obtain ⟨u, q, rfl⟩ : ∃ (u : Fin 1) (q : Fin k), i = ix2 u q := ⟨i 0, i 1, eq_ix2 i⟩
  rw [shapeCast_a_1a_apply, rowOf_ix2]

end RowCol

end
-- ==== Proof.LibLayout.lean ====
/-
  Layout operations read at an index written by its coordinates, for the shapes a "keepdims" reduction kernel meets:
  a unit axis inserted in the middle or at the end of a shape by a shape cast, a broadcast along such a unit axis,
  the two composed, and a sum over one axis read as a `Fin`-indexed sum at coordinates.  All statements are over
  generic extents; the indices are the library's `ixN` constructors.
-/
import Idealize.ShloMosaic.Lib.Pipeline.Value
import Idealize.ShloMosaic.Lib.ValueIdx
import Idealize.ShloMosaic.Lib.ValueLayout
import Idealize.ShloMosaic.PureOps.Ideal.Laws

namespace PushPull.Layout

open Idealize.ShloMosaic Idealize.ShloMosaic.ValueIdx

variable {α : Type}

/-! ## A unit axis inserted by a shape cast -/

/-- `[a, b] → [a, b, 1]`: the entry `(i, j, 0)` is the entry `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b] → [a, 1, b]`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- `[a, b, c] → [a, b, 1, c]`. -/
theorem cast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_three, Shape.rowMajor_val_four]
    show (i.val * b + j.val) * c + k.val = ((i.val * b + j.val) * 1 + u.val) * c + k.val
    rw [hu, Nat.mul_one, Nat.add_zero])

/-- `[a, b, c] → [a, 1, b, c]`. -/
theorem cast_abc_a1bc {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu, Nat.mul_one, Nat.add_zero])

/-- `[a, b, c] → [a, b, c, 1]`. -/
theorem cast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- `[a] → [a, 1]`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## A broadcast along a unit axis -/

/-- `[a, b, 1, c] → [a, b, k, c]`. -/
theorem bcast_ab1c {a b c k : ℕ} (x : (⟨4, ![a, b, 1, c]⟩ : Shape).Idx → α)
    (h : (⟨4, ![a, b, 1, c]⟩ : Shape).Broadcasts ⟨4, ![a, b, k, c]⟩) (i : Fin a) (j : Fin b) (q : Fin k) (l : Fin c) :
    broadcastTo ⟨4, ![a, b, k, c]⟩ x h (ix4 i j q l) = x (ix4 i j (0 : Fin 1) l) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm
    | ⟨3, _⟩ => show l.val = if c = 1 then 0 else l.val; split <;> omega)

/-- `[a, 1, b, c] → [a, k, b, c]`. -/
theorem bcast_a1bc {a b c k : ℕ} (x : (⟨4, ![a, 1, b, c]⟩ : Shape).Idx → α)
    (h : (⟨4, ![a, 1, b, c]⟩ : Shape).Broadcasts ⟨4, ![a, k, b, c]⟩) (i : Fin a) (q : Fin k) (j : Fin b) (l : Fin c) :
    broadcastTo ⟨4, ![a, k, b, c]⟩ x h (ix4 i q j l) = x (ix4 i (0 : Fin 1) j l) :=
  broadcastTo_apply x h _ _ (fun ax => by
    have hi := i.isLt; have hj := j.isLt; have hl := l.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega
    | ⟨3, _⟩ => show l.val = if c = 1 then 0 else l.val; split <;> omega)

/-- `[a, b, 1] → [a, b, k]`. -/
theorem bcast_ab1 {a b k : ℕ} (x : (⟨3, ![a, b, 1]⟩ : Shape).Idx → α)
    (h : (⟨3, ![a, b, 1]⟩ : Shape).Broadcasts ⟨3, ![a, b, k]⟩) (i : Fin a) (j : Fin b) (q : Fin k) :
    broadcastTo ⟨3, ![a, b, k]⟩ x h (ix3 i j q) = x (ix3 i j (0 : Fin 1)) :=
  broadcastTo_apply x h _ _ (fun ax => by
    have hi := i.isLt; have hj := j.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm)

/-- `[a, 1, b] → [a, k, b]`. -/
theorem bcast_a1b {a b k : ℕ} (x : (⟨3, ![a, 1, b]⟩ : Shape).Idx → α)
    (h : (⟨3, ![a, 1, b]⟩ : Shape).Broadcasts ⟨3, ![a, k, b]⟩) (i : Fin a) (q : Fin k) (j : Fin b) :
    broadcastTo ⟨3, ![a, k, b]⟩ x h (ix3 i q j) = x (ix3 i (0 : Fin 1) j) :=
  broadcastTo_apply x h _ _ (fun ax => by
    have hi := i.isLt; have hj := j.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega)

/-- `[a, b, c, 1] → [a, b, c, k]`. -/
theorem bcast_abc1 {a b c k : ℕ} (x : (⟨4, ![a, b, c, 1]⟩ : Shape).Idx → α)
    (h : (⟨4, ![a, b, c, 1]⟩ : Shape).Broadcasts ⟨4, ![a, b, c, k]⟩) (i : Fin a) (j : Fin b) (l : Fin c) (q : Fin k) :
    broadcastTo ⟨4, ![a, b, c, k]⟩ x h (ix4 i j l q) = x (ix4 i j l (0 : Fin 1)) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show l.val = if c = 1 then 0 else l.val; split <;> omega
    | ⟨3, _⟩ => show (0 : ℕ) = if 1 = 1 then 0 else q.val; exact (if_pos rfl).symm)

/-- `[1, 1] → [1, k]`. -/
theorem bcast_11 {k : ℕ} (x : (⟨2, ![1, 1]⟩ : Shape).Idx → α)
    (h : (⟨2, ![1, 1]⟩ : Shape).Broadcasts ⟨2, ![1, k]⟩) (u : Fin 1) (q : Fin k) :
    broadcastTo ⟨2, ![1, k]⟩ x h (ix2 u q) = x (ix2 (0 : Fin 1) (0 : Fin 1)) :=
  broadcastTo_apply x h _ _ (fun ax => by
    match ax with
    | ⟨0, _⟩ => show (0 : ℕ) = if 1 = 1 then 0 else u.val; exact (if_pos rfl).symm
    | ⟨1, _⟩ => show (0 : ℕ) = if 1 = 1 then 0 else q.val; exact (if_pos rfl).symm)

/-! ## A sum over one axis, at coordinates -/

section Sums
variable {φ : FTy}

/-- The last axis of three. -/
theorem sum_abc_2 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with | ⟨0, _⟩ => rfl | ⟨1, _⟩ => rfl | ⟨2, _⟩ => rfl)))

/-- The last axis of four. -/
theorem sum_abcd_3 {a b c d : ℕ} (src : FVec Ideal ⟨4, ![a, b, c, d]⟩ φ) (acc : BitVec φ.bits)
    (h : (⟨4, ![a, b, c, d]⟩ : Shape).Reduces [3] ⟨3, ![a, b, c]⟩) (hφ : FKind.Formats φ) (hacc : acc = FKind.add.neutral φ hφ)
    (i : Fin a) (j : Fin b) (l : Fin c) :
    multiReduction .add [3] ⟨3, ![a, b, c]⟩ src acc h hφ hacc (ix3 i j l) = ∑ k : Fin d, src (ix4 i j l k) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The third axis of four. -/
theorem sum_abcd_2 {a b c d : ℕ} (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (i : Fin a) (j : Fin b) (l : Fin d) :
    multiReduction .add [2] ⟨3, ![a, b, d]⟩ src acc h hφ hacc (ix3 i j l) = ∑ k : Fin c, src (ix4 i j k l) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The last axis of two. -/
theorem sum_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun ax => Fin.ext (by
      match ax with | ⟨0, _⟩ => rfl | ⟨1, _⟩ => rfl)))

/-- The first axis of two. -/
theorem sum_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (funext fun ax => Fin.ext (by
      match ax with | ⟨0, _⟩ => rfl | ⟨1, _⟩ => rfl)))

end Sums

end PushPull.Layout
-- ==== Proof.LibRowOps.lean ====
/-
  The programs' operation chains as row-wise layers.

  Each lemma takes a chain of vector operations exactly as one of the two programs spells it, over arrays with ANY
  number "n" of rows, and says it is a layer of GcnSpec: a matrix unit's product onto the zero accumulator and the
  host's dot_general are both "lin"; bias-add followed by the maximum with zero is "relu", whether the bias arrives
  as a loaded one-row block broadcast over the rows or as a vector broadcast twice on the host; and the shifted
  log-sum-exp chain is the logarithm of the softmax of every row, whether the row's maximum and the row's sum are
  lane reductions or host reductions (the host takes one more maximum with minus infinity, which changes nothing).
  All reductions are over the second axis; a reduced vector is put back beside the rows as a one-column array.
-/
import Idealize.ShloMosaic.Lib.Pipeline.Value
import Idealize.ShloMosaic.Lib.ValueIdx
import Idealize.ShloMosaic.Lib.ValueLayout
import Idealize.ShloMosaic.PureOps.Ideal.Laws
import proofs.«114920_j35115652612101_2_alg».proof.Proof.LibRowWise
import proofs.«114920_j35115652612101_2_alg».proof.Proof.LibMatProd
import proofs.«114920_j35115652612101_2_alg».proof.Proof.LibRowCol
import proofs.«114920_j35115652612101_2_alg».proof.Proof.LibLayout

noncomputable section

open scoped BigOperators

namespace GcnOps

open Idealize.ShloMosaic Idealize.ShloMosaic.ValueIdx GcnSpec

variable {n k q : ℕ}

/-! ## The linear layer -/

/-- A matrix unit's product of rank-2 operands onto the zero accumulator is the linear layer. -/
theorem matmul_zero_eq_lin {φ₁ φ₂ : FTy}
    (d : DotDims (⟨2, ![n, k]⟩ : Shape) (⟨2, ![k, q]⟩ : Shape) (⟨2, ![n, q]⟩ : Shape)) (prec : Option ContractPrecision)
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (lhs : FVec Ideal (⟨2, ![n, k]⟩ : Shape) φ₁) (rhs : FVec Ideal (⟨2, ![k, q]⟩ : Shape) φ₂) :
    FloatOps.matmul d prec lhs rhs (constant (F := Ideal) (⟨2, ![n, q]⟩ : Shape) .f32 0x00000000#32) = lin lhs rhs :=
  eq_rowMap _ _ _ fun r c => (MatProd.matmul_zero_entry d prec hr hs hl0 hl1 hr0 hr1 lhs rhs r c).trans rfl

/-- The host's dot_general of rank-2 operands, one axis contracted, is the linear layer. -/
theorem dotGeneral_eq_lin {φ₁ φ₂ : FTy}
    (d : DotDims (⟨2, ![n, k]⟩ : Shape) (⟨2, ![k, q]⟩ : Shape) (⟨2, ![n, q]⟩ : Shape)) (prec : Option ContractPrecision)
    (sched : HostSchedule)
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (lhs : FVec Ideal (⟨2, ![n, k]⟩ : Shape) φ₁) (rhs : FVec Ideal (⟨2, ![k, q]⟩ : Shape) φ₂) :
    FloatOps.dotGeneral d prec sched lhs rhs = lin lhs rhs := by
  refine eq_rowMap _ _ _ fun r c => ?_
  rw [Ideal.dotGeneral_apply, ← Equiv.sum_comp (contrEquiv1 d k hr hs).symm]
  show _ = ∑ l : Fin k, lhs (ix2 r l) * rhs (ix2 l c)
  refine Finset.sum_congr rfl fun l _ => ?_
  have hk := contrEquiv1_symm_val d k hr hs l
  have el : d.lhsIdx (ix2 r c) ((contrEquiv1 d k hr hs).symm l) = ix2 r l := funext fun a => Fin.ext (by
    match a with
    | ⟨0, _⟩ => exact hl0 _ _
    | ⟨1, _⟩ => exact (hl1 _ _).trans hk)
  have er : d.rhsIdx (ix2 r c) ((contrEquiv1 d k hr hs).symm l) = ix2 l c := funext fun a => Fin.ext (by
    match a with
    | ⟨0, _⟩ => exact (hr0 _ _).trans hk
    | ⟨1, _⟩ => exact hr1 _ _)
  rw [el, er]

/-! ## Bias, then the maximum with zero -/

/-- As a kernel body spells it: the block and the one-row bias block loaded (casts to their own shapes), the bias
    broadcast over the rows, the zero a scalar splat. -/
theorem relu_body (x : FVec Ideal (⟨2, ![n, k]⟩ : Shape) .f32) (b : FVec Ideal (⟨2, ![1, k]⟩ : Shape) .f32)
    (h1 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x h1) (broadcastTo ⟨2, ![n, k]⟩ (shapeCast ⟨2, ![1, k]⟩ b h2) hb))
      (broadcast ⟨2, ![n, k]⟩ (Scalar.ofBits (F := Ideal) .f32 0x00000000#32)) = relu x b := by
  rw [shapeCast_self, shapeCast_self]
  refine eq_rowMap _ _ _ fun r c => ?_
  rw [maximumf_apply, addf_apply, broadcast_apply, broadcastTo_1b_ab_apply]
  rfl

/-- The one-row view of a vector, broadcast over the rows on the host in two steps, read at coordinates. -/
theorem bias_host_apply (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2))
    (hsc : (⟨1, ![k]⟩ : Shape).ShapeCasts ⟨2, ![1, k]⟩) (r : Fin n) (c : Fin k) :
    broadcastInDim (⟨2, ![n, k]⟩ : Shape) (![0, 1] : Fin 2 → Fin 2) h2
        (broadcastInDim (⟨2, ![1, k]⟩ : Shape) (![1] : Fin 1 → Fin 2) h1 b) (ix2 r c)
      = shapeCast ⟨2, ![1, k]⟩ b hsc (ix2 (0 : Fin 1) c) := by
  have hc := c.isLt
  rw [broadcastInDim_apply _ h2 _ (ix2 r c) (ix2 (0 : Fin 1) c) (fun a => match a with
      | ⟨0, _⟩ => by show (0 : ℕ) = if (1 : ℕ) = 1 then 0 else r.val; rw [if_pos rfl]
      | ⟨1, _⟩ => by show c.val = if k = 1 then 0 else c.val; split <;> omega),
    broadcastInDim_apply _ h1 b (ix2 (0 : Fin 1) c) (ix1 c) (fun a => match a with
      | ⟨0, _⟩ => by show c.val = if k = 1 then 0 else c.val; split <;> omega),
    shapeCast_a_1a_apply]

/-- As the host spells it: the bias vector broadcast in two steps, the zero a rank-0 constant broadcast. -/
theorem relu_host (a : FVec Ideal (⟨2, ![n, k]⟩ : Shape) .f32) (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2))
    (h0 : (⟨0, ![]⟩ : Shape).BroadcastsInDim (⟨2, ![n, k]⟩ : Shape) (![] : Fin 0 → Fin 2))
    (hsc : (⟨1, ![k]⟩ : Shape).ShapeCasts ⟨2, ![1, k]⟩) :
    maximumf (addf a (broadcastInDim (⟨2, ![n, k]⟩ : Shape) (![0, 1] : Fin 2 → Fin 2) h2
        (broadcastInDim (⟨2, ![1, k]⟩ : Shape) (![1] : Fin 1 → Fin 2) h1 b)))
      (broadcastInDim (⟨2, ![n, k]⟩ : Shape) (![] : Fin 0 → Fin 2) h0 (constant (F := Ideal) (⟨0, ![]⟩ : Shape) .f32 0x00000000#32))
      = relu a (shapeCast ⟨2, ![1, k]⟩ b hsc) := by
  refine eq_rowMap _ _ _ fun r c => ?_
  rw [maximumf_apply, addf_apply, bias_host_apply b h1 h2 hsc r c,
    broadcastInDim_apply _ h0 _ (ix2 r c) ix0 (fun a => a.elim0), constant_apply]
  rfl

/-! ## The logarithm of the softmax -/

/-- The exponential and the logarithm, a body's and the host's, read at an index. -/
theorem exp_apply {s : Shape} (v : FVec Ideal s .f32) (i : s.Idx) : exp v i = Ideal.exp (v i) := rfl
theorem log_apply {s : Shape} (v : FVec Ideal s .f32) (i : s.Idx) : log v i = Ideal.log (v i) := rfl
theorem hostExp_apply {s : Shape} (v : FVec Ideal s .f32) (i : s.Idx) : Host.exp v i = Ideal.exp (v i) := rfl
theorem hostLog_apply {s : Shape} (v : FVec Ideal s .f32) (i : s.Idx) : Host.log v i = Ideal.log (v i) := rfl

/-- Index (r, l) is the reduced index r with the coordinate l put back on axis 1. -/
theorem lift1 (h : (⟨2, ![n, k]⟩ : Shape).Reduces [1] (⟨1, ![n]⟩ : Shape)) (r : Fin n)
    (l : Fin ((⟨2, ![n, k]⟩ : Shape).size 1)) : h.lift (ix1 r) l = ix2 r (⟨l.val, l.isLt⟩ : Fin k) :=
  funext fun ax => Fin.ext (by match ax with | ⟨0, _⟩ => rfl | ⟨1, _⟩ => rfl)

/-- A lane maximum along the row, from minus infinity, is the row's maximum. -/
theorem rowMax_body (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ) (r : Fin n) :
    multiReduction .maximumf [1] (⟨1, ![n]⟩ : Shape) y 0xFF800000#32 hR hφ hacc (ix1 r) = rowMax (row y r) := by
  refine (Ideal.multiReduction_maximumf_single y 0xFF800000#32 hR hφ hacc (ix1 r)).trans ?_
  have hf : (y ∘ hR.lift (ix1 r)) = fun l : Fin k => y (ix2 r l) := funext fun l => congrArg y (lift1 hR r l)
  exact congrArg (fun f => Finset.fold max negInfF f (Finset.univ : Finset (Fin k))) hf

/-- The host's reduce with a maximum body along the row, from minus infinity, is the row's maximum. -/
theorem rowMax_host (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel) (r : Fin n) :
    Host.reduce FloatOps.maximumf y (constant (F := Ideal) (⟨0, ![]⟩ : Shape) .f32 0xFF800000#32) hR' hu (ix1 r)
      = rowMax (row y r) := by
  rw [Host.reduce_eq_fold_single FloatOps.maximumf y _ hR' hR hu]
  have hf : (y ∘ hR.lift (ix1 r)) = fun l : Fin k => y (ix2 r l) := funext fun l => congrArg y (lift1 hR r l)
  exact congrArg (fun f => Finset.fold max negInfF f (Finset.univ : Finset (Fin k))) hf

/-- A lane sum along the row. -/
theorem rowSum_body (y : FVec Ideal (⟨2, ![n, k]⟩ : Shape) .f32)
    (hR : (⟨2, ![n, k]⟩ : Shape).Reduces [1] (⟨1, ![n]⟩ : Shape)) (hφ : FKind.Formats .f32)
    (hacc : (0x00000000#32 : BitVec 32) = FKind.add.neutral .f32 hφ) (r : Fin n) :
    multiReduction .add [1] (⟨1, ![n]⟩ : Shape) y 0x00000000#32 hR hφ hacc (ix1 r) = ∑ l : Fin k, y (ix2 r l) :=
  PushPull.Layout.sum_ab_1 y 0x00000000#32 hR hφ hacc r

/-- The host's sum along the row, from zero. -/
theorem rowSum_host (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel) (r : Fin n) :
    Host.reduceAdd y (constant (F := Ideal) (⟨0, ![]⟩ : Shape) .f32 0x00000000#32) hR' hu (ix1 r) = ∑ l : Fin k, y (ix2 r l) := by
  simp only [Host.reduceAdd, Ideal.hostReduceAdd_def]
  rw [Ideal.hostReduceAdd_single hR' hR, constant_apply, Ideal.ofBits_zero_f32, zero_add]
  exact Finset.sum_congr rfl fun l _ => congrArg y (lift1 hR r l)

/-- The row shifted by its maximum, as a kernel body spells it. -/
def shiftBody (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, k]⟩) :
    FVec Ideal (⟨2, ![n, k]⟩ : Shape) .f32 :=
  subf y (broadcastTo ⟨2, ![n, k]⟩
    (shapeCast ⟨2, ![n, 1]⟩ (multiReduction .maximumf [1] (⟨1, ![n]⟩ : Shape) y 0xFF800000#32 hR hφ hacc) hc) hb)

theorem shiftBody_apply (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, k]⟩)
    (r : Fin n) (c : Fin k) : shiftBody y hR hφ hacc hc hb (ix2 r c) = shifted (row y r) c := by
  unfold shiftBody
  rw [subf_apply, RowCol.broadcastTo_a1_ab_apply, RowCol.shapeCast_a_a1_apply, rowMax_body]
  rfl

/-- The logarithm of the softmax of every row, as a kernel body spells it. -/
theorem logSoftmax_body (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ)
    (hacc0 : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, k]⟩) :
    subf (shiftBody y hR hφ hacc hc hb) (broadcastTo ⟨2, ![n, k]⟩
      (log (shapeCast ⟨2, ![n, 1]⟩
        (multiReduction .add [1] (⟨1, ![n]⟩ : Shape) (exp (shiftBody y hR hφ hacc hc hb)) 0x00000000#32 hR hφ hacc0) hc)) hb)
      = rowMap logSoftmax y := by
  refine eq_rowMap _ _ _ fun r c => ?_
  rw [subf_apply, shiftBody_apply, RowCol.broadcastTo_a1_ab_apply, log_apply, RowCol.shapeCast_a_a1_apply, rowSum_body]
  show _ = shifted (row y r) c - Ideal.log (∑ l : Fin k, Ideal.exp (shifted (row y r) l))
  refine congrArg (fun s => shifted (row y r) c - Ideal.log s) (Finset.sum_congr rfl fun l _ => ?_)
  rw [exp_apply, shiftBody_apply]

/-- The whole last-layer body: bias added to the loaded block, then the logarithm of the softmax. -/
theorem lsm_body (x : FVec Ideal (⟨2, ![n, k]⟩ : Shape) .f32) (b : FVec Ideal (⟨2, ![1, k]⟩ : Shape) .f32)
    (h1 : (⟨2, ![n, k]⟩ : Shape).ShapeCasts ⟨2, ![n, k]⟩) (h2 : (⟨2, ![1, k]⟩ : Shape).ShapeCasts ⟨2, ![1, k]⟩)
    (hbb : (⟨2, ![1, k]⟩ : Shape).Broadcasts ⟨2, ![n, k]⟩)
    (hR : (⟨2, ![n, k]⟩ : Shape).Reduces [1] (⟨1, ![n]⟩ : Shape)) (hφ : FKind.Formats .f32)
    (hacc : (0xFF800000#32 : BitVec 32) = FKind.maximumf.neutral .f32 hφ)
    (hacc0 : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, k]⟩) :
    subf (shiftBody (addf (shapeCast ⟨2, ![n, k]⟩ x h1) (broadcastTo ⟨2, ![n, k]⟩ (shapeCast ⟨2, ![1, k]⟩ b h2) hbb)) hR hφ hacc hc hb)
      (broadcastTo ⟨2, ![n, k]⟩ (log (shapeCast ⟨2, ![n, 1]⟩ (multiReduction .add [1] (⟨1, ![n]⟩ : Shape)
        (exp (shiftBody (addf (shapeCast ⟨2, ![n, k]⟩ x h1) (broadcastTo ⟨2, ![n, k]⟩ (shapeCast ⟨2, ![1, k]⟩ b h2) hbb)) hR hφ hacc hc hb))
        0x00000000#32 hR hφ hacc0) hc)) hb)
      = lsm x b := by
  rw [logSoftmax_body, shapeCast_self, shapeCast_self]
  refine eq_rowMap _ _ _ fun r c => ?_
  rw [rowMap_ix2]
  refine congrFun (congrArg logSoftmax (funext fun l => ?_)) c
  show addf x (broadcastTo ⟨2, ![n, k]⟩ b hbb) (ix2 r l) = x (ix2 r l) + b (ix2 (0 : Fin 1) l)
  rw [addf_apply, broadcastTo_1b_ab_apply]

/-- The row shifted by its maximum, as the host spells it: the reduced maximum once more against minus infinity, then
    put back beside the rows by two broadcasts. -/
def shiftHost (y : FVec Ideal (⟨2, ![n, k]⟩ : Shape) .f32)
    (hR' : (⟨2, ![n, k]⟩ : Shape).ReducesTo [1] (⟨1, ![n]⟩ : Shape)) (hu : 0 < (⟨0, ![]⟩ : Shape).numel)
    (h0 : (⟨0, ![]⟩ : Shape).BroadcastsInDim (⟨1, ![n]⟩ : Shape) (![] : Fin 0 → Fin 1))
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2)) :
    FVec Ideal (⟨2, ![n, k]⟩ : Shape) .f32 :=
  subf y (broadcastInDim (⟨2, ![n, k]⟩ : Shape) (![0, 1] : Fin 2 → Fin 2) hrow
    (broadcastInDim (⟨2, ![n, 1]⟩ : Shape) (![0] : Fin 1 → Fin 2) hcol
      (maximumf (broadcastInDim (⟨1, ![n]⟩ : Shape) (![] : Fin 0 → Fin 1) h0 (constant (F := Ideal) (⟨0, ![]⟩ : Shape) .f32 0xFF800000#32))
        (Host.reduce FloatOps.maximumf y (constant (F := Ideal) (⟨0, ![]⟩ : Shape) .f32 0xFF800000#32) hR' hu))))

/-- A vector put beside the rows by the host's two broadcasts, read at coordinates. -/
theorem col_host_apply (v : FVec Ideal (⟨1, ![n]⟩ : Shape) .f32)
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2))
    (r : Fin n) (c : Fin k) :
    broadcastInDim (⟨2, ![n, k]⟩ : Shape) (![0, 1] : Fin 2 → Fin 2) hrow
      (broadcastInDim (⟨2, ![n, 1]⟩ : Shape) (![0] : Fin 1 → Fin 2) hcol v) (ix2 r c) = v (ix1 r) := by
  have hr := r.isLt
  rw [broadcastInDim_apply _ hrow _ (ix2 r c) (ix2 r (0 : Fin 1)) (fun a => match a with
      | ⟨0, _⟩ => by show r.val = if n = 1 then 0 else r.val; split <;> omega
      | ⟨1, _⟩ => by show (0 : ℕ) = if (1 : ℕ) = 1 then 0 else c.val; rw [if_pos rfl]),
    broadcastInDim_apply _ hcol v (ix2 r (0 : Fin 1)) (ix1 r) (fun a => match a with
      | ⟨0, _⟩ => by show r.val = if n = 1 then 0 else r.val; split <;> omega)]

theorem shiftHost_apply (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel)
    (h0 : (⟨0, ![]⟩ : Shape).BroadcastsInDim (⟨1, ![n]⟩ : Shape) (![] : Fin 0 → Fin 1))
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2))
    (r : Fin n) (c : Fin k) : shiftHost y hR' hu h0 hcol hrow (ix2 r c) = shifted (row y r) c := by
  unfold shiftHost
  rw [subf_apply, col_host_apply, maximumf_apply,
    broadcastInDim_apply _ h0 _ (ix1 r) ix0 (fun a => a.elim0), constant_apply, rowMax_host y hR' hR hu r]
  show y (ix2 r c) - max negInfF (rowMax (row y r)) = _
  rw [max_negInfF]
  rfl

/-- The logarithm of the softmax of every row, as the host spells it. -/
theorem logSoftmax_host (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel)
    (h0 : (⟨0, ![]⟩ : Shape).BroadcastsInDim (⟨1, ![n]⟩ : Shape) (![] : Fin 0 → Fin 1))
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2)) :
    subf (shiftHost y hR' hu h0 hcol hrow)
      (broadcastInDim (⟨2, ![n, k]⟩ : Shape) (![0, 1] : Fin 2 → Fin 2) hrow
        (Host.log (broadcastInDim (⟨2, ![n, 1]⟩ : Shape) (![0] : Fin 1 → Fin 2) hcol
          (Host.reduceAdd (Host.exp (shiftHost y hR' hu h0 hcol hrow))
            (constant (F := Ideal) (⟨0, ![]⟩ : Shape) .f32 0x00000000#32) hR' hu))))
      = rowMap logSoftmax y := by
  have hr1 : ∀ r : Fin n, (if n = 1 then 0 else r.val) = r.val := fun r => by have := r.isLt; split <;> omega
  refine eq_rowMap _ _ _ fun r c => ?_
  rw [subf_apply, shiftHost_apply y hR' hR hu h0 hcol hrow r c,
    broadcastInDim_apply _ hrow _ (ix2 r c) (ix2 r (0 : Fin 1)) (fun a => match a with
      | ⟨0, _⟩ => (hr1 r).symm
      | ⟨1, _⟩ => by show (0 : ℕ) = if (1 : ℕ) = 1 then 0 else c.val; rw [if_pos rfl]), hostLog_apply,
    broadcastInDim_apply _ hcol _ (ix2 r (0 : Fin 1)) (ix1 r) (fun a => match a with
      | ⟨0, _⟩ => (hr1 r).symm), rowSum_host _ hR' hR hu r]
  show _ = shifted (row y r) c - Ideal.log (∑ l : Fin k, Ideal.exp (shifted (row y r) l))
  refine congrArg (fun s => shifted (row y r) c - Ideal.log s) (Finset.sum_congr rfl fun l _ => ?_)
  rw [hostExp_apply, shiftHost_apply y hR' hR hu h0 hcol hrow r l]

/-- The host's last layer: bias broadcast in two steps and added, then the logarithm of the softmax. -/
theorem lsm_host (a : FVec Ideal (⟨2, ![n, k]⟩ : Shape) .f32) (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2))
    (hsc : (⟨1, ![k]⟩ : Shape).ShapeCasts ⟨2, ![1, k]⟩) :
    rowMap logSoftmax (addf a (broadcastInDim (⟨2, ![n, k]⟩ : Shape) (![0, 1] : Fin 2 → Fin 2) h2
        (broadcastInDim (⟨2, ![1, k]⟩ : Shape) (![1] : Fin 1 → Fin 2) h1 b)))
      = lsm a (shapeCast ⟨2, ![1, k]⟩ b hsc) := by
  refine eq_rowMap _ _ _ fun r c => ?_
  rw [rowMap_ix2]
  refine congrFun (congrArg logSoftmax (funext fun l => ?_)) c
  show addf a _ (ix2 r l) = a (ix2 r l) + shapeCast ⟨2, ![1, k]⟩ b hsc (ix2 (0 : Fin 1) l)
  rw [addf_apply, bias_host_apply b h1 h2 hsc r l]

end GcnOps

end
-- ==== Proof.LibSageLayer.lean ====
/-
  One layer of a mean-aggregation graph network on arrays of extended reals, and the law that joins its two spellings.

  A layer takes, for every node r, the row M(r, ·) of aggregated neighbour features already divided by the node's
  in-degree ("the mean"), and the node's own row h(r, ·).  Entry (r, c) of its result is

      (sum over l of M(r, l) * Wl(l, c))  +  b(c)  +  (sum over l of h(r, l) * Wr(l, c)),

  followed, in every layer but the last, by the maximum with zero.  The bias is added to the first product before
  the second product is added: that is the grouping both programs use, so no re-association is needed.

  The two programs differ only in how they form the mean from the aggregated sum A and the clamped degree d:
  one multiplies the row by the reciprocal 1 / d computed once, the other divides every entry by d.  On the
  extended reals  x * (1 / d) = x / d  holds for every x as soon as d is not zero (both sides are x times the
  inverse of d; at d = 0 they would differ, 0 * (1 / 0) = 0 against 0 / 0 = bottom).  The clamped degree is the
  maximum of 1 and a count, hence at least 1 and never zero, whatever the count is: the law needs no finiteness.

  The layer is ROW-WISE: row r of the result depends on row r of M, row r of h and the parameters only.  So a band
  of rows computed from the band of M and the band of h is the band of the whole result ("layer_row").
-/
import Idealize.ShloMosaic.Lib.ValueIdx
import Idealize.ShloMosaic.PureOps.Ideal.Laws
import proofs.«114920_j35115652612101_2_alg».proof.Proof.LibRowWise
import proofs.«114920_j35115652612101_2_alg».proof.Proof.LibMatProd

noncomputable section

open scoped BigOperators

namespace Sage

open Idealize.ShloMosaic Idealize.ShloMosaic.ValueIdx GcnSpec

/-- What follows the two products and the bias: the maximum with zero, or nothing (the last layer). -/
def post (relu : Bool) (z : EReal) : EReal := if relu then max z zeroF else z

theorem post_true (z : EReal) : post true z = max z zeroF := rfl
theorem post_false (z : EReal) : post false z = z := rfl

/-- One layer, from the mean M and the nodes' own features h. -/
def layer (relu : Bool) {n k q : ℕ} (M h : Arr n k) (Wl : Arr k q) (b : Arr 1 q) (Wr : Arr k q) : Arr n q :=
  fun i => post relu
    ((lin M Wl i + b (ix2 (0 : Fin 1) (⟨(i 1).val, idx2_lt1 i⟩ : Fin q))) + lin h Wr i)

/-- The layer read at a pair of coordinates: the two products as plain sums. -/
theorem layer_ix2 (relu : Bool) {n k q : ℕ} (M h : Arr n k) (Wl : Arr k q) (b : Arr 1 q) (Wr : Arr k q)
    (r : Fin n) (c : Fin q) :
    layer relu M h Wl b Wr (ix2 r c)
      = post relu (((∑ l : Fin k, M (ix2 r l) * Wl (ix2 l c)) + b (ix2 (0 : Fin 1) c))
          + ∑ l : Fin k, h (ix2 r l) * Wr (ix2 l c)) := rfl

/-- To show an array is the layer it is enough to read it at every pair of coordinates. -/
theorem eq_layer (relu : Bool) {n k q : ℕ} (M h : Arr n k) (Wl : Arr k q) (b : Arr 1 q) (Wr : Arr k q) (y : Arr n q)
    (hy : ∀ (r : Fin n) (c : Fin q), y (ix2 r c)
      = post relu (((∑ l : Fin k, M (ix2 r l) * Wl (ix2 l c)) + b (ix2 (0 : Fin 1) c))
          + ∑ l : Fin k, h (ix2 r l) * Wr (ix2 l c))) :
    y = layer relu M h Wl b Wr := by
  funext i
  obtain ⟨r, c, rfl⟩ : ∃ (r : Fin n) (c : Fin q), i = ix2 r c := ⟨i 0, i 1, eq_ix2 i⟩
  rw [hy, layer_ix2]

/-- Row-wise: a row of the result is fixed by the same row of the mean and of the own features, and column c of the
    result by column c of the parameters.  Row r of a band and row r' of the whole array give the same entry when the
    two rows of M agree, the two rows of h agree, and the parameters agree in column c. -/
theorem layer_row (relu : Bool) {n n' k q : ℕ} (M h : Arr n k) (M' h' : Arr n' k) (Wl Wl' : Arr k q) (b b' : Arr 1 q)
    (Wr Wr' : Arr k q) (r : Fin n) (r' : Fin n') (c : Fin q)
    (hM : ∀ l : Fin k, M (ix2 r l) = M' (ix2 r' l)) (hh : ∀ l : Fin k, h (ix2 r l) = h' (ix2 r' l))
    (hWl : ∀ l : Fin k, Wl (ix2 l c) = Wl' (ix2 l c)) (hb : b (ix2 (0 : Fin 1) c) = b' (ix2 (0 : Fin 1) c))
    (hWr : ∀ l : Fin k, Wr (ix2 l c) = Wr' (ix2 l c)) :
    layer relu M h Wl b Wr (ix2 r c) = layer relu M' h' Wl' b' Wr' (ix2 r' c) := by
  rw [layer_ix2, layer_ix2]
  have e1 : (∑ l : Fin k, M (ix2 r l) * Wl (ix2 l c)) = ∑ l : Fin k, M' (ix2 r' l) * Wl' (ix2 l c) :=
    Finset.sum_congr rfl fun l _ => by rw [hM l, hWl l]
  have e2 : (∑ l : Fin k, h (ix2 r l) * Wr (ix2 l c)) = ∑ l : Fin k, h' (ix2 r' l) * Wr' (ix2 l c) :=
    Finset.sum_congr rfl fun l _ => by rw [hh l, hWr l]
  rw [e1, e2, hb]

/-! ## The mean, two ways -/

/-- Every row of A times that row's entry of the one-column array s. -/
def scaleRows {n k : ℕ} (A : Arr n k) (s : Arr n 1) : Arr n k :=
  fun i => A i * s (ix2 (⟨(i 0).val, idx2_lt0 i⟩ : Fin n) (0 : Fin 1))

theorem scaleRows_ix2 {n k : ℕ} (A : Arr n k) (s : Arr n 1) (r : Fin n) (l : Fin k) :
    scaleRows A s (ix2 r l) = A (ix2 r l) * s (ix2 r (0 : Fin 1)) := rfl

/-- Every entry of A divided by its row's entry of the vector d. -/
def divRows {n k : ℕ} (A : Arr n k) (d : (⟨1, ![n]⟩ : Shape).Idx → EReal) : Arr n k :=
  fun i => Ideal.div (A i) (d (ix1 (⟨(i 0).val, idx2_lt0 i⟩ : Fin n)))

theorem divRows_ix2 {n k : ℕ} (A : Arr n k) (d : (⟨1, ![n]⟩ : Shape).Idx → EReal) (r : Fin n) (l : Fin k) :
    divRows A d (ix2 r l) = Ideal.div (A (ix2 r l)) (d (ix1 r)) := rfl

/-- Multiplying by the reciprocal is dividing, off zero: both are the product with the inverse. -/
theorem mul_div_one (x : EReal) {y : EReal} (hy : y ≠ 0) : x * Ideal.div 1 y = Ideal.div x y := by
  unfold Ideal.div
  rw [if_neg hy, if_neg hy, one_mul]

/-- The float one, kept as the word the programs spell it with, is the number one. -/
def oneF : EReal := Ideal.ofBits .f32 0x3F800000#32

theorem oneF_eq : oneF = 1 := by
  unfold oneF
  simp [Ideal.ofBits, Ideal.ieee, -EReal.coe_mul]; norm_num

/-- A count clamped below at one is not zero, whatever the count. -/
theorem clamp_ne_zero (g : EReal) : max oneF g ≠ 0 := by
  have h1 : (0 : EReal) < oneF := by rw [oneF_eq]; exact zero_lt_one
  exact ne_of_gt (lt_of_lt_of_le h1 (le_max_left _ _))

/-- Scaling the rows by the reciprocals of a vector with no zero entry is dividing the rows by the vector. -/
theorem scaleRows_eq_divRows {n k : ℕ} (A : Arr n k) (s : Arr n 1) (d : (⟨1, ![n]⟩ : Shape).Idx → EReal)
    (hs : ∀ r : Fin n, s (ix2 r (0 : Fin 1)) = Ideal.div oneF (d (ix1 r))) (hd : ∀ r : Fin n, d (ix1 r) ≠ 0) :
    scaleRows A s = divRows A d := by
  funext i
  obtain ⟨r, l, rfl⟩ : ∃ (r : Fin n) (l : Fin k), i = ix2 r l := ⟨i 0, i 1, eq_ix2 i⟩
  rw [scaleRows_ix2, divRows_ix2, hs r, oneF_eq]
  exact mul_div_one _ (hd r)

end Sage

end
-- ==== Proof.LibSageElu.lean ====
/-
  The layer of a mean-aggregation graph network with an exponential-linear activation, on arrays of extended reals.

  For a node r the layer takes the row M(r, ·) of averaged neighbour features and the node's own row h(r, ·); entry
  (r, c) of its pre-activation is

      ((sum over l of M(r, l) * Wl(l, c)) + (sum over l of h(r, l) * Wr(l, c))) + b(c),

  the two products added first and the bias last.  The activation is  elu z = z  for z > 0  and  exp (min z 0) - 1
  otherwise; for z <= 0 the minimum is z itself, so this is exp z - 1 there.  The last layer has no activation, and the
  kernel forms it from an already projected aggregate P as  ((sum over l of h(r, l) * Wr(l, c)) + P(r, c)) + b(c).

  Every one of these is ROW-WISE: row r of the result is fixed by row r of the inputs, so a band of rows computed from the
  bands of the inputs is the band of the whole result.  The last part reads a kernel body's chain of vector operations
  on a band (the averaged features formed as aggregate times a one-column reciprocal, operands narrowed to a shorter
  float format, which changes nothing on the extended reals, products accumulated onto zero) as these layers on the band.
-/
import Idealize.ShloMosaic.Lib.Pipeline.Value
import Idealize.ShloMosaic.Lib.ValueIdx
import Idealize.ShloMosaic.Lib.ValueLayout
import Idealize.ShloMosaic.PureOps.Ideal.Laws
import proofs.«114920_j35115652612101_2_alg».proof.Proof.LibRowWise
import proofs.«114920_j35115652612101_2_alg».proof.Proof.LibMatProd
import proofs.«114920_j35115652612101_2_alg».proof.Proof.LibRowCol
import proofs.«114920_j35115652612101_2_alg».proof.Proof.LibRowOps
import proofs.«114920_j35115652612101_2_alg».proof.Proof.LibSageLayer

noncomputable section

open scoped BigOperators

namespace SageElu

open Idealize.ShloMosaic Idealize.ShloMosaic.ValueIdx GcnSpec Sage

variable {n k q : ℕ}

/-! ## The activation -/

/-- A choice made on a strict comparison: the first value exactly when the bound is below the number. -/
theorem select_gt (z y a b : EReal) :
    Scalar.select (Ideal.cmp .ogt z y) a b = if y < z then a else b := by
  unfold Scalar.select Ideal.cmp
  by_cases h : y < z <;> simp [h]

/-- The exponential-linear unit: the number itself above zero, exp (min z 0) - 1 otherwise. -/
def eluF (z : EReal) : EReal := if zeroF < z then z else Ideal.exp (min z zeroF) - oneF

theorem eluF_pos {z : EReal} (h : zeroF < z) : eluF z = z := if_pos h

/-- At or below zero the minimum with zero is the number itself. -/
theorem eluF_nonpos {z : EReal} (h : ¬ zeroF < z) : eluF z = Ideal.exp z - 1 := by
  unfold eluF
  rw [if_neg h, min_eq_left (not_lt.mp h), oneF_eq]

/-- The activation as a kernel body spells it, read at an index. -/
theorem elu_body_apply {s : Shape} (Z : FVec Ideal s .f32) (i : s.Idx) :
    select (cmpf .ogt Z (broadcast s (Scalar.ofBits (F := Ideal) .f32 0x00000000#32))) Z
        (subf (exp (minimumf Z (broadcast s (Scalar.ofBits (F := Ideal) .f32 0x00000000#32))))
          (broadcast s (Scalar.ofBits (F := Ideal) .f32 0x3F800000#32))) i
      = eluF (Z i) := by
  rw [select_apply, cmpf_apply]
  show Scalar.select (Ideal.cmp .ogt (Z i) zeroF) (Z i) (Ideal.exp (min (Z i) zeroF) - oneF) = _
  rw [select_gt]
  rfl

/-! ## The layers -/

/-- The pre-activation: the two products, then the bias. -/
def pre (M h : Arr n k) (Wl Wr : Arr k q) (b : Arr 1 q) : Arr n q :=
  fun i => (lin M Wl i + lin h Wr i) + b (ix2 (0 : Fin 1) (⟨(i 1).val, idx2_lt1 i⟩ : Fin q))

theorem pre_ix2 (M h : Arr n k) (Wl Wr : Arr k q) (b : Arr 1 q) (r : Fin n) (c : Fin q) :
    pre M h Wl Wr b (ix2 r c)
      = ((∑ l : Fin k, M (ix2 r l) * Wl (ix2 l c)) + ∑ l : Fin k, h (ix2 r l) * Wr (ix2 l c)) + b (ix2 (0 : Fin 1) c) := rfl

/-- A layer with the activation. -/
def layerE (M h : Arr n k) (Wl Wr : Arr k q) (b : Arr 1 q) : Arr n q := fun i => eluF (pre M h Wl Wr b i)

/-- The last layer as the kernel forms it: own product, the projected and averaged aggregate, the bias. -/
def lastK (P : Arr n q) (h : Arr n k) (Wr : Arr k q) (b : Arr 1 q) : Arr n q :=
  fun i => (lin h Wr i + P i) + b (ix2 (0 : Fin 1) (⟨(i 1).val, idx2_lt1 i⟩ : Fin q))

theorem lastK_ix2 (P : Arr n q) (h : Arr n k) (Wr : Arr k q) (b : Arr 1 q) (r : Fin n) (c : Fin q) :
    lastK P h Wr b (ix2 r c) = ((∑ l : Fin k, h (ix2 r l) * Wr (ix2 l c)) + P (ix2 r c)) + b (ix2 (0 : Fin 1) c) := rfl

/-- Row-wise: row r of one computation and row r' of another give the same entry in column c when the rows of M and of h
    agree and the parameters agree in column c. -/
theorem pre_row {n' : ℕ} (M h : Arr n k) (M' h' : Arr n' k) (Wl Wr Wl' Wr' : Arr k q) (b b' : Arr 1 q) (r : Fin n)
    (r' : Fin n') (c : Fin q) (hM : ∀ l : Fin k, M (ix2 r l) = M' (ix2 r' l))
    (hh : ∀ l : Fin k, h (ix2 r l) = h' (ix2 r' l)) (hWl : ∀ l : Fin k, Wl (ix2 l c) = Wl' (ix2 l c))
    (hWr : ∀ l : Fin k, Wr (ix2 l c) = Wr' (ix2 l c)) (hb : b (ix2 (0 : Fin 1) c) = b' (ix2 (0 : Fin 1) c)) :
    pre M h Wl Wr b (ix2 r c) = pre M' h' Wl' Wr' b' (ix2 r' c) := by
  rw [pre_ix2, pre_ix2]
  have e1 : (∑ l : Fin k, M (ix2 r l) * Wl (ix2 l c)) = ∑ l : Fin k, M' (ix2 r' l) * Wl' (ix2 l c) :=
    Finset.sum_congr rfl fun l _ => by rw [hM l, hWl l]
  have e2 : (∑ l : Fin k, h (ix2 r l) * Wr (ix2 l c)) = ∑ l : Fin k, h' (ix2 r' l) * Wr' (ix2 l c) :=
    Finset.sum_congr rfl fun l _ => by rw [hh l, hWr l]
  rw [e1, e2, hb]

theorem layerE_row {n' : ℕ} (M h : Arr n k) (M' h' : Arr n' k) (Wl Wr Wl' Wr' : Arr k q) (b b' : Arr 1 q) (r : Fin n)
    (r' : Fin n') (c : Fin q) (hM : ∀ l : Fin k, M (ix2 r l) = M' (ix2 r' l))
    (hh : ∀ l : Fin k, h (ix2 r l) = h' (ix2 r' l)) (hWl : ∀ l : Fin k, Wl (ix2 l c) = Wl' (ix2 l c))
    (hWr : ∀ l : Fin k, Wr (ix2 l c) = Wr' (ix2 l c)) (hb : b (ix2 (0 : Fin 1) c) = b' (ix2 (0 : Fin 1) c)) :
    layerE M h Wl Wr b (ix2 r c) = layerE M' h' Wl' Wr' b' (ix2 r' c) :=
  congrArg eluF (pre_row M h M' h' Wl Wr Wl' Wr' b b' r r' c hM hh hWl hWr hb)

theorem lin_row {n' : ℕ} (h : Arr n k) (h' : Arr n' k) (W W' : Arr k q) (r : Fin n) (r' : Fin n') (c : Fin q)
    (hh : ∀ l : Fin k, h (ix2 r l) = h' (ix2 r' l)) (hW : ∀ l : Fin k, W (ix2 l c) = W' (ix2 l c)) :
    lin h W (ix2 r c) = lin h' W' (ix2 r' c) := by
  show (∑ l : Fin k, h (ix2 r l) * W (ix2 l c)) = ∑ l : Fin k, h' (ix2 r' l) * W' (ix2 l c)
  exact Finset.sum_congr rfl fun l _ => by rw [hh l, hW l]

theorem lastK_row {n' : ℕ} (P : Arr n q) (h : Arr n k) (P' : Arr n' q) (h' : Arr n' k) (Wr Wr' : Arr k q) (b b' : Arr 1 q)
    (r : Fin n) (r' : Fin n') (c : Fin q) (hP : P (ix2 r c) = P' (ix2 r' c))
    (hh : ∀ l : Fin k, h (ix2 r l) = h' (ix2 r' l)) (hWr : ∀ l : Fin k, Wr (ix2 l c) = Wr' (ix2 l c))
    (hb : b (ix2 (0 : Fin 1) c) = b' (ix2 (0 : Fin 1) c)) :
    lastK P h Wr b (ix2 r c) = lastK P' h' Wr' b' (ix2 r' c) := by
  rw [lastK_ix2, lastK_ix2, hP, hb]
  have e2 : (∑ l : Fin k, h (ix2 r l) * Wr (ix2 l c)) = ∑ l : Fin k, h' (ix2 r' l) * Wr' (ix2 l c) :=
    Finset.sum_congr rfl fun l _ => by rw [hh l, hWr l]
  rw [e2]

/-- Scaled rows agree when the rows and the scale agree. -/
theorem scaleRows_row {n' : ℕ} (A : Arr n k) (s : Arr n 1) (A' : Arr n' k) (s' : Arr n' 1) (r : Fin n) (r' : Fin n')
    (l : Fin k) (hA : A (ix2 r l) = A' (ix2 r' l)) (hs : s (ix2 r (0 : Fin 1)) = s' (ix2 r' (0 : Fin 1))) :
    scaleRows A s (ix2 r l) = scaleRows A' s' (ix2 r' l) := by
  rw [scaleRows_ix2, scaleRows_ix2, hA, hs]

/-! ## A kernel body's chain on a band is the layer on the band -/

section Bodies
variable (d : DotDims (⟨2, ![n, k]⟩ : Shape) (⟨2, ![k, q]⟩ : Shape) (⟨2, ![n, q]⟩ : Shape))
  (hr : d.contr.rank = 1) (hs : d.contr.size ⟨0, by omega⟩ = k)
  (hl0 : ∀ (j : (⟨2, ![n, q]⟩ : Shape).Idx) (c : d.contr.Idx), (d.lhsIdx j c 0).val = (j 0).val)
  (hl1 : ∀ (j : (⟨2, ![n, q]⟩ : Shape).Idx) (c : d.contr.Idx), (d.lhsIdx j c 1).val = (c ⟨0, by omega⟩).val)
  (hr0 : ∀ (j : (⟨2, ![n, q]⟩ : Shape).Idx) (c : d.contr.Idx), (d.rhsIdx j c 0).val = (c ⟨0, by omega⟩).val)
  (hr1 : ∀ (j : (⟨2, ![n, q]⟩ : Shape).Idx) (c : d.contr.Idx), (d.rhsIdx j c 1).val = (j 1).val)
  (hlt : FTy.bf16.bits < FTy.f32.bits)

include hr hs hl0 hl1 hr0 hr1

/-- The pre-activation as a body spells it: aggregate times the reciprocal column, narrowed; own rows narrowed; both
    products onto zero; the one-row bias broadcast over the rows. -/
theorem body_pre (x0 : FVec Ideal (⟨2, ![n, k]⟩ : Shape) .f32) (x1 : FVec Ideal (⟨2, ![n, 1]⟩ : Shape) .f32)
    (x2 : FVec Ideal (⟨2, ![n, k]⟩ : Shape) .f32) (x3 x4 : FVec Ideal (⟨2, ![k, q]⟩ : Shape) .f32)
    (x5 : FVec Ideal (⟨2, ![1, q]⟩ : Shape) .f32)
    (hb1 : (⟨2, ![n, 1]⟩ : Shape).Broadcasts ⟨2, ![n, k]⟩) (hb5 : (⟨2, ![1, q]⟩ : Shape).Broadcasts ⟨2, ![n, q]⟩) :
    addf (addf
        (matmul d none (truncf .bf16 (mulf x0 (broadcastTo ⟨2, ![n, k]⟩ x1 hb1)) hlt) (truncf .bf16 x3 hlt)
          (constant (F := Ideal) (⟨2, ![n, q]⟩ : Shape) .f32 0x00000000#32))
        (matmul d none (truncf .bf16 x2 hlt) (truncf .bf16 x4 hlt)
          (constant (F := Ideal) (⟨2, ![n, q]⟩ : Shape) .f32 0x00000000#32)))
      (broadcastTo ⟨2, ![n, q]⟩ x5 hb5)
      = pre (scaleRows x0 x1) x2 x3 x4 x5 := by
  funext i
  obtain ⟨r, c, rfl⟩ : ∃ (r : Fin n) (c : Fin q), i = ix2 r c := ⟨i 0, i 1, eq_ix2 i⟩
  rw [addf_apply, addf_apply, broadcastTo_1b_ab_apply, pre_ix2]
  have e1 := congrFun (GcnOps.matmul_zero_eq_lin d none hr hs hl0 hl1 hr0 hr1
    (truncf .bf16 (mulf x0 (broadcastTo ⟨2, ![n, k]⟩ x1 hb1)) hlt) (truncf .bf16 x3 hlt)) (ix2 r c)
  have e2 := congrFun (GcnOps.matmul_zero_eq_lin d none hr hs hl0 hl1 hr0 hr1
    (truncf .bf16 x2 hlt) (truncf .bf16 x4 hlt)) (ix2 r c)
  refine congrArg (· + x5 (ix2 (0 : Fin 1) c)) ?_
  refine (congrArg₂ (· + ·) e1 e2).trans ?_
  refine congrArg (· + ∑ l : Fin k, x2 (ix2 r l) * x4 (ix2 l c)) ?_
  show (∑ l : Fin k, (x0 (ix2 r l) * broadcastTo ⟨2, ![n, k]⟩ x1 hb1 (ix2 r l)) * x3 (ix2 l c))
    = ∑ l : Fin k, scaleRows x0 x1 (ix2 r l) * x3 (ix2 l c)
  exact Finset.sum_congr rfl fun l _ => by rw [RowCol.broadcastTo_a1_ab_apply, scaleRows_ix2]

/-- A whole body of the first two layers: the pre-activation, then the activation. -/
theorem body_layerE (x0 : FVec Ideal (⟨2, ![n, k]⟩ : Shape) .f32) (x1 : FVec Ideal (⟨2, ![n, 1]⟩ : Shape) .f32)
    (x2 : FVec Ideal (⟨2, ![n, k]⟩ : Shape) .f32) (x3 x4 : FVec Ideal (⟨2, ![k, q]⟩ : Shape) .f32)
    (x5 : FVec Ideal (⟨2, ![1, q]⟩ : Shape) .f32)
    (hb1 : (⟨2, ![n, 1]⟩ : Shape).Broadcasts ⟨2, ![n, k]⟩) (hb5 : (⟨2, ![1, q]⟩ : Shape).Broadcasts ⟨2, ![n, q]⟩)
    (Z : FVec Ideal (⟨2, ![n, q]⟩ : Shape) .f32)
    (hZ : Z = addf (addf
        (matmul d none (truncf .bf16 (mulf x0 (broadcastTo ⟨2, ![n, k]⟩ x1 hb1)) hlt) (truncf .bf16 x3 hlt)
          (constant (F := Ideal) (⟨2, ![n, q]⟩ : Shape) .f32 0x00000000#32))
        (matmul d none (truncf .bf16 x2 hlt) (truncf .bf16 x4 hlt)
          (constant (F := Ideal) (⟨2, ![n, q]⟩ : Shape) .f32 0x00000000#32)))
      (broadcastTo ⟨2, ![n, q]⟩ x5 hb5)) :
    select (cmpf .ogt Z (broadcast (⟨2, ![n, q]⟩ : Shape) (Scalar.ofBits (F := Ideal) .f32 0x00000000#32))) Z
        (subf (exp (minimumf Z (broadcast (⟨2, ![n, q]⟩ : Shape) (Scalar.ofBits (F := Ideal) .f32 0x00000000#32))))
          (broadcast (⟨2, ![n, q]⟩ : Shape) (Scalar.ofBits (F := Ideal) .f32 0x3F800000#32)))
      = layerE (scaleRows x0 x1) x2 x3 x4 x5 := by
  funext i
  rw [elu_body_apply, hZ, body_pre d hr hs hl0 hl1 hr0 hr1 hlt]
  rfl

/-- The projection body: own rows narrowed, times the narrowed matrix, onto zero. -/
theorem body_lin (x0 : FVec Ideal (⟨2, ![n, k]⟩ : Shape) .f32) (x1 : FVec Ideal (⟨2, ![k, q]⟩ : Shape) .f32) :
    matmul d none (truncf .bf16 x0 hlt) (truncf .bf16 x1 hlt)
        (constant (F := Ideal) (⟨2, ![n, q]⟩ : Shape) .f32 0x00000000#32)
      = lin x0 x1 :=
  GcnOps.matmul_zero_eq_lin d none hr hs hl0 hl1 hr0 hr1 (truncf .bf16 x0 hlt) (truncf .bf16 x1 hlt)

/-- The last body: own product onto zero, plus the projected aggregate times the reciprocal column, plus the bias. -/
theorem body_lastK (x0 : FVec Ideal (⟨2, ![n, q]⟩ : Shape) .f32) (x1 : FVec Ideal (⟨2, ![n, 1]⟩ : Shape) .f32)
    (x2 : FVec Ideal (⟨2, ![n, k]⟩ : Shape) .f32) (x3 : FVec Ideal (⟨2, ![k, q]⟩ : Shape) .f32)
    (x4 : FVec Ideal (⟨2, ![1, q]⟩ : Shape) .f32)
    (hb1 : (⟨2, ![n, 1]⟩ : Shape).Broadcasts ⟨2, ![n, q]⟩) (hb4 : (⟨2, ![1, q]⟩ : Shape).Broadcasts ⟨2, ![n, q]⟩) :
    addf (addf
        (matmul d none (truncf .bf16 x2 hlt) (truncf .bf16 x3 hlt)
          (constant (F := Ideal) (⟨2, ![n, q]⟩ : Shape) .f32 0x00000000#32))
        (mulf x0 (broadcastTo ⟨2, ![n, q]⟩ x1 hb1)))
      (broadcastTo ⟨2, ![n, q]⟩ x4 hb4)
      = lastK (scaleRows x0 x1) x2 x3 x4 := by
  funext i
  obtain ⟨r, c, rfl⟩ : ∃ (r : Fin n) (c : Fin q), i = ix2 r c := ⟨i 0, i 1, eq_ix2 i⟩
  rw [addf_apply, addf_apply, broadcastTo_1b_ab_apply, lastK_ix2, mulf_apply, RowCol.broadcastTo_a1_ab_apply,
    scaleRows_ix2]
  have e1 := congrFun (GcnOps.matmul_zero_eq_lin d none hr hs hl0 hl1 hr0 hr1
    (truncf .bf16 x2 hlt) (truncf .bf16 x3 hlt)) (ix2 r c)
  refine congrArg (· + x4 (ix2 (0 : Fin 1) c)) ?_
  refine congrArg (· + x0 (ix2 r c) * x1 (ix2 r (0 : Fin 1))) ?_
  exact e1

end Bodies

end SageElu

end
-- ==== Proof.LibDot2.lean ====
/-
  The plain matrix product's dimension numbers, read at coordinates.

  A product of an n × k array with a k × q array that contracts the columns of the left operand against the rows of the
  right one, with no batch axes, carries the dimension numbers "left contracting [1], right contracting [0], left free
  [0], right free [1]".  For any record with these lists: one axis is contracted and its extent is k; the left operand is
  read at (row of the result, contraction position) and the right operand at (contraction position, column of the result).
-/
import Idealize.ShloMosaic.Lib.ValueIdx
import Idealize.ShloMosaic.PureOps.Ideal.Laws

namespace Dot2

open Idealize.ShloMosaic Idealize.ShloMosaic.ValueIdx

variable {n k q : ℕ} (d : DotDims (⟨2, ![n, k]⟩ : Shape) (⟨2, ![k, q]⟩ : Shape) (⟨2, ![n, q]⟩ : Shape))
  (h1 : d.lhsContracting = [1]) (h2 : d.rhsContracting = [0]) (h3 : d.lhsNonContracting = [0])
  (h4 : d.rhsNonContracting = [1]) (h5 : d.lhsBatch = []) (h6 : d.rhsBatch = [])

include h1 in
/-- One axis is contracted. -/
theorem rank_contr : d.contr.rank = 1 := by rw [d.rank_contr, h1]; rfl

include h1 in
/-- Its extent is the left operand's number of columns. -/
theorem size_contr (h0 : 0 < d.contr.rank) : d.contr.size ⟨0, h0⟩ = k := by
  have := d.size_contr 0 (by rw [h1]; exact Nat.one_pos)
  rw [this]
  simp only [h1]
  rfl

include h1 in
/-- The left operand's column is the contraction position. -/
theorem lhs1 (h0 : 0 < d.contr.rank) (j : (⟨2, ![n, q]⟩ : Shape).Idx) (c : d.contr.Idx) :
    (d.lhsIdx j c 1).val = (c ⟨0, h0⟩).val := d.lhsIdx_val_of_single h1 j c

include h2 in
/-- The right operand's row is the contraction position. -/
theorem rhs0 (h0 : 0 < d.contr.rank) (j : (⟨2, ![n, q]⟩ : Shape).Idx) (c : d.contr.Idx) :
    (d.rhsIdx j c 0).val = (c ⟨0, h0⟩).val := d.rhsIdx_val_of_single h2 j c

include h3 h5 in
/-- The left operand's row is the result's row. -/
theorem lhs0 (j : (⟨2, ![n, q]⟩ : Shape).Idx) (c : d.contr.Idx) : (d.lhsIdx j c 0).val = (j 0).val := by
  unfold DotDims.lhsIdx
  have hb : (0 : Fin 2) ∉ d.lhsBatch := by rw [h5]; exact List.not_mem_nil
  have hn : (0 : Fin 2) ∈ d.lhsNonContracting := by rw [h3]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3])

include h4 h6 h3 h5 in
/-- The right operand's column is the result's column. -/
theorem rhs1 (j : (⟨2, ![n, q]⟩ : Shape).Idx) (c : d.contr.Idx) : (d.rhsIdx j c 1).val = (j 1).val := by
  unfold DotDims.rhsIdx
  have hb : (1 : Fin 2) ∉ d.rhsBatch := by rw [h6]; exact List.not_mem_nil
  have hn : (1 : Fin 2) ∈ d.rhsNonContracting := by rw [h4]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3, h4])

end Dot2
-- ==== Proof.KReg0.lean ====
/-
  The first launch: what it leaves in its output array.

  The launch runs over ten bands of 5000 rows.  At band t the body reads the band of the aggregate, of the reciprocal
  column and of the node features, and the two weight matrices and the bias row whole, and writes the band of the output.
  What it writes is the layer with activation on those bands; since the layer is row-wise, that is the band of the layer
  on the whole arrays.  The ten bands tile the output array, so the array ends holding the layer of the whole arrays.
-/
import proofs.«114920_j35115652612101_2_alg».proof.Proof.Gen.KernelIdeal.Frame
import proofs.«114920_j35115652612101_2_alg».proof.Proof.LibSageElu
import proofs.«114920_j35115652612101_2_alg».proof.Proof.LibDot2
import Idealize.ShloMosaic.Lib.Pipeline.Value

set_option maxRecDepth 16384

noncomputable section

namespace Cert.KernelIdeal.KReg0

open Cert.KernelIdeal Cert.KernelIdeal.Gen
open Idealize.ShloMosaic Idealize.ShloMosaic.TcCoe Idealize.ShloMosaic.ValueIdx GcnSpec Sage SageElu
open Idealize.SL.Sem
open Idealize.ShloMosaic.Pipeline (Dat)

theorem hz : (![0, 0] : Fin 2 → Nat) = fun _ => 0 := funext fun a => by fin_cases a <;> rfl

/-- The launch's result as one function of its six input arrays. -/
def G (A : Arr 50000 128) (rc : Arr 50000 1) (X : Arr 50000 128) (Wl Wr : Arr 128 128) (b : Arr 1 128) : Arr 50000 128 :=
  layerE (scaleRows A rc) X Wl Wr b

/-- The body's arithmetic is the layer on its blocks. -/
theorem pay_eq (x0 : Vec Ideal S5000x128 .f32) (x1 : Vec Ideal S5000x1 .f32) (x2 : Vec Ideal S5000x128 .f32)
    (x3 x4 : Vec Ideal S128x128 .f32) (x5 : Vec Ideal S1x128 .f32) :
    k0_pay1 x0 x1 x2 x3 x4 x5 = layerE (n := 5000) (k := 128) (q := 128) (scaleRows x0 x1) x2 x3 x4 x5 := by
  unfold k0_pay1
  simp only [shapeCast_self]
  have hr := Dot2.rank_contr dot_S5000x128_S128x128_S5000x128_1_0_0_1_n_n rfl
  exact body_layerE dot_S5000x128_S128x128_S5000x128_1_0_0_1_n_n hr
    (Dot2.size_contr dot_S5000x128_S128x128_S5000x128_1_0_0_1_n_n rfl _)
    (Dot2.lhs0 dot_S5000x128_S128x128_S5000x128_1_0_0_1_n_n rfl rfl)
    (Dot2.lhs1 dot_S5000x128_S128x128_S5000x128_1_0_0_1_n_n rfl _)
    (Dot2.rhs0 dot_S5000x128_S128x128_S5000x128_1_0_0_1_n_n rfl _)
    (Dot2.rhs1 dot_S5000x128_S128x128_S5000x128_1_0_0_1_n_n rfl rfl rfl rfl)
    bitsLt_bf16_f32 x0 x1 x2 x3 x4 x5 broadcasts_S5000x1_S5000x128 broadcasts_S1x128_S5000x128 _ rfl

/-- The printed index maps over the ten bands: the banded windows sit at band t, the whole ones at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- WHAT BAND t WRITES BACK is band t of the layer on the whole arrays as the launch finds them. -/
theorem flushed_eq (c : Dev nD) (t : Fin cfg0.N) :
    (dat0 V c).flushed 6 t = ((cfg0.win 6).blk t).view.read (Elt Ideal)
      (G (V c main_v24) (V c main_v12) (V c main_arg0) (V c main_arg2) (V c main_arg3) (V c main_v25)) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz,
    View.ld_unit_zero (S := S128x128) hz, View.ld_unit_zero (S := S1x128) hz]
  rw [pay_eq]
  obtain ⟨e00, e01, e10, e11, e20, e21, e30, e31, e40, e41, e50, e51, e60, e61⟩ := idx_facts t
  have ht : t.val < 10 := t.isLt
  funext j
  obtain ⟨r, q, rfl⟩ : ∃ (r : Fin 5000) (q : Fin 128), j = ix2 r q := ⟨j 0, j 1, eq_ix2 j⟩
  have hrow : t.val * 5000 + r.val < 50000 := by have := r.isLt; omega
  show layerE (scaleRows (iblk0 V c 0 t) (iblk0 V c 1 t)) (iblk0 V c 2 t) (iblk0 V c 3 t) (iblk0 V c 4 t) (iblk0 V c 5 t) (ix2 r q)
    = G (V c main_v24) (V c main_v12) (V c main_arg0) (V c main_arg2) (V c main_arg3) (V c main_v25)
        (((cfg0.win 6).blk t).view.emb (ix2 r q))
  have he : ((cfg0.win 6).blk t).view.emb (ix2 r q) = ix2 (⟨t.val * 5000 + r.val, hrow⟩ : Fin 50000) q := by
    funext a; apply Fin.ext
    match a with
    | ⟨0, _⟩ => show win0_6.index t (0 : Fin 2) * 5000 + 1 * r.val = t.val * 5000 + r.val; rw [e60]; omega
    | ⟨1, _⟩ => show win0_6.index t (1 : Fin 2) * 128 + 1 * q.val = q.val; rw [e61]; omega
  rw [he]
  unfold G
  refine layerE_row _ _ _ _ _ _ _ _ _ _ r ⟨t.val * 5000 + r.val, hrow⟩ q ?_ ?_ ?_ ?_ ?_
  · intro l
    refine scaleRows_row _ _ _ _ r ⟨t.val * 5000 + r.val, hrow⟩ l ?_ ?_
    · show V c main_v24 (((cfg0.win 0).blk t).view.emb (ix2 r l)) = V c main_v24 (ix2 ⟨t.val * 5000 + r.val, hrow⟩ l)
      refine congrArg _ (funext fun a => Fin.ext ?_)
      match a with
      | ⟨0, _⟩ => show win0_0.index t (0 : Fin 2) * 5000 + 1 * r.val = t.val * 5000 + r.val; rw [e00]; omega
      | ⟨1, _⟩ => show win0_0.index t (1 : Fin 2) * 128 + 1 * l.val = l.val; rw [e01]; omega
    · show V c main_v12 (((cfg0.win 1).blk t).view.emb (ix2 r (0 : Fin 1))) = V c main_v12 (ix2 ⟨t.val * 5000 + r.val, hrow⟩ (0 : Fin 1))
      refine congrArg _ (funext fun a => Fin.ext ?_)
      match a with
      | ⟨0, _⟩ => show win0_1.index t (0 : Fin 2) * 5000 + 1 * r.val = t.val * 5000 + r.val; rw [e10]; omega
      | ⟨1, _⟩ => show win0_1.index t (1 : Fin 2) * 1 + 1 * 0 = 0; rw [e11]
  · intro l
    show V c main_arg0 (((cfg0.win 2).blk t).view.emb (ix2 r l)) = V c main_arg0 (ix2 ⟨t.val * 5000 + r.val, hrow⟩ l)
    refine congrArg _ (funext fun a => Fin.ext ?_)
    match a with
    | ⟨0, _⟩ => show win0_2.index t (0 : Fin 2) * 5000 + 1 * r.val = t.val * 5000 + r.val; rw [e20]; omega
    | ⟨1, _⟩ => show win0_2.index t (1 : Fin 2) * 128 + 1 * l.val = l.val; rw [e21]; omega
  · intro l
    show V c main_arg2 (((cfg0.win 3).blk t).view.emb (ix2 l q)) = V c main_arg2 (ix2 l q)
    refine congrArg _ (funext fun a => Fin.ext ?_)
    match a with
    | ⟨0, _⟩ => show win0_3.index t (0 : Fin 2) * 128 + 1 * l.val = l.val; rw [e30]; omega
    | ⟨1, _⟩ => show win0_3.index t (1 : Fin 2) * 128 + 1 * q.val = q.val; rw [e31]; omega
  · intro l
    show V c main_arg3 (((cfg0.win 4).blk t).view.emb (ix2 l q)) = V c main_arg3 (ix2 l q)
    refine congrArg _ (funext fun a => Fin.ext ?_)
    match a with
    | ⟨0, _⟩ => show win0_4.index t (0 : Fin 2) * 128 + 1 * l.val = l.val; rw [e40]; omega
    | ⟨1, _⟩ => show win0_4.index t (1 : Fin 2) * 128 + 1 * q.val = q.val; rw [e41]; omega
  · show V c main_v25 (((cfg0.win 5).blk t).view.emb (ix2 (0 : Fin 1) q)) = V c main_v25 (ix2 (0 : Fin 1) q)
    refine congrArg _ (funext fun a => Fin.ext ?_)
    match a with
    | ⟨0, _⟩ => show win0_5.index t (0 : Fin 2) * 1 + 1 * 0 = 0; rw [e50]
    | ⟨1, _⟩ => show win0_5.index t (1 : Fin 2) * 128 + 1 * q.val = q.val; rw [e51]; omega

/-- An index of the output array is in band t's block exactly when each coordinate is in the block's range. -/
theorem mem_blk (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v26).slice (win0_6.rect t)).set ↔ _
  rw [View.set_slice_whole, Rect.mem_set_unit]
  exact Iff.rfl

/-- Every band is some point's. -/
theorem idx_onto : ∀ q0 : Fin 10, ∃ t : Fin cfg0.N, win0_6.index t = ![q0.val, 0] :=
  (by decide +kernel : ∀ q0 : Fin 10, ∃ t : Fin grid0.N, win0_6.index t = ![q0.val, 0])

/-- The ten bands tile the output array. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- THE OUTPUT ARRAY after the launch: the layer of the arrays as the launch finds them. -/
theorem final (c : Dev nD) :
    (dat0 V c).arrAt 6 cfg0.N
      = G (V c main_v24) (V c main_v12) (V c main_arg0) (V c main_arg2) (V c main_arg3) (V c main_v25) :=
  (dat0 V c).arrAt_eq_of_cover 6 _ (fun t _ => flushed_eq V c t) cover

end Cert.KernelIdeal.KReg0

end
-- ==== Proof.KReg1.lean ====
/-
  The second launch: what it leaves in its output array.

  The launch runs over ten bands of 5000 rows.  At band t the body reads the band of the aggregate, of the reciprocal
  column and of the previous layer's output, and the two weight matrices and the bias row whole, and writes the band of the output.
  What it writes is the layer with activation on those bands; since the layer is row-wise, that is the band of the layer
  on the whole arrays.  The ten bands tile the output array, so the array ends holding the layer of the whole arrays.
-/
import proofs.«114920_j35115652612101_2_alg».proof.Proof.Gen.KernelIdeal.Frame
import proofs.«114920_j35115652612101_2_alg».proof.Proof.LibSageElu
import proofs.«114920_j35115652612101_2_alg».proof.Proof.LibDot2
import Idealize.ShloMosaic.Lib.Pipeline.Value

set_option maxRecDepth 16384

noncomputable section

namespace Cert.KernelIdeal.KReg1

open Cert.KernelIdeal Cert.KernelIdeal.Gen
open Idealize.ShloMosaic Idealize.ShloMosaic.TcCoe Idealize.ShloMosaic.ValueIdx GcnSpec Sage SageElu
open Idealize.SL.Sem
open Idealize.ShloMosaic.Pipeline (Dat)

theorem hz : (![0, 0] : Fin 2 → Nat) = fun _ => 0 := funext fun a => by fin_cases a <;> rfl

/-- The launch's result as one function of its six input arrays. -/
def G (A : Arr 50000 128) (rc : Arr 50000 1) (X : Arr 50000 128) (Wl Wr : Arr 128 128) (b : Arr 1 128) : Arr 50000 128 :=
  layerE (scaleRows A rc) X Wl Wr b

/-- The body's arithmetic is the layer on its blocks. -/
theorem pay_eq (x0 : Vec Ideal S5000x128 .f32) (x1 : Vec Ideal S5000x1 .f32) (x2 : Vec Ideal S5000x128 .f32)
    (x3 x4 : Vec Ideal S128x128 .f32) (x5 : Vec Ideal S1x128 .f32) :
    k1_pay1 x0 x1 x2 x3 x4 x5 = layerE (n := 5000) (k := 128) (q := 128) (scaleRows x0 x1) x2 x3 x4 x5 := by
  unfold k1_pay1
  simp only [shapeCast_self]
  have hr := Dot2.rank_contr dot_S5000x128_S128x128_S5000x128_1_0_0_1_n_n rfl
  exact body_layerE dot_S5000x128_S128x128_S5000x128_1_0_0_1_n_n hr
    (Dot2.size_contr dot_S5000x128_S128x128_S5000x128_1_0_0_1_n_n rfl _)
    (Dot2.lhs0 dot_S5000x128_S128x128_S5000x128_1_0_0_1_n_n rfl rfl)
    (Dot2.lhs1 dot_S5000x128_S128x128_S5000x128_1_0_0_1_n_n rfl _)
    (Dot2.rhs0 dot_S5000x128_S128x128_S5000x128_1_0_0_1_n_n rfl _)
    (Dot2.rhs1 dot_S5000x128_S128x128_S5000x128_1_0_0_1_n_n rfl rfl rfl rfl)
    bitsLt_bf16_f32 x0 x1 x2 x3 x4 x5 broadcasts_S5000x1_S5000x128 broadcasts_S1x128_S5000x128 _ rfl

/-- The printed index maps over the ten bands: the banded windows sit at band t, the whole ones at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- WHAT BAND t WRITES BACK is band t of the layer on the whole arrays as the launch finds them. -/
theorem flushed_eq (c : Dev nD) (t : Fin cfg1.N) :
    (dat1 V c).flushed 6 t = ((cfg1.win 6).blk t).view.read (Elt Ideal)
      (G (V c main_v38) (V c main_v12) (V c main_v26) (V c main_arg5) (V c main_arg6) (V c main_v39)) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz,
    View.ld_unit_zero (S := S128x128) hz, View.ld_unit_zero (S := S1x128) hz]
  rw [pay_eq]
  obtain ⟨e00, e01, e10, e11, e20, e21, e30, e31, e40, e41, e50, e51, e60, e61⟩ := idx_facts t
  have ht : t.val < 10 := t.isLt
  funext j
  obtain ⟨r, q, rfl⟩ : ∃ (r : Fin 5000) (q : Fin 128), j = ix2 r q := ⟨j 0, j 1, eq_ix2 j⟩
  have hrow : t.val * 5000 + r.val < 50000 := by have := r.isLt; omega
  show layerE (scaleRows (iblk1 V c 0 t) (iblk1 V c 1 t)) (iblk1 V c 2 t) (iblk1 V c 3 t) (iblk1 V c 4 t) (iblk1 V c 5 t) (ix2 r q)
    = G (V c main_v38) (V c main_v12) (V c main_v26) (V c main_arg5) (V c main_arg6) (V c main_v39)
        (((cfg1.win 6).blk t).view.emb (ix2 r q))
  have he : ((cfg1.win 6).blk t).view.emb (ix2 r q) = ix2 (⟨t.val * 5000 + r.val, hrow⟩ : Fin 50000) q := by
    funext a; apply Fin.ext
    match a with
    | ⟨0, _⟩ => show win1_6.index t (0 : Fin 2) * 5000 + 1 * r.val = t.val * 5000 + r.val; rw [e60]; omega
    | ⟨1, _⟩ => show win1_6.index t (1 : Fin 2) * 128 + 1 * q.val = q.val; rw [e61]; omega
  rw [he]
  unfold G
  refine layerE_row _ _ _ _ _ _ _ _ _ _ r ⟨t.val * 5000 + r.val, hrow⟩ q ?_ ?_ ?_ ?_ ?_
  · intro l
    refine scaleRows_row _ _ _ _ r ⟨t.val * 5000 + r.val, hrow⟩ l ?_ ?_
    · show V c main_v38 (((cfg1.win 0).blk t).view.emb (ix2 r l)) = V c main_v38 (ix2 ⟨t.val * 5000 + r.val, hrow⟩ l)
      refine congrArg _ (funext fun a => Fin.ext ?_)
      match a with
      | ⟨0, _⟩ => show win1_0.index t (0 : Fin 2) * 5000 + 1 * r.val = t.val * 5000 + r.val; rw [e00]; omega
      | ⟨1, _⟩ => show win1_0.index t (1 : Fin 2) * 128 + 1 * l.val = l.val; rw [e01]; omega
    · show V c main_v12 (((cfg1.win 1).blk t).view.emb (ix2 r (0 : Fin 1))) = V c main_v12 (ix2 ⟨t.val * 5000 + r.val, hrow⟩ (0 : Fin 1))
      refine congrArg _ (funext fun a => Fin.ext ?_)
      match a with
      | ⟨0, _⟩ => show win1_1.index t (0 : Fin 2) * 5000 + 1 * r.val = t.val * 5000 + r.val; rw [e10]; omega
      | ⟨1, _⟩ => show win1_1.index t (1 : Fin 2) * 1 + 1 * 0 = 0; rw [e11]
  · intro l
    show V c main_v26 (((cfg1.win 2).blk t).view.emb (ix2 r l)) = V c main_v26 (ix2 ⟨t.val * 5000 + r.val, hrow⟩ l)
    refine congrArg _ (funext fun a => Fin.ext ?_)
    match a with
    | ⟨0, _⟩ => show win1_2.index t (0 : Fin 2) * 5000 + 1 * r.val = t.val * 5000 + r.val; rw [e20]; omega
    | ⟨1, _⟩ => show win1_2.index t (1 : Fin 2) * 128 + 1 * l.val = l.val; rw [e21]; omega
  · intro l
    show V c main_arg5 (((cfg1.win 3).blk t).view.emb (ix2 l q)) = V c main_arg5 (ix2 l q)
    refine congrArg _ (funext fun a => Fin.ext ?_)
    match a with
    | ⟨0, _⟩ => show win1_3.index t (0 : Fin 2) * 128 + 1 * l.val = l.val; rw [e30]; omega
    | ⟨1, _⟩ => show win1_3.index t (1 : Fin 2) * 128 + 1 * q.val = q.val; rw [e31]; omega
  · intro l
    show V c main_arg6 (((cfg1.win 4).blk t).view.emb (ix2 l q)) = V c main_arg6 (ix2 l q)
    refine congrArg _ (funext fun a => Fin.ext ?_)
    match a with
    | ⟨0, _⟩ => show win1_4.index t (0 : Fin 2) * 128 + 1 * l.val = l.val; rw [e40]; omega
    | ⟨1, _⟩ => show win1_4.index t (1 : Fin 2) * 128 + 1 * q.val = q.val; rw [e41]; omega
  · show V c main_v39 (((cfg1.win 5).blk t).view.emb (ix2 (0 : Fin 1) q)) = V c main_v39 (ix2 (0 : Fin 1) q)
    refine congrArg _ (funext fun a => Fin.ext ?_)
    match a with
    | ⟨0, _⟩ => show win1_5.index t (0 : Fin 2) * 1 + 1 * 0 = 0; rw [e50]
    | ⟨1, _⟩ => show win1_5.index t (1 : Fin 2) * 128 + 1 * q.val = q.val; rw [e51]; omega

/-- An index of the output array is in band t's block exactly when each coordinate is in the block's range. -/
theorem mem_blk (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v40).slice (win1_6.rect t)).set ↔ _
  rw [View.set_slice_whole, Rect.mem_set_unit]
  exact Iff.rfl

/-- Every band is some point's. -/
theorem idx_onto : ∀ q0 : Fin 10, ∃ t : Fin cfg1.N, win1_6.index t = ![q0.val, 0] :=
  (by decide +kernel : ∀ q0 : Fin 10, ∃ t : Fin grid1.N, win1_6.index t = ![q0.val, 0])

/-- The ten bands tile the output array. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := idx_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- THE OUTPUT ARRAY after the launch: the layer of the arrays as the launch finds them. -/
theorem final (c : Dev nD) :
    (dat1 V c).arrAt 6 cfg1.N
      = G (V c main_v38) (V c main_v12) (V c main_v26) (V c main_arg5) (V c main_arg6) (V c main_v39) :=
  (dat1 V c).arrAt_eq_of_cover 6 _ (fun t _ => flushed_eq V c t) cover

end Cert.KernelIdeal.KReg1

end
-- ==== Proof.KReg2.lean ====
/-
  The third launch: the projection of the second layer's output.

  Over ten bands of 5000 rows the body multiplies the band of the node array by the whole 128 × 64 matrix.  A product is
  row-wise, so what band t writes is the band of the product of the whole arrays, and the ten bands tile the output.
-/
import proofs.«114920_j35115652612101_2_alg».proof.Proof.Gen.KernelIdeal.Frame
import proofs.«114920_j35115652612101_2_alg».proof.Proof.LibSageElu
import proofs.«114920_j35115652612101_2_alg».proof.Proof.LibDot2
import Idealize.ShloMosaic.Lib.Pipeline.Value

set_option maxRecDepth 16384

noncomputable section

namespace Cert.KernelIdeal.KReg2

open Cert.KernelIdeal Cert.KernelIdeal.Gen
open Idealize.ShloMosaic Idealize.ShloMosaic.TcCoe Idealize.ShloMosaic.ValueIdx GcnSpec Sage SageElu
open Idealize.SL.Sem
open Idealize.ShloMosaic.Pipeline (Dat)

theorem hz : (![0, 0] : Fin 2 → Nat) = fun _ => 0 := funext fun a => by fin_cases a <;> rfl

/-- The launch's result as one function of its two input arrays. -/
def G (H : Arr 50000 128) (W : Arr 128 64) : Arr 50000 64 := lin H W

/-- The body's arithmetic is the product of its blocks. -/
theorem pay_eq (x0 : Vec Ideal S5000x128 .f32) (x1 : Vec Ideal S128x64 .f32) :
    k2_pay1 x0 x1 = lin (n := 5000) (k := 128) (q := 64) x0 x1 := by
  unfold k2_pay1
  simp only [shapeCast_self]
  have hr := Dot2.rank_contr dot_S5000x128_S128x64_S5000x64_1_0_0_1_n_n rfl
  exact body_lin dot_S5000x128_S128x64_S5000x64_1_0_0_1_n_n hr
    (Dot2.size_contr dot_S5000x128_S128x64_S5000x64_1_0_0_1_n_n rfl _)
    (Dot2.lhs0 dot_S5000x128_S128x64_S5000x64_1_0_0_1_n_n rfl rfl)
    (Dot2.lhs1 dot_S5000x128_S128x64_S5000x64_1_0_0_1_n_n rfl _)
    (Dot2.rhs0 dot_S5000x128_S128x64_S5000x64_1_0_0_1_n_n rfl _)
    (Dot2.rhs1 dot_S5000x128_S128x64_S5000x64_1_0_0_1_n_n rfl rfl rfl rfl)
    bitsLt_bf16_f32 x0 x1

theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- WHAT BAND t WRITES BACK is band t of the product of the whole arrays as the launch finds them. -/
theorem flushed_eq (c : Dev nD) (t : Fin cfg2.N) :
    (dat2 V c).flushed 2 t = ((cfg2.win 2).blk t).view.read (Elt Ideal) (G (V c main_v40) (V c main_arg8)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  rw [pay_eq]
  obtain ⟨e00, e01, e10, e11, e20, e21⟩ := idx_facts t
  have ht : t.val < 10 := t.isLt
  funext j
  obtain ⟨r, q, rfl⟩ : ∃ (r : Fin 5000) (q : Fin 64), j = ix2 r q := ⟨j 0, j 1, eq_ix2 j⟩
  have hrow : t.val * 5000 + r.val < 50000 := by have := r.isLt; omega
  show lin (iblk2 V c 0 t) (iblk2 V c 1 t) (ix2 r q)
    = G (V c main_v40) (V c main_arg8) (((cfg2.win 2).blk t).view.emb (ix2 r q))
  have he : ((cfg2.win 2).blk t).view.emb (ix2 r q) = ix2 (⟨t.val * 5000 + r.val, hrow⟩ : Fin 50000) q := by
    funext a; apply Fin.ext
    match a with
    | ⟨0, _⟩ => show win2_2.index t (0 : Fin 2) * 5000 + 1 * r.val = t.val * 5000 + r.val; rw [e20]; omega
    | ⟨1, _⟩ => show win2_2.index t (1 : Fin 2) * 64 + 1 * q.val = q.val; rw [e21]; omega
  rw [he]
  unfold G
  refine lin_row _ _ _ _ r ⟨t.val * 5000 + r.val, hrow⟩ q ?_ ?_
  · intro l
    show V c main_v40 (((cfg2.win 0).blk t).view.emb (ix2 r l)) = V c main_v40 (ix2 ⟨t.val * 5000 + r.val, hrow⟩ l)
    refine congrArg _ (funext fun a => Fin.ext ?_)
    match a with
    | ⟨0, _⟩ => show win2_0.index t (0 : Fin 2) * 5000 + 1 * r.val = t.val * 5000 + r.val; rw [e00]; omega
    | ⟨1, _⟩ => show win2_0.index t (1 : Fin 2) * 128 + 1 * l.val = l.val; rw [e01]; omega
  · intro l
    show V c main_arg8 (((cfg2.win 1).blk t).view.emb (ix2 l q)) = V c main_arg8 (ix2 l q)
    refine congrArg _ (funext fun a => Fin.ext ?_)
    match a with
    | ⟨0, _⟩ => show win2_1.index t (0 : Fin 2) * 128 + 1 * l.val = l.val; rw [e10]; omega
    | ⟨1, _⟩ => show win2_1.index t (1 : Fin 2) * 64 + 1 * q.val = q.val; rw [e11]; omega

theorem mem_blk (t : Fin cfg2.N) (i : S50000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v41).slice (win2_2.rect t)).set ↔ _
  rw [View.set_slice_whole, Rect.mem_set_unit]
  exact Iff.rfl

theorem idx_onto : ∀ q0 : Fin 10, ∃ t : Fin cfg2.N, win2_2.index t = ![q0.val, 0] :=
  (by decide +kernel : ∀ q0 : Fin 10, ∃ t : Fin grid2.N, win2_2.index t = ![q0.val, 0])

/-- The ten bands tile the output array. -/
theorem cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- THE OUTPUT ARRAY after the launch: the product of the arrays as the launch finds them. -/
theorem final (c : Dev nD) : (dat2 V c).arrAt 2 cfg2.N = G (V c main_v40) (V c main_arg8) :=
  (dat2 V c).arrAt_eq_of_cover 2 _ (fun t _ => flushed_eq V c t) cover

end Cert.KernelIdeal.KReg2

end
-- ==== Proof.KReg3.lean ====
/-
  The fourth launch: the last layer.

  Over ten bands of 5000 rows the body reads the band of the projected aggregate, of the reciprocal column and of the
  second layer's output, and the 128 × 64 matrix and the bias row whole, and writes
  (own product + projected aggregate times the reciprocal) + bias on the band.  This is row-wise, so band t of the result
  on the whole arrays, and the ten bands tile the output.
-/
import proofs.«114920_j35115652612101_2_alg».proof.Proof.Gen.KernelIdeal.Frame
import proofs.«114920_j35115652612101_2_alg».proof.Proof.LibSageElu
import proofs.«114920_j35115652612101_2_alg».proof.Proof.LibDot2
import Idealize.ShloMosaic.Lib.Pipeline.Value

set_option maxRecDepth 16384

noncomputable section

namespace Cert.KernelIdeal.KReg3

open Cert.KernelIdeal Cert.KernelIdeal.Gen
open Idealize.ShloMosaic Idealize.ShloMosaic.TcCoe Idealize.ShloMosaic.ValueIdx GcnSpec Sage SageElu
open Idealize.SL.Sem
open Idealize.ShloMosaic.Pipeline (Dat)

theorem hz : (![0, 0] : Fin 2 → Nat) = fun _ => 0 := funext fun a => by fin_cases a <;> rfl

/-- The launch's result as one function of its five input arrays. -/
def G (P : Arr 50000 64) (rc : Arr 50000 1) (H : Arr 50000 128) (Wr : Arr 128 64) (b : Arr 1 64) : Arr 50000 64 :=
  lastK (scaleRows P rc) H Wr b

/-- The body's arithmetic is the last layer on its blocks. -/
theorem pay_eq (x0 : Vec Ideal S5000x64 .f32) (x1 : Vec Ideal S5000x1 .f32) (x2 : Vec Ideal S5000x128 .f32)
    (x3 : Vec Ideal S128x64 .f32) (x4 : Vec Ideal S1x64 .f32) :
    k3_pay1 x0 x1 x2 x3 x4 = lastK (n := 5000) (k := 128) (q := 64) (scaleRows x0 x1) x2 x3 x4 := by
  unfold k3_pay1
  simp only [shapeCast_self]
  have hr := Dot2.rank_contr dot_S5000x128_S128x64_S5000x64_1_0_0_1_n_n rfl
  exact body_lastK dot_S5000x128_S128x64_S5000x64_1_0_0_1_n_n hr
    (Dot2.size_contr dot_S5000x128_S128x64_S5000x64_1_0_0_1_n_n rfl _)
    (Dot2.lhs0 dot_S5000x128_S128x64_S5000x64_1_0_0_1_n_n rfl rfl)
    (Dot2.lhs1 dot_S5000x128_S128x64_S5000x64_1_0_0_1_n_n rfl _)
    (Dot2.rhs0 dot_S5000x128_S128x64_S5000x64_1_0_0_1_n_n rfl _)
    (Dot2.rhs1 dot_S5000x128_S128x64_S5000x64_1_0_0_1_n_n rfl rfl rfl rfl)
    bitsLt_bf16_f32 x0 x1 x2 x3 x4 broadcasts_S5000x1_S5000x64 broadcasts_S1x64_S5000x64

theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

variable (V : (c : Dev nD) → (b : Ref sig .tc) → Buf (Elt Ideal) ((c : Thread nD τ).loc b))

/-- WHAT BAND t WRITES BACK is band t of the last layer on the whole arrays as the launch finds them. -/
theorem flushed_eq (c : Dev nD) (t : Fin cfg3.N) :
    (dat3 V c).flushed 5 t = ((cfg3.win 5).blk t).view.read (Elt Ideal)
      (G (V c main_v53) (V c main_v12) (V c main_v40) (V c main_arg9) (V c main_v54)) := by
  show (cfg3.win 5).cut (grid3.coords t) ((dat3 V c).after 5 t) = _
  rw [after3_5]
  unfold out3_5
  rw [View.canon_unit_zero hz]
  simp only [View.ld_unit_zero (S := S5000x64) hz, View.ld_unit_zero (S := S5000x1) hz,
    View.ld_unit_zero (S := S5000x128) hz, View.ld_unit_zero (S := S128x64) hz, View.ld_unit_zero (S := S1x64) hz]
  rw [pay_eq]
  obtain ⟨e00, e01, e10, e11, e20, e21, e30, e31, e40, e41, e50, e51⟩ := idx_facts t
  have ht : t.val < 10 := t.isLt
  funext j
  obtain ⟨r, q, rfl⟩ : ∃ (r : Fin 5000) (q : Fin 64), j = ix2 r q := ⟨j 0, j 1, eq_ix2 j⟩
  have hrow : t.val * 5000 + r.val < 50000 := by have := r.isLt; omega
  show lastK (scaleRows (iblk3 V c 0 t) (iblk3 V c 1 t)) (iblk3 V c 2 t) (iblk3 V c 3 t) (iblk3 V c 4 t) (ix2 r q)
    = G (V c main_v53) (V c main_v12) (V c main_v40) (V c main_arg9) (V c main_v54)
        (((cfg3.win 5).blk t).view.emb (ix2 r q))
  have he : ((cfg3.win 5).blk t).view.emb (ix2 r q) = ix2 (⟨t.val * 5000 + r.val, hrow⟩ : Fin 50000) q := by
    funext a; apply Fin.ext
    match a with
    | ⟨0, _⟩ => show win3_5.index t (0 : Fin 2) * 5000 + 1 * r.val = t.val * 5000 + r.val; rw [e50]; omega
    | ⟨1, _⟩ => show win3_5.index t (1 : Fin 2) * 64 + 1 * q.val = q.val; rw [e51]; omega
  rw [he]
  unfold G
  refine lastK_row _ _ _ _ _ _ _ _ r ⟨t.val * 5000 + r.val, hrow⟩ q ?_ ?_ ?_ ?_
  · refine scaleRows_row _ _ _ _ r ⟨t.val * 5000 + r.val, hrow⟩ q ?_ ?_
    · show V c main_v53 (((cfg3.win 0).blk t).view.emb (ix2 r q)) = V c main_v53 (ix2 ⟨t.val * 5000 + r.val, hrow⟩ q)
      refine congrArg _ (funext fun a => Fin.ext ?_)
      match a with
      | ⟨0, _⟩ => show win3_0.index t (0 : Fin 2) * 5000 + 1 * r.val = t.val * 5000 + r.val; rw [e00]; omega
      | ⟨1, _⟩ => show win3_0.index t (1 : Fin 2) * 64 + 1 * q.val = q.val; rw [e01]; omega
    · show V c main_v12 (((cfg3.win 1).blk t).view.emb (ix2 r (0 : Fin 1))) = V c main_v12 (ix2 ⟨t.val * 5000 + r.val, hrow⟩ (0 : Fin 1))
      refine congrArg _ (funext fun a => Fin.ext ?_)
      match a with
      | ⟨0, _⟩ => show win3_1.index t (0 : Fin 2) * 5000 + 1 * r.val = t.val * 5000 + r.val; rw [e10]; omega
      | ⟨1, _⟩ => show win3_1.index t (1 : Fin 2) * 1 + 1 * 0 = 0; rw [e11]
  · intro l
    show V c main_v40 (((cfg3.win 2).blk t).view.emb (ix2 r l)) = V c main_v40 (ix2 ⟨t.val * 5000 + r.val, hrow⟩ l)
    refine congrArg _ (funext fun a => Fin.ext ?_)
    match a with
    | ⟨0, _⟩ => show win3_2.index t (0 : Fin 2) * 5000 + 1 * r.val = t.val * 5000 + r.val; rw [e20]; omega
    | ⟨1, _⟩ => show win3_2.index t (1 : Fin 2) * 128 + 1 * l.val = l.val; rw [e21]; omega
  · intro l
    show V c main_arg9 (((cfg3.win 3).blk t).view.emb (ix2 l q)) = V c main_arg9 (ix2 l q)
    refine congrArg _ (funext fun a => Fin.ext ?_)
    match a with
    | ⟨0, _⟩ => show win3_3.index t (0 : Fin 2) * 128 + 1 * l.val = l.val; rw [e30]; omega
    | ⟨1, _⟩ => show win3_3.index t (1 : Fin 2) * 64 + 1 * q.val = q.val; rw [e31]; omega
  · show V c main_v54 (((cfg3.win 4).blk t).view.emb (ix2 (0 : Fin 1) q)) = V c main_v54 (ix2 (0 : Fin 1) q)
    refine congrArg _ (funext fun a => Fin.ext ?_)
    match a with
    | ⟨0, _⟩ => show win3_4.index t (0 : Fin 2) * 1 + 1 * 0 = 0; rw [e40]
    | ⟨1, _⟩ => show win3_4.index t (1 : Fin 2) * 64 + 1 * q.val = q.val; rw [e41]; omega

theorem mem_blk (t : Fin cfg3.N) (i : S50000x64.Idx) :
    i ∈ ((cfg3.win 5).blk t).view.set ↔ ∀ a : Fin 2, win3_5.index t a * S5000x64.size a ≤ (i a).val
      ∧ (i a).val < win3_5.index t a * S5000x64.size a + S5000x64.size a := by
  show i ∈ ((View.whole main_v55).slice (win3_5.rect t)).set ↔ _
  rw [View.set_slice_whole, Rect.mem_set_unit]
  exact Iff.rfl

theorem idx_onto : ∀ q0 : Fin 10, ∃ t : Fin cfg3.N, win3_5.index t = ![q0.val, 0] :=
  (by decide +kernel : ∀ q0 : Fin 10, ∃ t : Fin grid3.N, win3_5.index t = ![q0.val, 0])

/-- The ten bands tile the output array. -/
theorem cover (i : S50000x64.Idx) :
    ∃ t : Fin cfg3.N, (cfg3.win 5).flush t = true ∧ i ∈ ((cfg3.win 5).blk t).view.set := by
  have hi0 : (i 0).val < 50000 := (i 0).isLt
  have hi1 : (i 1).val < 64 := (i 1).isLt
  obtain ⟨t, ht⟩ := idx_onto ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 64 ≤ (i 1).val ∧ (i 1).val < win3_5.index t (1 : Fin 2) * 64 + 64; omega

/-- THE OUTPUT ARRAY after the launch: the last layer of the arrays as the launch finds them. -/
theorem final (c : Dev nD) :
    (dat3 V c).arrAt 5 cfg3.N = G (V c main_v53) (V c main_v12) (V c main_v40) (V c main_arg9) (V c main_v54) :=
  (dat3 V c).arrAt_eq_of_cover 5 _ (fun t _ => flushed_eq V c t) cover

end Cert.KernelIdeal.KReg3

end
-- ==== Proof.KValue.lean ====
/-
  The value of the idealized kernel's result array.

  The program's buffers are followed from the launch memory through its seven segments.  After the first stretch of host
  operations the source and target words, the reciprocal clamped-degree column, the aggregate of the node features and
  the first bias row are in place; the first launch leaves the first layer's output h1; the second stretch aggregates h1;
  the second launch leaves h2; the third launch leaves the projection of h2; the third stretch aggregates the projection;
  the fourth launch leaves the result.  Each buffer a later segment reads is read back, at every boundary, as a function of
  the launch memory.
-/
import proofs.«114920_j35115652612101_2_alg».proof.Proof.KRun
import proofs.«114920_j35115652612101_2_alg».proof.Proof.KHost
import proofs.«114920_j35115652612101_2_alg».proof.Proof.KReg0
import proofs.«114920_j35115652612101_2_alg».proof.Proof.KReg1
import proofs.«114920_j35115652612101_2_alg».proof.Proof.KReg2
import proofs.«114920_j35115652612101_2_alg».proof.Proof.KReg3

set_option maxRecDepth 16384

noncomputable section

namespace Cert.KernelIdeal.KValue

open Cert.KernelIdeal Cert.KernelIdeal.Gen Cert.KernelIdeal.KHost
open Idealize.ShloMosaic Idealize.ShloMosaic.TcCoe Idealize.ShloMosaic.ValueIdx GcnSpec Sage SageElu
open Idealize.SL.Sem
open Idealize.ShloMosaic.Pipeline (Dat)

variable (m : (ℓ : Loc nD τ sig) → Buf (Elt Ideal) ℓ) (ρ : Dev nD → PrngReg)

/-! ## The staged values, as functions of the launch memory -/

/-- The source words and the target words. -/
def sV (c : Dev nD) := srcVec (F := Ideal) (m ((c : Thread nD τ).loc main_arg1))
def dV (c : Dev nD) := dstVec (F := Ideal) (m ((c : Thread nD τ).loc main_arg1))
/-- One over the clamped in-degree. -/
def rc (c : Dev nD) := rcCol (F := Ideal) (dV m c)
/-- The first layer's output. -/
def h1 (c : Dev nD) : Arr 50000 128 :=
  KReg0.G (agg128 (F := Ideal) (m ((c : Thread nD τ).loc main_arg0)) (sV m c) (dV m c)) (rc m c) (m ((c : Thread nD τ).loc main_arg0)) (m ((c : Thread nD τ).loc main_arg2)) (m ((c : Thread nD τ).loc main_arg3)) (biasRow128 (F := Ideal) (m ((c : Thread nD τ).loc main_arg4)))
/-- The second layer's output. -/
def h2 (c : Dev nD) : Arr 50000 128 :=
  KReg1.G (agg128 (F := Ideal) (h1 m c) (sV m c) (dV m c)) (rc m c) (h1 m c) (m ((c : Thread nD τ).loc main_arg5)) (m ((c : Thread nD τ).loc main_arg6)) (biasRow128 (F := Ideal) (m ((c : Thread nD τ).loc main_arg7)))
/-- Its projection. -/
def hW (c : Dev nD) : Arr 50000 64 := KReg2.G (h2 m c) (m ((c : Thread nD τ).loc main_arg8))
/-- The result. -/
def outK (c : Dev nD) : Arr 50000 64 :=
  KReg3.G (agg64 (F := Ideal) (hW m c) (sV m c) (dV m c)) (rc m c) (h2 m c) (m ((c : Thread nD τ).loc main_arg9)) (biasRow64 (F := Ideal) (m ((c : Thread nD τ).loc main_arg10)))

/-! ## After the first stretch -/

theorem W1_v1 (c : Dev nD) : W1 m ρ c (Proc.devRef .tc main_v1) = sV m c := h0_v1 (W0 m ρ c)
theorem W1_v3 (c : Dev nD) : W1 m ρ c (Proc.devRef .tc main_v3) = dV m c := h0_v3 (W0 m ρ c)
theorem W1_v12 (c : Dev nD) : W1 m ρ c (Proc.devRef .tc main_v12) = rc m c := h0_v12 (W0 m ρ c)
theorem W1_v24 (c : Dev nD) : W1 m ρ c (Proc.devRef .tc main_v24) = agg128 (F := Ideal) (m ((c : Thread nD τ).loc main_arg0)) (sV m c) (dV m c) := h0_v24 (W0 m ρ c)
theorem W1_v25 (c : Dev nD) : W1 m ρ c (Proc.devRef .tc main_v25) = biasRow128 (F := Ideal) (m ((c : Thread nD τ).loc main_arg4)) := h0_v25 (W0 m ρ c)
theorem W1_arg0 (c : Dev nD) : W1 m ρ c (Proc.devRef .tc main_arg0) = m ((c : Thread nD τ).loc main_arg0) := h0_arg0 (W0 m ρ c)
theorem W1_arg2 (c : Dev nD) : W1 m ρ c (Proc.devRef .tc main_arg2) = m ((c : Thread nD τ).loc main_arg2) := h0_arg2 (W0 m ρ c)
theorem W1_arg3 (c : Dev nD) : W1 m ρ c (Proc.devRef .tc main_arg3) = m ((c : Thread nD τ).loc main_arg3) := h0_arg3 (W0 m ρ c)
theorem W1_arg5 (c : Dev nD) : W1 m ρ c (Proc.devRef .tc main_arg5) = m ((c : Thread nD τ).loc main_arg5) := h0_arg5 (W0 m ρ c)
theorem W1_arg6 (c : Dev nD) : W1 m ρ c (Proc.devRef .tc main_arg6) = m ((c : Thread nD τ).loc main_arg6) := h0_arg6 (W0 m ρ c)
theorem W1_arg7 (c : Dev nD) : W1 m ρ c (Proc.devRef .tc main_arg7) = m ((c : Thread nD τ).loc main_arg7) := h0_arg7 (W0 m ρ c)
theorem W1_arg8 (c : Dev nD) : W1 m ρ c (Proc.devRef .tc main_arg8) = m ((c : Thread nD τ).loc main_arg8) := h0_arg8 (W0 m ρ c)
theorem W1_arg9 (c : Dev nD) : W1 m ρ c (Proc.devRef .tc main_arg9) = m ((c : Thread nD τ).loc main_arg9) := h0_arg9 (W0 m ρ c)
theorem W1_arg10 (c : Dev nD) : W1 m ρ c (Proc.devRef .tc main_arg10) = m ((c : Thread nD τ).loc main_arg10) := h0_arg10 (W0 m ρ c)

/-! ## After the first launch -/

theorem W2_v26 (c : Dev nD) : W2 m ρ c (Proc.devRef .tc main_v26) = h1 m c := by
  refine (W2_arr m ρ c 6).trans ((KReg0.final (V1 m ρ) c).trans ?_)
  show KReg0.G (W1 m ρ c (Proc.devRef .tc main_v24)) (W1 m ρ c (Proc.devRef .tc main_v12)) (W1 m ρ c (Proc.devRef .tc main_arg0))
    (W1 m ρ c (Proc.devRef .tc main_arg2)) (W1 m ρ c (Proc.devRef .tc main_arg3)) (W1 m ρ c (Proc.devRef .tc main_v25)) = _
  rw [W1_v24, W1_v12, W1_arg0, W1_arg2, W1_arg3, W1_v25]
  rfl
theorem W2_v1 (c : Dev nD) : W2 m ρ c (Proc.devRef .tc main_v1) = sV m c := (W2_of_ne m ρ c main_v1 (by decide)).trans (W1_v1 m ρ c)
theorem W2_v3 (c : Dev nD) : W2 m ρ c (Proc.devRef .tc main_v3) = dV m c := (W2_of_ne m ρ c main_v3 (by decide)).trans (W1_v3 m ρ c)
theorem W2_v12 (c : Dev nD) : W2 m ρ c (Proc.devRef .tc main_v12) = rc m c :=
  ((W2_arr m ρ c 1).trans (((dat0 (V1 m ρ) c).arrAt_in 1 rfl _).trans (A_eq0 (V1 m ρ) c 1))).trans (W1_v12 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)

/-! ## After the second stretch -/

theorem W3_v38 (c : Dev nD) : W3 m ρ c (Proc.devRef .tc main_v38) = agg128 (F := Ideal) (h1 m c) (sV m c) (dV m c) := by
  refine (h1_v38 (W2 m ρ c)).trans ?_
  rw [W2_v26, W2_v1, W2_v3]
theorem W3_v39 (c : Dev nD) : W3 m ρ c (Proc.devRef .tc main_v39) = biasRow128 (F := Ideal) (m ((c : Thread nD τ).loc main_arg7)) := by
  refine (h1_v39 (W2 m ρ c)).trans ?_
  rw [W2_arg7]
theorem W3_v1 (c : Dev nD) : W3 m ρ c (Proc.devRef .tc main_v1) = sV m c := (h1_v1 (W2 m ρ c)).trans (W2_v1 m ρ c)
theorem W3_v3 (c : Dev nD) : W3 m ρ c (Proc.devRef .tc main_v3) = dV m c := (h1_v3 (W2 m ρ c)).trans (W2_v3 m ρ c)
theorem W3_v12 (c : Dev nD) : W3 m ρ c (Proc.devRef .tc main_v12) = rc m c := (h1_v12 (W2 m ρ c)).trans (W2_v12 m ρ c)
theorem W3_v26 (c : Dev nD) : W3 m ρ c (Proc.devRef .tc main_v26) = h1 m c := (h1_v26 (W2 m ρ c)).trans (W2_v26 m ρ c)
theorem W3_arg5 (c : Dev nD) : W3 m ρ c (Proc.devRef .tc main_arg5) = m ((c : Thread nD τ).loc main_arg5) :=
  (h1_arg5 (W2 m ρ c)).trans (W2_arg5 m ρ c)
theorem W3_arg6 (c : Dev nD) : W3 m ρ c (Proc.devRef .tc main_arg6) = m ((c : Thread nD τ).loc main_arg6) :=
  (h1_arg6 (W2 m ρ c)).trans (W2_arg6 m ρ c)
theorem W3_arg8 (c : Dev nD) : W3 m ρ c (Proc.devRef .tc main_arg8) = m ((c : Thread nD τ).loc main_arg8) :=
  (h1_arg8 (W2 m ρ c)).trans (W2_arg8 m ρ c)
theorem W3_arg9 (c : Dev nD) : W3 m ρ c (Proc.devRef .tc main_arg9) = m ((c : Thread nD τ).loc main_arg9) :=
  (h1_arg9 (W2 m ρ c)).trans (W2_arg9 m ρ c)
theorem W3_arg10 (c : Dev nD) : W3 m ρ c (Proc.devRef .tc main_arg10) = m ((c : Thread nD τ).loc main_arg10) :=
  (h1_arg10 (W2 m ρ c)).trans (W2_arg10 m ρ c)

/-! ## After the second launch -/

theorem W4_v40 (c : Dev nD) : W4 m ρ c (Proc.devRef .tc main_v40) = h2 m c := by
  refine (W4_arr m ρ c 6).trans ((KReg1.final (V3 m ρ) c).trans ?_)
  show KReg1.G (W3 m ρ c (Proc.devRef .tc main_v38)) (W3 m ρ c (Proc.devRef .tc main_v12)) (W3 m ρ c (Proc.devRef .tc main_v26))
    (W3 m ρ c (Proc.devRef .tc main_arg5)) (W3 m ρ c (Proc.devRef .tc main_arg6)) (W3 m ρ c (Proc.devRef .tc main_v39)) = _
  rw [W3_v38, W3_v12, W3_v26, W3_arg5, W3_arg6, W3_v39]
  rfl
theorem W4_v1 (c : Dev nD) : W4 m ρ c (Proc.devRef .tc main_v1) = sV m c := (W4_of_ne m ρ c main_v1 (by decide)).trans (W3_v1 m ρ c)
theorem W4_v3 (c : Dev nD) : W4 m ρ c (Proc.devRef .tc main_v3) = dV m c := (W4_of_ne m ρ c main_v3 (by decide)).trans (W3_v3 m ρ c)
theorem W4_v12 (c : Dev nD) : W4 m ρ c (Proc.devRef .tc main_v12) = rc m c :=
  ((W4_arr m ρ c 1).trans (((dat1 (V3 m ρ) c).arrAt_in 1 rfl _).trans (A_eq1 (V3 m ρ) c 1))).trans (W3_v12 m ρ c)
theorem W4_arg8 (c : Dev nD) : W4 m ρ c (Proc.devRef .tc main_arg8) = m ((c : Thread nD τ).loc main_arg8) :=
  (W4_of_ne m ρ c main_arg8 (by decide)).trans (W3_arg8 m ρ c)
theorem W4_arg9 (c : Dev nD) : W4 m ρ c (Proc.devRef .tc main_arg9) = m ((c : Thread nD τ).loc main_arg9) :=
  (W4_of_ne m ρ c main_arg9 (by decide)).trans (W3_arg9 m ρ c)
theorem W4_arg10 (c : Dev nD) : W4 m ρ c (Proc.devRef .tc main_arg10) = m ((c : Thread nD τ).loc main_arg10) :=
  (W4_of_ne m ρ c main_arg10 (by decide)).trans (W3_arg10 m ρ c)

/-! ## After the third launch -/

theorem W5_v41 (c : Dev nD) : W5 m ρ c (Proc.devRef .tc main_v41) = hW m c := by
  refine (W5_arr m ρ c 2).trans ((KReg2.final (V4 m ρ) c).trans ?_)
  show KReg2.G (W4 m ρ c (Proc.devRef .tc main_v40)) (W4 m ρ c (Proc.devRef .tc main_arg8)) = _
  rw [W4_v40, W4_arg8]
  rfl
theorem W5_v40 (c : Dev nD) : W5 m ρ c (Proc.devRef .tc main_v40) = h2 m c :=
  ((W5_arr m ρ c 0).trans (((dat2 (V4 m ρ) c).arrAt_in 0 rfl _).trans (A_eq2 (V4 m ρ) c 0))).trans (W4_v40 m ρ c)
theorem W5_v1 (c : Dev nD) : W5 m ρ c (Proc.devRef .tc main_v1) = sV m c := (W5_of_ne m ρ c main_v1 (by decide)).trans (W4_v1 m ρ c)
theorem W5_v3 (c : Dev nD) : W5 m ρ c (Proc.devRef .tc main_v3) = dV m c := (W5_of_ne m ρ c main_v3 (by decide)).trans (W4_v3 m ρ c)
theorem W5_v12 (c : Dev nD) : W5 m ρ c (Proc.devRef .tc main_v12) = rc m c := (W5_of_ne m ρ c main_v12 (by decide)).trans (W4_v12 m ρ c)
theorem W5_arg9 (c : Dev nD) : W5 m ρ c (Proc.devRef .tc main_arg9) = m ((c : Thread nD τ).loc main_arg9) :=
  (W5_of_ne m ρ c main_arg9 (by decide)).trans (W4_arg9 m ρ c)
theorem W5_arg10 (c : Dev nD) : W5 m ρ c (Proc.devRef .tc main_arg10) = m ((c : Thread nD τ).loc main_arg10) :=
  (W5_of_ne m ρ c main_arg10 (by decide)).trans (W4_arg10 m ρ c)

/-! ## After the third stretch -/

theorem W6_v53 (c : Dev nD) : W6 m ρ c (Proc.devRef .tc main_v53) = agg64 (F := Ideal) (hW m c) (sV m c) (dV m c) := by
  refine (h3_v53 (W5 m ρ c)).trans ?_
  rw [W5_v41, W5_v1, W5_v3]
theorem W6_v54 (c : Dev nD) : W6 m ρ c (Proc.devRef .tc main_v54) = biasRow64 (F := Ideal) (m ((c : Thread nD τ).loc main_arg10)) := by
  refine (h3_v54 (W5 m ρ c)).trans ?_
  rw [W5_arg10]
theorem W6_v12 (c : Dev nD) : W6 m ρ c (Proc.devRef .tc main_v12) = rc m c := (h3_v12 (W5 m ρ c)).trans (W5_v12 m ρ c)
theorem W6_v40 (c : Dev nD) : W6 m ρ c (Proc.devRef .tc main_v40) = h2 m c := (h3_v40 (W5 m ρ c)).trans (W5_v40 m ρ c)
theorem W6_arg9 (c : Dev nD) : W6 m ρ c (Proc.devRef .tc main_arg9) = m ((c : Thread nD τ).loc main_arg9) :=
  (h3_arg9 (W5 m ρ c)).trans (W5_arg9 m ρ c)

/-! ## After the fourth launch: the result -/

theorem W7_v55 (c : Dev nD) : W7 m ρ c (Proc.devRef .tc main_v55) = outK m c := by
  refine (W7_arr m ρ c 5).trans ((KReg3.final (V6 m ρ) c).trans ?_)
  show KReg3.G (W6 m ρ c (Proc.devRef .tc main_v53)) (W6 m ρ c (Proc.devRef .tc main_v12)) (W6 m ρ c (Proc.devRef .tc main_v40))
    (W6 m ρ c (Proc.devRef .tc main_arg9)) (W6 m ρ c (Proc.devRef .tc main_v54)) = _
  rw [W6_v53, W6_v12, W6_v40, W6_arg9, W6_v54]
  rfl

/-- THE RUN, READ: every weakly fair execution terminates; the result array holds the value computed above from the
    launch memory, and the arguments are as launched. -/
theorem run : θ_run defs (onTc (τ := τ) (main (F := Ideal))) ⟨m, fun _ => 0, ρ⟩ (fun r => ∀ c : Dev nD,
      r.2.mem ((c.tc : Thread nD τ).loc main_v55) = outK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h c).1).trans (W7_v55 m ρ c), (h c).2⟩) (KRun.run_main m ρ)

end Cert.KernelIdeal.KValue

end
-- ==== Proof.LibEdgeOps.lean ====
/-
  Gathers of rows and of vector entries along a list of edges, and the accumulating scatter of rows, read at coordinates.

  A graph computation keeps one node number per edge in an m × 1 array of words.  Three of the host's indexed
  operations meet such an array:

    * the gather of rows: result row e is the operand's row whose number is the edge's word, read as a signed integer
      and clamped into the operand's range ("gather_rows_apply");
    * the gather of vector entries: result entry e is the operand's entry at that clamped number
      ("gather_vec_apply");
    * the scatter of rows: update entry (e, c) lands on operand entry (v, c') exactly when the edge's word, read as a
      signed integer and NOT clamped, is v and c' is c ("scatter_rows_resultIdx"); an edge whose word is negative or
      too large lands nowhere.

  Each statement takes the dimension numbers as an arbitrary record whose fields are the ones such an operation
  carries, so it applies to whichever record a program spells them with.
-/
import Idealize.ShloMosaic.Lib.ValueIdx
import Idealize.ShloMosaic.PureOps.Ideal.Laws

noncomputable section

open scoped BigOperators

namespace EdgeOps

open Idealize.ShloMosaic Idealize.ShloMosaic.ValueIdx

variable {α : Type} {n m q w : ℕ}

/-! ## The gather of rows -/

/-- The dimension numbers of "row idx[e] of an n × q array, for every edge e", as a literal record over given
    conditions. -/
abbrev rowDims (n m q : ℕ)
    (wf : GatherDims.WF ⟨2, ![n, q]⟩ ⟨2, ![m, 1]⟩ ⟨2, ![m, q]⟩ [1] [0] [] [0] [] 1 ![1, q]) :
    GatherDims ⟨2, ![n, q]⟩ ⟨2, ![m, 1]⟩ ⟨2, ![m, q]⟩ where
  offsetDims := [1]
  collapsedSliceDims := [0]
  operandBatchingDims := []
  startIndicesBatchingDims := []
  startIndexMap := [0]
  indexVectorDim := 1
  sliceSizes := ![1, q]
  wf := wf

theorem rowDims_apply (hn : 0 < n)
    (wf : GatherDims.WF ⟨2, ![n, q]⟩ ⟨2, ![m, 1]⟩ ⟨2, ![m, q]⟩ [1] [0] [] [0] [] 1 ![1, q])
    (x : (⟨2, ![n, q]⟩ : Shape).Idx → α) (idx : IVec (⟨2, ![m, 1]⟩ : Shape) w) (e : Fin m) (c : Fin q) :
    Host.gather (rowDims n m q wf) x idx (ix2 e c)
      = x (ix2 ⟨min (idx (ix2 e (0 : Fin 1))).toInt.toNat (n - 1), by omega⟩ c) := by
  unfold Host.gather
  congr 1
  funext a
  refine Fin.ext ?_
  match a with
  | ⟨0, _⟩ =>
    show (rowDims n m q wf).start (ix2 e c) idx 0 + (rowDims n m q wf).batchCoord (ix2 e c) 0
      + (rowDims n m q wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims n m q wf).startIndexMap from List.mem_singleton.mpr rfl)]
    have hsi : (rowDims n m q wf).siIdx (ix2 e c) ⟨List.idxOf (0 : Fin 2) (rowDims n m q wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims n m q wf).start (ix2 e c) idx 1 + (rowDims n m q wf).batchCoord (ix2 e c) 1
      + (rowDims n m q wf).offCoord (ix2 e c) 1 = c.val
    rw [GatherDims.batchCoord_eq_zero _ _ _ List.not_mem_nil]
    have hst : (rowDims n m q wf).start (ix2 e c) idx 1 = 0 := by
      unfold GatherDims.start
      rw [dif_neg (show (1 : Fin 2) ∉ ([0] : List (Fin 2)) by decide)]
    have hoff : (rowDims n m q wf).offCoord (ix2 e c) 1 = c.val := by
      unfold GatherDims.offCoord
      rw [dif_pos ((GatherDims.mem_sKept _ _).mpr
        ⟨(show (1 : Fin 2) ∉ ([0] : List (Fin 2)) by decide), List.not_mem_nil⟩)]
      rfl
    rw [hst, hoff, Nat.zero_add]

/-- THE GATHER OF ROWS READ AT (e, c): the operand at row "the edge's word, signed and clamped into [0, n − 1]",
    column c. -/
theorem gather_rows_apply
    (gd : GatherDims (⟨2, ![n, q]⟩ : Shape) (⟨2, ![m, 1]⟩ : Shape) (⟨2, ![m, q]⟩ : Shape))
    (ho : gd.offsetDims = [1]) (hc : gd.collapsedSliceDims = [0]) (hob : gd.operandBatchingDims = [])
    (hsb : gd.startIndicesBatchingDims = []) (hm : gd.startIndexMap = [0]) (hv : gd.indexVectorDim = 1)
    (hs : gd.sliceSizes = ![1, q]) (hn : 0 < n)
    (x : (⟨2, ![n, q]⟩ : Shape).Idx → α) (idx : IVec (⟨2, ![m, 1]⟩ : Shape) w) (e : Fin m) (c : Fin q) :
    Host.gather gd x idx (ix2 e c)
      = x (ix2 ⟨min (idx (ix2 e (0 : Fin 1))).toInt.toNat (n - 1), by omega⟩ c) := by
  obtain ⟨od, cs, ob, sb, sm, iv, ss, wf⟩ := gd
  dsimp only at ho hc hob hsb hm hv hs
  subst ho hc hob hsb hm hv hs
  exact rowDims_apply hn wf x idx e c

/-! ## The gather of vector entries -/

/-- The dimension numbers of "entry idx[e] of a vector of n, for every edge e", as a literal record over given
    conditions. -/
abbrev vecDims (n m : ℕ)
    (wf : GatherDims.WF ⟨1, ![n]⟩ ⟨2, ![m, 1]⟩ ⟨1, ![m]⟩ [] [0] [] [0] [] 1 ![1]) :
    GatherDims ⟨1, ![n]⟩ ⟨2, ![m, 1]⟩ ⟨1, ![m]⟩ where
  offsetDims := []
  collapsedSliceDims := [0]
  operandBatchingDims := []
  startIndicesBatchingDims := []
  startIndexMap := [0]
  indexVectorDim := 1
  sliceSizes := ![1]
  wf := wf

theorem vecDims_apply (hn : 0 < n)
    (wf : GatherDims.WF ⟨1, ![n]⟩ ⟨2, ![m, 1]⟩ ⟨1, ![m]⟩ [] [0] [] [0] [] 1 ![1])
    (x : (⟨1, ![n]⟩ : Shape).Idx → α) (idx : IVec (⟨2, ![m, 1]⟩ : Shape) w) (e : Fin m) :
    Host.gather (vecDims n m wf) x idx (ix1 e)
      = x (ix1 ⟨min (idx (ix2 e (0 : Fin 1))).toInt.toNat (n - 1), by omega⟩) := by
  unfold Host.gather
  congr 1
  funext a
  obtain rfl : a = 0 := Subsingleton.elim _ _
  refine Fin.ext ?_
  show (vecDims n m wf).start (ix1 e) idx 0 + (vecDims n m wf).batchCoord (ix1 e) 0
    + (vecDims n m wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims n m wf).startIndexMap from List.mem_singleton.mpr rfl)]
  have hsi : (vecDims n m wf).siIdx (ix1 e) ⟨List.idxOf (0 : Fin 1) (vecDims n m wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE GATHER OF VECTOR ENTRIES READ AT e: the operand at "the edge's word, signed and clamped into [0, n − 1]". -/
theorem gather_vec_apply
    (g1 : GatherDims (⟨1, ![n]⟩ : Shape) (⟨2, ![m, 1]⟩ : Shape) (⟨1, ![m]⟩ : Shape))
    (ho : g1.offsetDims = []) (hc : g1.collapsedSliceDims = [0]) (hob : g1.operandBatchingDims = [])
    (hsb : g1.startIndicesBatchingDims = []) (hm : g1.startIndexMap = [0]) (hv : g1.indexVectorDim = 1)
    (hs : g1.sliceSizes = ![1]) (hn : 0 < n)
    (x : (⟨1, ![n]⟩ : Shape).Idx → α) (idx : IVec (⟨2, ![m, 1]⟩ : Shape) w) (e : Fin m) :
    Host.gather g1 x idx (ix1 e)
      = x (ix1 ⟨min (idx (ix2 e (0 : Fin 1))).toInt.toNat (n - 1), by omega⟩) := by
  obtain ⟨od, cs, ob, sb, sm, iv, ss, wf⟩ := g1
  dsimp only at ho hc hob hsb hm hv hs
  subst ho hc hob hsb hm hv hs
  exact vecDims_apply hn wf x idx e

/-! ## The scatter of rows -/

/-- The dimension numbers of "add row e of an m × q array into row idx[e] of an n × q array", as a literal record over
    given conditions. -/
abbrev scatDims (n m q : ℕ)
    (wf : ScatterDims.WF ⟨2, ![n, q]⟩ ⟨2, ![m, 1]⟩ ⟨2, ![m, q]⟩ [1] [0] [0] 1) :
    ScatterDims ⟨2, ![n, q]⟩ ⟨2, ![m, 1]⟩ ⟨2, ![m, q]⟩ where
  updateWindowDims := [1]
  insertedWindowDims := [0]
  scatterDimsToOperandDims := [0]
  indexVectorDim := 1
  wf := wf

section Scatter
variable (wf : ScatterDims.WF ⟨2, ![n, q]⟩ ⟨2, ![m, 1]⟩ ⟨2, ![m, q]⟩ [1] [0] [0] 1)
  (idx : IVec (⟨2, ![m, 1]⟩ : Shape) w) (e : Fin m) (c : Fin q)

/-- On the row axis the window starts at the edge's word, read signed. -/
theorem scatDims_start0 :
    (scatDims n m q wf).start (ix2 e c) idx 0 = (idx (ix2 e (0 : Fin 1))).toInt := by
  unfold ScatterDims.start
  rw [dif_pos (show (0 : Fin 2) ∈ (scatDims n m q wf).scatterDimsToOperandDims from List.mem_singleton.mpr rfl)]
  have hsi : (scatDims n m q wf).siIdx (ix2 e c)
      ⟨List.idxOf (0 : Fin 2) (scatDims n m q wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0. -/
theorem scatDims_start1 : (scatDims n m q wf).start (ix2 e c) idx 1 = 0 := by
  unfold ScatterDims.start
  rw [dif_neg (show (1 : Fin 2) ∉ ([0] : List (Fin 2)) by decide)]

/-- The row axis is inserted: its window coordinate is 0. -/
theorem scatDims_window0 : (scatDims n m q wf).window (ix2 e c) 0 = 0 := by
  unfold ScatterDims.window
  have h0 : (0 : Fin 2) ∉ (scatDims n m q wf).sKept := by
    intro h
    have h2 := (List.mem_filter.mp h).2
    simp at h2
  rw [dif_neg h0]

/-- The column axis carries the update's column. -/
theorem scatDims_window1 : (scatDims n m q wf).window (ix2 e c) 1 = c.val := by
  unfold ScatterDims.window
  have h1 : (1 : Fin 2) ∈ (scatDims n m q wf).sKept :=
    List.mem_filter.mpr ⟨List.mem_finRange _, by simp⟩
  rw [dif_pos h1]
  rfl

theorem scatDims_resultIdx (i : (⟨2, ![n, q]⟩ : Shape).Idx) :
    (scatDims n m q wf).resultIdx? (ix2 e c) idx = some i
      ↔ (idx (ix2 e (0 : Fin 1))).toInt = ((i 0).val : ℤ) ∧ (i 1).val = c.val := by
  have hs0 := scatDims_start0 wf idx e c
  have hs1 := scatDims_start1 wf idx e c
  have hw0 := scatDims_window0 wf e c
  have hw1 := scatDims_window1 wf e c
  have hi0 : (i 0).val < n := idx2_lt0 i
  have hi1 : (i 1).val < q := idx2_lt1 i
  have hc : c.val < q := c.isLt
  unfold ScatterDims.resultIdx?
  split
  next h =>
    have g0 := h 0
    have g1 := h 1
    rw [hs0, hw0] at g0
    rw [hs1, hw1] at g1
    constructor
    · intro heq
      have hi := Option.some.inj heq
      have e0 : ((scatDims n m q wf).start (ix2 e c) idx 0
          + ((scatDims n m q wf).window (ix2 e c) 0 : ℕ)).toNat = (i 0).val := congrArg Fin.val (congrFun hi 0)
      have e1 : ((scatDims n m q wf).start (ix2 e c) idx 1
          + ((scatDims n m q wf).window (ix2 e c) 1 : ℕ)).toNat = (i 1).val := congrArg Fin.val (congrFun hi 1)
      rw [hs0, hw0] at e0
      rw [hs1, hw1] at e1
      generalize (idx (ix2 e (0 : Fin 1))).toInt = z at *
      omega
    · rintro ⟨h0, h1⟩
      refine congrArg some (funext fun a => Fin.ext ?_)
      match a with
      | ⟨0, _⟩ =>
        show ((scatDims n m q wf).start (ix2 e c) idx 0
          + ((scatDims n m q wf).window (ix2 e c) 0 : ℕ)).toNat = (i 0).val
        rw [hs0, hw0, h0]; omega
      | ⟨1, _⟩ =>
        show ((scatDims n m q wf).start (ix2 e c) idx 1
          + ((scatDims n m q wf).window (ix2 e c) 1 : ℕ)).toNat = (i 1).val
        rw [hs1, hw1, h1]; omega
  next h =>
    constructor
    · intro heq; exact absurd heq (by simp)
    · rintro ⟨h0, h1⟩
      exfalso
      apply h
      intro a
      match a with
      | ⟨0, _⟩ =>
        show 0 ≤ (scatDims n m q wf).start (ix2 e c) idx 0 + ((scatDims n m q wf).window (ix2 e c) 0 : ℕ)
          ∧ (scatDims n m q wf).start (ix2 e c) idx 0 + ((scatDims n m q wf).window (ix2 e c) 0 : ℕ) < ((n : ℕ) : ℤ)
        rw [hs0, hw0, h0]; omega
      | ⟨1, _⟩ =>
        show 0 ≤ (scatDims n m q wf).start (ix2 e c) idx 1 + ((scatDims n m q wf).window (ix2 e c) 1 : ℕ)
          ∧ (scatDims n m q wf).start (ix2 e c) idx 1 + ((scatDims n m q wf).window (ix2 e c) 1 : ℕ) < ((q : ℕ) : ℤ)
        rw [hs1, hw1]; omega

end Scatter

/-- THE SCATTER OF ROWS: update entry (e, c) lands on operand entry i exactly when the edge's word, read signed and not
    clamped, is i's row, and i's column is c. -/
theorem scatter_rows_resultIdx
    (sd : ScatterDims (⟨2, ![n, q]⟩ : Shape) (⟨2, ![m, 1]⟩ : Shape) (⟨2, ![m, q]⟩ : Shape))
    (hu : sd.updateWindowDims = [1]) (hi : sd.insertedWindowDims = [0]) (hd : sd.scatterDimsToOperandDims = [0])
    (hv : sd.indexVectorDim = 1)
    (idx : IVec (⟨2, ![m, 1]⟩ : Shape) w) (e : Fin m) (c : Fin q) (i : (⟨2, ![n, q]⟩ : Shape).Idx) :
    sd.resultIdx? (ix2 e c) idx = some i
      ↔ (idx (ix2 e (0 : Fin 1))).toInt = ((i 0).val : ℤ) ∧ (i 1).val = c.val := by
  obtain ⟨uw, iw, sdo, iv, wf⟩ := sd
  dsimp only at hu hi hd hv
  subst hu hi hd hv
  exact scatDims_resultIdx wf idx e c i

end EdgeOps

end
-- ==== Proof.LibRealSums.lean ====
/-
  Finite sums of real numbers, read on the extended reals.

  Coercion from the reals to the extended reals commutes with a finite sum (`coe_sum_real`: by induction on the index
  set, the coercion being additive), and a finite sum of products of extended reals each of which is a real number is the
  coercion of the real sum of the real products (`sum_mul_of_real`).  With these a computation on extended reals whose
  inputs are all finite can be carried out in the reals, where a factor moves across a sum and a nonzero divisor cancels.
-/
import Mathlib.Data.EReal.Operations
import Mathlib.Algebra.BigOperators.Fin

open scoped BigOperators

namespace RealSums

/-- A finite sum of real numbers, read on the extended reals, is the sum of the readings. -/
theorem coe_sum_real {ι : Type*} (s : Finset ι) (f : ι → ℝ) :
    ((∑ i ∈ s, f i : ℝ) : EReal) = ∑ i ∈ s, (f i : EReal) := by
  classical
  refine Finset.induction_on s (by simp) ?_
  intro a t ha ih
  rw [Finset.sum_insert ha, Finset.sum_insert ha, EReal.coe_add, ih]

/-- A finite sum of products of entries that are real numbers is the real sum of the real products. -/
theorem sum_mul_of_real {ι : Type*} [Fintype ι] (A B : ι → EReal) (a b : ι → ℝ)
    (hA : ∀ i, A i = (a i : EReal)) (hB : ∀ i, B i = (b i : EReal)) :
    ∑ i, A i * B i = ((∑ i, a i * b i : ℝ) : EReal) := by
  rw [coe_sum_real]
  exact Finset.sum_congr rfl (fun i _ => by rw [hA, hB, EReal.coe_mul])

end RealSums
-- ==== Proof.LibSegSum.lean ====
/-
  Sums over the edges that point at a node, on extended reals that are real numbers.

  A graph has m edges; edge e carries a source word and a target word.  The aggregate of an n × k array h has, at
  (r, l), a starting value plus the sum, over the edges whose target word read as a signed integer is r, of
  h (src e, l), where src e is the source word read signed and clamped into [0, n − 1].  An edge whose target word
  is negative or at least n contributes to no row.

  Three things are proved.

    * "IsReal": an extended real that is the reading of a real number.  The reals are closed under everything the
      aggregate and a linear layer are made of: sums, products, differences, finite sums, maxima, minima, the
      exponential, and division by a real number that is not zero.  So an accumulating scatter, a gather and a
      product of arrays with real entries have real entries, and a count clamped below at one is a real number
      that is not zero.

    * "scatterAdd_rows_apply": the accumulating scatter of rows read at (r, c) is the operand's entry plus the
      sum, over the edges whose target word is r, of the update's entry (e, c).  The sum over all update indices
      is a double sum over edge and column; update (e, c') lands on (r, c) exactly when the edge's word is r and
      c' is c, so the inner sum over the column keeps one term.

    * "agg_proj_exchange": aggregating commutes with projecting by a k × q matrix W and averaging by a real
      d ≠ 0, when h and W have real entries and the starting value is zero:

          A(h · W)(r, c) · (1 / d)  =  sum over l of (A(h)(r, l) / d) · W(l, c).

      Over the reals both sides are the double sum, over the edges e pointing at r and over l, of
      h (src e, l) · W (l, c) · (1 / d): the two finite sums are exchanged and the factors 1 / d and W (l, c) are
      moved across them.  On the extended reals the exchange fails at the infinities (a product of 0 and an
      infinity is 0, so a factor cannot be moved across a sum that contains both), which is why the entries must
      be real.
-/
import Idealize.ShloMosaic.Lib.ValueIdx
import Idealize.ShloMosaic.PureOps.Ideal.Laws
import proofs.«114920_j35115652612101_2_alg».proof.Proof.LibEdgeOps
import proofs.«114920_j35115652612101_2_alg».proof.Proof.LibRealSums
import proofs.«114920_j35115652612101_2_alg».proof.Proof.LibRowWise
import proofs.«114920_j35115652612101_2_alg».proof.Proof.LibMatProd
import proofs.«114920_j35115652612101_2_alg».proof.Proof.LibSageLayer

noncomputable section

open scoped BigOperators

namespace SegSum

open Idealize.ShloMosaic Idealize.ShloMosaic.ValueIdx GcnSpec Sage

/-! ## Extended reals that are real numbers -/

/-- The extended real is the reading of a real number: it is neither infinity. -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

theorem isReal_zeroF : IsReal zeroF := by rw [zeroF_eq]; exact isReal_zero

theorem isReal_oneF : IsReal oneF := by rw [oneF_eq]; exact isReal_one

theorem IsReal.ne_top {x : EReal} (hx : IsReal x) : x ≠ ⊤ := by
  obtain ⟨a, rfl⟩ := hx; exact EReal.coe_ne_top a

theorem IsReal.ne_bot {x : EReal} (hx : IsReal x) : x ≠ ⊥ := by
  obtain ⟨a, rfl⟩ := hx; exact EReal.coe_ne_bot a

theorem isReal_add {x y : EReal} (hx : IsReal x) (hy : IsReal y) : IsReal (x + y) := by
  obtain ⟨a, rfl⟩ := hx; obtain ⟨b, rfl⟩ := hy
  exact ⟨a + b, (EReal.coe_add a b).symm⟩

theorem isReal_mul {x y : EReal} (hx : IsReal x) (hy : IsReal y) : IsReal (x * y) := by
  obtain ⟨a, rfl⟩ := hx; obtain ⟨b, rfl⟩ := hy
  exact ⟨a * b, (EReal.coe_mul a b).symm⟩

theorem isReal_neg {x : EReal} (hx : IsReal x) : IsReal (-x) := by
  obtain ⟨a, rfl⟩ := hx
  exact ⟨-a, (EReal.coe_neg a).symm⟩

theorem isReal_sub {x y : EReal} (hx : IsReal x) (hy : IsReal y) : IsReal (x - y) := by
  obtain ⟨a, rfl⟩ := hx; obtain ⟨b, rfl⟩ := hy
  exact ⟨a - b, (EReal.coe_sub a b).symm⟩

/-- A finite sum of real numbers is a real number: by induction on the index set. -/
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a t ha ih =>
    rw [Finset.sum_insert ha]
    exact isReal_add (h a (Finset.mem_insert_self a t)) (ih fun i hi => h i (Finset.mem_insert_of_mem hi))

/-- A real number divided by a real number that is not zero: the product with the reciprocal. -/
theorem isReal_div {x y : EReal} (hx : IsReal x) (hy : IsReal y) (h0 : y ≠ 0) : IsReal (Ideal.div x y) := by
  obtain ⟨a, rfl⟩ := hx; obtain ⟨b, rfl⟩ := hy
  have hb : b ≠ 0 := fun hb => h0 (by rw [hb, EReal.coe_zero])
  rw [Ideal.div_coe hb, ← EReal.coe_mul]
  exact isReal_coe _

theorem isReal_max {x y : EReal} (hx : IsReal x) (hy : IsReal y) : IsReal (max x y) := by
  rcases le_total x y with h | h
  · rw [max_eq_right h]; exact hy
  · rw [max_eq_left h]; exact hx

theorem isReal_min {x y : EReal} (hx : IsReal x) (hy : IsReal y) : IsReal (min x y) := by
  rcases le_total x y with h | h
  · rw [min_eq_left h]; exact hx
  · rw [min_eq_right h]; exact hy

theorem isReal_exp {x : EReal} (hx : IsReal x) : IsReal (Ideal.exp x) := by
  obtain ⟨a, rfl⟩ := hx
  exact ⟨Real.exp a, Ideal.exp_coe a⟩

/-! ## Arrays with real entries -/

/-- The accumulating scatter, at the ideal instance, read at an index: the operand's entry plus the sum of the
    updates that land there. -/
theorem scatterAdd_apply {s si su : Shape} {w : ℕ} {φ : FTy} (sd : ScatterDims s si su) (x : s.Idx → EReal)
    (idx : IVec si w) (upd : su.Idx → EReal) (i : s.Idx) :
    Host.scatterAdd (F := Ideal) (φ := φ) sd x idx upd i = Ideal.hostScatterAdd sd x idx upd i := rfl

/-- An accumulating scatter of real updates into a real operand is real at every index. -/
theorem isReal_scatterAdd {s si su : Shape} {w : ℕ} {φ : FTy} (sd : ScatterDims s si su) (x : s.Idx → EReal)
    (idx : IVec si w) (upd : su.Idx → EReal) (hx : ∀ i, IsReal (x i)) (hu : ∀ j, IsReal (upd j)) (i : s.Idx) :
    IsReal (Host.scatterAdd (F := Ideal) (φ := φ) sd x idx upd i) := by
  rw [scatterAdd_apply]
  unfold Ideal.hostScatterAdd
  exact isReal_add (hx i) (isReal_sum _ _ fun j _ => hu j)

/-- A gather reads entries of its operand: real if they all are. -/
theorem isReal_gather {s si t : Shape} {w : ℕ} (gd : GatherDims s si t) (x : s.Idx → EReal) (idx : IVec si w)
    (hx : ∀ i, IsReal (x i)) (j : t.Idx) : IsReal (Host.gather gd x idx j) :=
  hx _

/-- The product of arrays read at a pair of coordinates. -/
theorem lin_ix2 {n k q : ℕ} (x : Arr n k) (W : Arr k q) (r : Fin n) (c : Fin q) :
    lin x W (ix2 r c) = ∑ l : Fin k, x (ix2 r l) * W (ix2 l c) := rfl

/-- A product of arrays with real entries has real entries. -/
theorem isReal_lin {n k q : ℕ} (x : Arr n k) (W : Arr k q) (hx : ∀ i, IsReal (x i)) (hW : ∀ i, IsReal (W i))
    (i : (⟨2, ![n, q]⟩ : Shape).Idx) : IsReal (lin x W i) := by
  obtain ⟨r, c, rfl⟩ : ∃ (r : Fin n) (c : Fin q), i = ix2 r c := ⟨i 0, i 1, eq_ix2 i⟩
  rw [lin_ix2]
  exact isReal_sum _ _ fun l _ => isReal_mul (hx _) (hW _)

/-- A count clamped below at one is a real number that is not zero.  The count is the accumulating scatter of ones
    into zeros: zero plus a finite sum of ones. -/
theorem clampDeg_real {s si su : Shape} {w : ℕ} {φ : FTy} (sd1 : ScatterDims s si su) (idx : IVec si w) (i : s.Idx) :
    IsReal (max (Host.scatterAdd (F := Ideal) (φ := φ) sd1 (fun _ => zeroF) idx (fun _ => oneF) i) oneF)
      ∧ max (Host.scatterAdd (F := Ideal) (φ := φ) sd1 (fun _ => zeroF) idx (fun _ => oneF) i) oneF ≠ 0 := by
  refine ⟨isReal_max (isReal_scatterAdd sd1 _ idx _ (fun _ => isReal_zeroF) (fun _ => isReal_oneF) i) isReal_oneF, ?_⟩
  rw [max_comm]
  exact clamp_ne_zero _

/-! ## The accumulating scatter of rows, read at coordinates -/

/-- Entry (r, c) of the accumulating scatter of rows: the operand's entry plus the sum, over the edges whose word
    read signed is r, of the update's entry (e, c). -/
theorem scatterAdd_rows_apply {n m q w : ℕ} {φ : FTy}
    (sd : ScatterDims (⟨2, ![n, q]⟩ : Shape) (⟨2, ![m, 1]⟩ : Shape) (⟨2, ![m, q]⟩ : Shape))
    (hu : sd.updateWindowDims = [1]) (hi : sd.insertedWindowDims = [0]) (hd : sd.scatterDimsToOperandDims = [0])
    (hv : sd.indexVectorDim = 1)
    (x : Arr n q) (idx : IVec (⟨2, ![m, 1]⟩ : Shape) w) (upd : Arr m q) (r : Fin n) (c : Fin q) :
    Host.scatterAdd (F := Ideal) (φ := φ) sd x idx upd (ix2 r c)
      = x (ix2 r c) + ∑ e ∈ Finset.univ.filter (fun e : Fin m => (idx (ix2 e (0 : Fin 1))).toInt = (r.val : ℤ)),
          upd (ix2 e c) := by
  rw [scatterAdd_apply]
  unfold Ideal.hostScatterAdd
  congr 1
  rw [Finset.sum_filter, Finset.sum_filter, sum_idx2]
  refine Finset.sum_congr rfl fun e _ => ?_
  have key : ∀ b : Fin q, (sd.resultIdx? (ix2 e b) idx = some (ix2 r c))
      ↔ ((idx (ix2 e (0 : Fin 1))).toInt = (r.val : ℤ) ∧ c = b) := by
    intro b
    rw [EdgeOps.scatter_rows_resultIdx sd hu hi hd hv idx e b (ix2 r c)]
    constructor
    · rintro ⟨h0, h1⟩; exact ⟨h0, Fin.ext h1⟩
    · rintro ⟨h0, rfl⟩; exact ⟨h0, rfl⟩
  simp only [key]
  by_cases h : (idx (ix2 e (0 : Fin 1))).toInt = (r.val : ℤ)
  · simp [h]
  · simp [h]

/-! ## Aggregating commutes with projecting and averaging -/

/-- THE LAW.  With a zero starting value, real entries in h and W and a real d that is not zero:
    the aggregate of the projected array h · W, times 1 / d, is the aggregate of h divided by d, projected.
    Both scatters are read at coordinates as sums over the same set of edges (those pointing at r) and both gathers as
    the same clamped source row; then everything is the reading of a real number, and over the reals the two finite
    sums are exchanged and the factors 1 / d and W (l, c) are moved across them. -/
theorem agg_proj_exchange {n m k q w : ℕ} {φ : FTy}
    (gk : GatherDims (⟨2, ![n, k]⟩ : Shape) (⟨2, ![m, 1]⟩ : Shape) (⟨2, ![m, k]⟩ : Shape))
    (hgko : gk.offsetDims = [1]) (hgkc : gk.collapsedSliceDims = [0]) (hgkob : gk.operandBatchingDims = [])
    (hgksb : gk.startIndicesBatchingDims = []) (hgkm : gk.startIndexMap = [0]) (hgkv : gk.indexVectorDim = 1)
    (hgks : gk.sliceSizes = ![1, k])
    (gq : GatherDims (⟨2, ![n, q]⟩ : Shape) (⟨2, ![m, 1]⟩ : Shape) (⟨2, ![m, q]⟩ : Shape))
    (hgqo : gq.offsetDims = [1]) (hgqc : gq.collapsedSliceDims = [0]) (hgqob : gq.operandBatchingDims = [])
    (hgqsb : gq.startIndicesBatchingDims = []) (hgqm : gq.startIndexMap = [0]) (hgqv : gq.indexVectorDim = 1)
    (hgqs : gq.sliceSizes = ![1, q])
    (sk : ScatterDims (⟨2, ![n, k]⟩ : Shape) (⟨2, ![m, 1]⟩ : Shape) (⟨2, ![m, k]⟩ : Shape))
    (hsku : sk.updateWindowDims = [1]) (hski : sk.insertedWindowDims = [0])
    (hskd : sk.scatterDimsToOperandDims = [0]) (hskv : sk.indexVectorDim = 1)
    (sq : ScatterDims (⟨2, ![n, q]⟩ : Shape) (⟨2, ![m, 1]⟩ : Shape) (⟨2, ![m, q]⟩ : Shape))
    (hsqu : sq.updateWindowDims = [1]) (hsqi : sq.insertedWindowDims = [0])
    (hsqd : sq.scatterDimsToOperandDims = [0]) (hsqv : sq.indexVectorDim = 1)
    (hn : 0 < n) (S D : IVec (⟨2, ![m, 1]⟩ : Shape) w) (h : Arr n k) (W : Arr k q) (d : EReal)
    (hh : ∀ i, IsReal (h i)) (hW : ∀ i, IsReal (W i)) (hd : IsReal d) (hd0 : d ≠ 0) (r : Fin n) (c : Fin q) :
    Host.scatterAdd (F := Ideal) (φ := φ) sq (fun _ => zeroF) D (Host.gather gq (lin h W) S) (ix2 r c)
        * Ideal.div oneF d
      = ∑ l : Fin k,
          Ideal.div (Host.scatterAdd (F := Ideal) (φ := φ) sk (fun _ => zeroF) D (Host.gather gk h S) (ix2 r l)) d
            * W (ix2 l c) := by
  rw [scatterAdd_rows_apply sq hsqu hsqi hsqd hsqv]
  simp only [scatterAdd_rows_apply sk hsku hski hskd hskv,
    EdgeOps.gather_rows_apply gq hgqo hgqc hgqob hgqsb hgqm hgqv hgqs hn,
    EdgeOps.gather_rows_apply gk hgko hgkc hgkob hgksb hgkm hgkv hgks hn, lin_ix2]
  have hh' : ∀ i, ∃ a : ℝ, h i = (a : EReal) := hh
  have hW' : ∀ i, ∃ a : ℝ, W i = (a : EReal) := hW
  choose hr hhr using hh'
  choose wr hwr using hW'
  obtain ⟨dr, rfl⟩ := hd
  have hdr : dr ≠ 0 := fun e => hd0 (by rw [e, EReal.coe_zero])
  simp only [hhr, hwr, zeroF_eq, oneF_eq, Ideal.div_coe hdr, zero_add, one_mul]
  simp only [← EReal.coe_mul, ← RealSums.coe_sum_real]
  rw [EReal.coe_eq_coe_iff, Finset.sum_comm, Finset.sum_mul]
  refine Finset.sum_congr rfl fun l _ => ?_
  rw [← Finset.sum_mul]
  ring

end SegSum

end
-- ==== Proof.LibSageBridge.lean ====
/-
  A three-layer mean-aggregation graph network written two ways is one function, and the host's spellings of its
  pieces.

  Both computations start from node features x, an edge list (source words S, target words D) and three layers'
  parameters.  The in-degree of a node is the number of edges pointing at it; it is clamped below at one.  The
  aggregate A(h) of an array h sums, for every node r, the rows h(src e, ·) over the edges e pointing at r.

    * The reference divides A(h) by the clamped in-degree, entry by entry, and feeds the layer; its last layer is
      the pre-activation  (A(h)/d) · Wl + h · Wr + b.
    * The kernel multiplies A(h) by a reciprocal column 1/d computed once; in its last layer it projects FIRST,
      aggregating h · Wl instead of h, scales the result by 1/d, and adds  h · Wr  and b around it.

  Three facts make them equal.  The clamped in-degree is a real number that is never zero, so multiplying by its
  reciprocal is dividing by it ("scale_eq_div", "hid_eq": the hidden layers agree for any input whatever).  Real
  inputs give real hidden layers (sums, products, quotients by nonzero reals, exponentials and minima of reals are
  real: "isReal_hidR").  And on an array with real entries aggregating commutes with projecting and averaging
  (the exchange of two finite sums over the reals), so the last layers agree up to the order of one addition
  ("last_eq").  "bridge" puts the three together.

  The second part reads the host's operation chains as the pure forms used above: a scalar constant broadcast to a
  shape ("splat"), a gather between a narrowing and a widening of the float format ("gather_narrow": both are the
  identity on extended reals), the reciprocal column ("recip_col"), the mean ("host_mean"), the pre-activation
  ("host_pre") and the exponential-linear activation spelt with two choices and exp(·) − 1 ("host_elu_apply").
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«114920_j35115652612101_2_alg».proof.Proof.LibRowWise
import proofs.«114920_j35115652612101_2_alg».proof.Proof.LibMatProd
import proofs.«114920_j35115652612101_2_alg».proof.Proof.LibRowCol
import proofs.«114920_j35115652612101_2_alg».proof.Proof.LibRowOps
import proofs.«114920_j35115652612101_2_alg».proof.Proof.LibSageLayer
import proofs.«114920_j35115652612101_2_alg».proof.Proof.LibSageElu
import proofs.«114920_j35115652612101_2_alg».proof.Proof.LibSegSum

noncomputable section

open scoped BigOperators

namespace SageBridge

open Idealize.ShloMosaic Idealize.ShloMosaic.ValueIdx GcnSpec Sage SageElu SegSum

/-! ## The two computations -/

variable {n m k q w : ℕ}

/-- The in-degree of every node: zero plus one for every edge whose target word is the node. -/
def cnt (s1 : ScatterDims (⟨1, ![n]⟩ : Shape) (⟨2, ![m, 1]⟩ : Shape) (⟨1, ![m]⟩ : Shape)) (D : IVec (⟨2, ![m, 1]⟩ : Shape) w) : (⟨1, ![n]⟩ : Shape).Idx → EReal :=
  Host.scatterAdd (F := Ideal) (φ := .f32) s1 (fun _ => zeroF) D (fun _ => oneF)

/-- The in-degree clamped below at one. -/
def dmax (s1 : ScatterDims (⟨1, ![n]⟩ : Shape) (⟨2, ![m, 1]⟩ : Shape) (⟨1, ![m]⟩ : Shape)) (D : IVec (⟨2, ![m, 1]⟩ : Shape) w) : (⟨1, ![n]⟩ : Shape).Idx → EReal :=
  fun i => max (cnt s1 D i) oneF

/-- The aggregate of an array with c columns: at (r, l), zero plus the sum over the edges pointing at r of the entry
    (src e, l). -/
def agg {c : ℕ} (g : GatherDims (⟨2, ![n, c]⟩ : Shape) (⟨2, ![m, 1]⟩ : Shape) (⟨2, ![m, c]⟩ : Shape)) (s : ScatterDims (⟨2, ![n, c]⟩ : Shape) (⟨2, ![m, 1]⟩ : Shape) (⟨2, ![m, c]⟩ : Shape)) (S D : IVec (⟨2, ![m, 1]⟩ : Shape) w) (h : Arr n c) : Arr n c :=
  Host.scatterAdd (F := Ideal) (φ := .f32) s (fun _ => zeroF) D (Host.gather g h S)

/-- A hidden layer as the kernel forms it: the aggregate times the reciprocal column, then the layer. -/
def hidK (gk : GatherDims (⟨2, ![n, k]⟩ : Shape) (⟨2, ![m, 1]⟩ : Shape) (⟨2, ![m, k]⟩ : Shape)) (sk : ScatterDims (⟨2, ![n, k]⟩ : Shape) (⟨2, ![m, 1]⟩ : Shape) (⟨2, ![m, k]⟩ : Shape)) (S D : IVec (⟨2, ![m, 1]⟩ : Shape) w) (rc : Arr n 1) (h : Arr n k) (Wl Wr : Arr k k) (b : Arr 1 k) :
    Arr n k :=
  layerE (scaleRows (agg gk sk S D h) rc) h Wl Wr b

/-- A hidden layer as the reference forms it: the aggregate divided by the clamped in-degree, then the layer. -/
def hidR (gk : GatherDims (⟨2, ![n, k]⟩ : Shape) (⟨2, ![m, 1]⟩ : Shape) (⟨2, ![m, k]⟩ : Shape)) (sk : ScatterDims (⟨2, ![n, k]⟩ : Shape) (⟨2, ![m, 1]⟩ : Shape) (⟨2, ![m, k]⟩ : Shape)) (s1 : ScatterDims (⟨1, ![n]⟩ : Shape) (⟨2, ![m, 1]⟩ : Shape) (⟨1, ![m]⟩ : Shape)) (S D : IVec (⟨2, ![m, 1]⟩ : Shape) w) (h : Arr n k) (Wl Wr : Arr k k) (b : Arr 1 k) :
    Arr n k :=
  layerE (divRows (agg gk sk S D h) (dmax s1 D)) h Wl Wr b

/-- The last layer as the kernel forms it: project first, aggregate the projected array, scale, then add. -/
def lastKer (gq : GatherDims (⟨2, ![n, q]⟩ : Shape) (⟨2, ![m, 1]⟩ : Shape) (⟨2, ![m, q]⟩ : Shape)) (sq : ScatterDims (⟨2, ![n, q]⟩ : Shape) (⟨2, ![m, 1]⟩ : Shape) (⟨2, ![m, q]⟩ : Shape)) (S D : IVec (⟨2, ![m, 1]⟩ : Shape) w) (rc : Arr n 1) (h : Arr n k) (Wl Wr : Arr k q) (b : Arr 1 q) :
    Arr n q :=
  lastK (scaleRows (agg gq sq S D (lin h Wl)) rc) h Wr b

/-- The last layer as the reference forms it: aggregate, divide, then project. -/
def lastRef (gk : GatherDims (⟨2, ![n, k]⟩ : Shape) (⟨2, ![m, 1]⟩ : Shape) (⟨2, ![m, k]⟩ : Shape)) (sk : ScatterDims (⟨2, ![n, k]⟩ : Shape) (⟨2, ![m, 1]⟩ : Shape) (⟨2, ![m, k]⟩ : Shape)) (s1 : ScatterDims (⟨1, ![n]⟩ : Shape) (⟨2, ![m, 1]⟩ : Shape) (⟨1, ![m]⟩ : Shape)) (S D : IVec (⟨2, ![m, 1]⟩ : Shape) w) (h : Arr n k) (Wl Wr : Arr k q) (b : Arr 1 q) :
    Arr n q :=
  pre (divRows (agg gk sk S D h) (dmax s1 D)) h Wl Wr b

/-- The kernel's whole computation: two hidden layers, then its last layer. -/
def outK (gk : GatherDims (⟨2, ![n, k]⟩ : Shape) (⟨2, ![m, 1]⟩ : Shape) (⟨2, ![m, k]⟩ : Shape)) (sk : ScatterDims (⟨2, ![n, k]⟩ : Shape) (⟨2, ![m, 1]⟩ : Shape) (⟨2, ![m, k]⟩ : Shape)) (gq : GatherDims (⟨2, ![n, q]⟩ : Shape) (⟨2, ![m, 1]⟩ : Shape) (⟨2, ![m, q]⟩ : Shape)) (sq : ScatterDims (⟨2, ![n, q]⟩ : Shape) (⟨2, ![m, 1]⟩ : Shape) (⟨2, ![m, q]⟩ : Shape)) (S D : IVec (⟨2, ![m, 1]⟩ : Shape) w) (rc : Arr n 1) (x : Arr n k)
    (Wl0 Wr0 : Arr k k) (b0 : Arr 1 k) (Wl1 Wr1 : Arr k k) (b1 : Arr 1 k) (Wl2 Wr2 : Arr k q) (b2 : Arr 1 q) : Arr n q :=
  lastKer gq sq S D rc (hidK gk sk S D rc (hidK gk sk S D rc x Wl0 Wr0 b0) Wl1 Wr1 b1) Wl2 Wr2 b2

/-- The reference's whole computation: two hidden layers, then its last layer. -/
def outR (gk : GatherDims (⟨2, ![n, k]⟩ : Shape) (⟨2, ![m, 1]⟩ : Shape) (⟨2, ![m, k]⟩ : Shape)) (sk : ScatterDims (⟨2, ![n, k]⟩ : Shape) (⟨2, ![m, 1]⟩ : Shape) (⟨2, ![m, k]⟩ : Shape)) (s1 : ScatterDims (⟨1, ![n]⟩ : Shape) (⟨2, ![m, 1]⟩ : Shape) (⟨1, ![m]⟩ : Shape)) (S D : IVec (⟨2, ![m, 1]⟩ : Shape) w) (x : Arr n k)
    (Wl0 Wr0 : Arr k k) (b0 : Arr 1 k) (Wl1 Wr1 : Arr k k) (b1 : Arr 1 k) (Wl2 Wr2 : Arr k q) (b2 : Arr 1 q) : Arr n q :=
  lastRef gk sk s1 S D (hidR gk sk s1 S D (hidR gk sk s1 S D x Wl0 Wr0 b0) Wl1 Wr1 b1) Wl2 Wr2 b2

/-! ## Real entries are kept -/

theorem isReal_dmax (s1 : ScatterDims (⟨1, ![n]⟩ : Shape) (⟨2, ![m, 1]⟩ : Shape) (⟨1, ![m]⟩ : Shape)) (D : IVec (⟨2, ![m, 1]⟩ : Shape) w) (i : (⟨1, ![n]⟩ : Shape).Idx) : IsReal (dmax s1 D i) :=
  (clampDeg_real (φ := .f32) s1 D i).1

/-- The clamped in-degree is never zero. -/
theorem dmax_ne_zero (s1 : ScatterDims (⟨1, ![n]⟩ : Shape) (⟨2, ![m, 1]⟩ : Shape) (⟨1, ![m]⟩ : Shape)) (D : IVec (⟨2, ![m, 1]⟩ : Shape) w) (i : (⟨1, ![n]⟩ : Shape).Idx) : dmax s1 D i ≠ 0 :=
  (clampDeg_real (φ := .f32) s1 D i).2

theorem isReal_agg {c : ℕ} (g : GatherDims (⟨2, ![n, c]⟩ : Shape) (⟨2, ![m, 1]⟩ : Shape) (⟨2, ![m, c]⟩ : Shape)) (s : ScatterDims (⟨2, ![n, c]⟩ : Shape) (⟨2, ![m, 1]⟩ : Shape) (⟨2, ![m, c]⟩ : Shape)) (S D : IVec (⟨2, ![m, 1]⟩ : Shape) w) (h : Arr n c) (hh : ∀ i, IsReal (h i))
    (i : (⟨2, ![n, c]⟩ : Shape).Idx) : IsReal (agg g s S D h i) :=
  isReal_scatterAdd s _ D _ (fun _ => isReal_zeroF) (isReal_gather g h S hh) i

theorem isReal_divRows {c : ℕ} (A : Arr n c) (d : (⟨1, ![n]⟩ : Shape).Idx → EReal) (hA : ∀ i, IsReal (A i))
    (hd : ∀ i, IsReal (d i)) (hd0 : ∀ i, d i ≠ 0) (i : (⟨2, ![n, c]⟩ : Shape).Idx) : IsReal (divRows A d i) :=
  isReal_div (hA i) (hd _) (hd0 _)

/-- The activation of a real number is a real number: the number itself, or an exponential minus one. -/
theorem isReal_eluF {z : EReal} (hz : IsReal z) : IsReal (eluF z) := by
  unfold eluF
  split
  · exact hz
  · exact isReal_sub (isReal_exp (isReal_min hz isReal_zeroF)) isReal_oneF

theorem isReal_pre {c : ℕ} (M h : Arr n k) (Wl Wr : Arr k c) (b : Arr 1 c) (hM : ∀ i, IsReal (M i))
    (hh : ∀ i, IsReal (h i)) (hWl : ∀ i, IsReal (Wl i)) (hWr : ∀ i, IsReal (Wr i)) (hb : ∀ i, IsReal (b i))
    (i : (⟨2, ![n, c]⟩ : Shape).Idx) : IsReal (pre M h Wl Wr b i) :=
  isReal_add (isReal_add (isReal_lin M Wl hM hWl i) (isReal_lin h Wr hh hWr i)) (hb _)

theorem isReal_layerE {c : ℕ} (M h : Arr n k) (Wl Wr : Arr k c) (b : Arr 1 c) (hM : ∀ i, IsReal (M i))
    (hh : ∀ i, IsReal (h i)) (hWl : ∀ i, IsReal (Wl i)) (hWr : ∀ i, IsReal (Wr i)) (hb : ∀ i, IsReal (b i))
    (i : (⟨2, ![n, c]⟩ : Shape).Idx) : IsReal (layerE M h Wl Wr b i) :=
  isReal_eluF (isReal_pre M h Wl Wr b hM hh hWl hWr hb i)

/-- A hidden layer of the reference keeps real entries. -/
theorem isReal_hidR (gk : GatherDims (⟨2, ![n, k]⟩ : Shape) (⟨2, ![m, 1]⟩ : Shape) (⟨2, ![m, k]⟩ : Shape)) (sk : ScatterDims (⟨2, ![n, k]⟩ : Shape) (⟨2, ![m, 1]⟩ : Shape) (⟨2, ![m, k]⟩ : Shape)) (s1 : ScatterDims (⟨1, ![n]⟩ : Shape) (⟨2, ![m, 1]⟩ : Shape) (⟨1, ![m]⟩ : Shape)) (S D : IVec (⟨2, ![m, 1]⟩ : Shape) w) (h : Arr n k) (Wl Wr : Arr k k) (b : Arr 1 k)
    (hh : ∀ i, IsReal (h i)) (hWl : ∀ i, IsReal (Wl i)) (hWr : ∀ i, IsReal (Wr i)) (hb : ∀ i, IsReal (b i))
    (i : (⟨2, ![n, k]⟩ : Shape).Idx) : IsReal (hidR gk sk s1 S D h Wl Wr b i) :=
  isReal_layerE _ h Wl Wr b
    (isReal_divRows _ _ (isReal_agg gk sk S D h hh) (isReal_dmax s1 D) (dmax_ne_zero s1 D)) hh hWl hWr hb i

/-! ## The bridge -/

/-- Scaling the aggregate by the reciprocal column is dividing it by the clamped in-degree: the in-degree is never
    zero.  No finiteness is needed. -/
theorem scale_eq_div {c : ℕ} (s1 : ScatterDims (⟨1, ![n]⟩ : Shape) (⟨2, ![m, 1]⟩ : Shape) (⟨1, ![m]⟩ : Shape)) (D : IVec (⟨2, ![m, 1]⟩ : Shape) w) (rc : Arr n 1)
    (hrc : ∀ r : Fin n, rc (ix2 r (0 : Fin 1)) = Ideal.div oneF (dmax s1 D (ix1 r))) (A : Arr n c) :
    scaleRows A rc = divRows A (dmax s1 D) :=
  scaleRows_eq_divRows A rc (dmax s1 D) hrc (fun r => dmax_ne_zero s1 D (ix1 r))

/-- The two spellings of a hidden layer are one function. -/
theorem hid_eq (gk : GatherDims (⟨2, ![n, k]⟩ : Shape) (⟨2, ![m, 1]⟩ : Shape) (⟨2, ![m, k]⟩ : Shape)) (sk : ScatterDims (⟨2, ![n, k]⟩ : Shape) (⟨2, ![m, 1]⟩ : Shape) (⟨2, ![m, k]⟩ : Shape)) (s1 : ScatterDims (⟨1, ![n]⟩ : Shape) (⟨2, ![m, 1]⟩ : Shape) (⟨1, ![m]⟩ : Shape)) (S D : IVec (⟨2, ![m, 1]⟩ : Shape) w) (rc : Arr n 1)
    (hrc : ∀ r : Fin n, rc (ix2 r (0 : Fin 1)) = Ideal.div oneF (dmax s1 D (ix1 r)))
    (h : Arr n k) (Wl Wr : Arr k k) (b : Arr 1 k) :
    hidK gk sk S D rc h Wl Wr b = hidR gk sk s1 S D h Wl Wr b := by
  unfold hidK hidR
  rw [scale_eq_div s1 D rc hrc]

/-- The two spellings of the last layer agree on an array with real entries: projecting and averaging commute with
    aggregating, and the two products are added in the other order. -/
theorem last_eq (gk : GatherDims (⟨2, ![n, k]⟩ : Shape) (⟨2, ![m, 1]⟩ : Shape) (⟨2, ![m, k]⟩ : Shape))
    (hgko : gk.offsetDims = [1]) (hgkc : gk.collapsedSliceDims = [0]) (hgkob : gk.operandBatchingDims = [])
    (hgksb : gk.startIndicesBatchingDims = []) (hgkm : gk.startIndexMap = [0]) (hgkv : gk.indexVectorDim = 1)
    (hgks : gk.sliceSizes = ![1, k])
    (gq : GatherDims (⟨2, ![n, q]⟩ : Shape) (⟨2, ![m, 1]⟩ : Shape) (⟨2, ![m, q]⟩ : Shape))
    (hgqo : gq.offsetDims = [1]) (hgqc : gq.collapsedSliceDims = [0]) (hgqob : gq.operandBatchingDims = [])
    (hgqsb : gq.startIndicesBatchingDims = []) (hgqm : gq.startIndexMap = [0]) (hgqv : gq.indexVectorDim = 1)
    (hgqs : gq.sliceSizes = ![1, q])
    (sk : ScatterDims (⟨2, ![n, k]⟩ : Shape) (⟨2, ![m, 1]⟩ : Shape) (⟨2, ![m, k]⟩ : Shape))
    (hsku : sk.updateWindowDims = [1]) (hski : sk.insertedWindowDims = [0])
    (hskd : sk.scatterDimsToOperandDims = [0]) (hskv : sk.indexVectorDim = 1)
    (sq : ScatterDims (⟨2, ![n, q]⟩ : Shape) (⟨2, ![m, 1]⟩ : Shape) (⟨2, ![m, q]⟩ : Shape))
    (hsqu : sq.updateWindowDims = [1]) (hsqi : sq.insertedWindowDims = [0])
    (hsqd : sq.scatterDimsToOperandDims = [0]) (hsqv : sq.indexVectorDim = 1)
    (s1 : ScatterDims (⟨1, ![n]⟩ : Shape) (⟨2, ![m, 1]⟩ : Shape) (⟨1, ![m]⟩ : Shape)) (hn : 0 < n) (S D : IVec (⟨2, ![m, 1]⟩ : Shape) w) (rc : Arr n 1)
    (hrc : ∀ r : Fin n, rc (ix2 r (0 : Fin 1)) = Ideal.div oneF (dmax s1 D (ix1 r)))
    (h : Arr n k) (Wl Wr : Arr k q) (b : Arr 1 q) (hh : ∀ i, IsReal (h i)) (hWl : ∀ i, IsReal (Wl i)) :
    lastKer gq sq S D rc h Wl Wr b = lastRef gk sk s1 S D h Wl Wr b := by
  funext i
  obtain ⟨r, c, rfl⟩ : ∃ (r : Fin n) (c : Fin q), i = ix2 r c := ⟨i 0, i 1, eq_ix2 i⟩
  have key : agg gq sq S D (lin h Wl) (ix2 r c) * Ideal.div oneF (dmax s1 D (ix1 r))
      = ∑ l : Fin k, divRows (agg gk sk S D h) (dmax s1 D) (ix2 r l) * Wl (ix2 l c) :=
    agg_proj_exchange (φ := .f32) gk hgko hgkc hgkob hgksb hgkm hgkv hgks gq hgqo hgqc hgqob hgqsb hgqm hgqv hgqs sk hsku hski hskd hskv sq hsqu hsqi hsqd hsqv hn S D h Wl
      (dmax s1 D (ix1 r)) hh hWl (isReal_dmax s1 D _) (dmax_ne_zero s1 D _) r c
  unfold lastKer lastRef
  rw [lastK_ix2, pre_ix2, scaleRows_ix2, hrc r, key, add_comm (∑ l : Fin k, h (ix2 r l) * Wr (ix2 l c))]

/-- THE BRIDGE: the kernel's computation and the reference's are one function of the inputs, when the ten float
    inputs have real entries.  The hidden layers agree with no finiteness; their results have real entries; on those
    the last layers agree. -/
theorem bridge (gk : GatherDims (⟨2, ![n, k]⟩ : Shape) (⟨2, ![m, 1]⟩ : Shape) (⟨2, ![m, k]⟩ : Shape))
    (hgko : gk.offsetDims = [1]) (hgkc : gk.collapsedSliceDims = [0]) (hgkob : gk.operandBatchingDims = [])
    (hgksb : gk.startIndicesBatchingDims = []) (hgkm : gk.startIndexMap = [0]) (hgkv : gk.indexVectorDim = 1)
    (hgks : gk.sliceSizes = ![1, k])
    (gq : GatherDims (⟨2, ![n, q]⟩ : Shape) (⟨2, ![m, 1]⟩ : Shape) (⟨2, ![m, q]⟩ : Shape))
    (hgqo : gq.offsetDims = [1]) (hgqc : gq.collapsedSliceDims = [0]) (hgqob : gq.operandBatchingDims = [])
    (hgqsb : gq.startIndicesBatchingDims = []) (hgqm : gq.startIndexMap = [0]) (hgqv : gq.indexVectorDim = 1)
    (hgqs : gq.sliceSizes = ![1, q])
    (sk : ScatterDims (⟨2, ![n, k]⟩ : Shape) (⟨2, ![m, 1]⟩ : Shape) (⟨2, ![m, k]⟩ : Shape))
    (hsku : sk.updateWindowDims = [1]) (hski : sk.insertedWindowDims = [0])
    (hskd : sk.scatterDimsToOperandDims = [0]) (hskv : sk.indexVectorDim = 1)
    (sq : ScatterDims (⟨2, ![n, q]⟩ : Shape) (⟨2, ![m, 1]⟩ : Shape) (⟨2, ![m, q]⟩ : Shape))
    (hsqu : sq.updateWindowDims = [1]) (hsqi : sq.insertedWindowDims = [0])
    (hsqd : sq.scatterDimsToOperandDims = [0]) (hsqv : sq.indexVectorDim = 1)
    (s1 : ScatterDims (⟨1, ![n]⟩ : Shape) (⟨2, ![m, 1]⟩ : Shape) (⟨1, ![m]⟩ : Shape)) (hn : 0 < n) (S D : IVec (⟨2, ![m, 1]⟩ : Shape) w) (rc : Arr n 1)
    (hrc : ∀ r : Fin n, rc (ix2 r (0 : Fin 1)) = Ideal.div oneF (dmax s1 D (ix1 r)))
    (x : Arr n k) (Wl0 Wr0 : Arr k k) (b0 : Arr 1 k) (Wl1 Wr1 : Arr k k) (b1 : Arr 1 k) (Wl2 Wr2 : Arr k q)
    (b2 : Arr 1 q)
    (hx : ∀ i, IsReal (x i)) (hWl0 : ∀ i, IsReal (Wl0 i)) (hWr0 : ∀ i, IsReal (Wr0 i)) (hb0 : ∀ i, IsReal (b0 i))
    (hWl1 : ∀ i, IsReal (Wl1 i)) (hWr1 : ∀ i, IsReal (Wr1 i)) (hb1 : ∀ i, IsReal (b1 i))
    (hWl2 : ∀ i, IsReal (Wl2 i)) (hWr2 : ∀ i, IsReal (Wr2 i)) (hb2 : ∀ i, IsReal (b2 i)) :
    outK gk sk gq sq S D rc x Wl0 Wr0 b0 Wl1 Wr1 b1 Wl2 Wr2 b2
      = outR gk sk s1 S D x Wl0 Wr0 b0 Wl1 Wr1 b1 Wl2 Wr2 b2 := by
  unfold outK outR
  rw [hid_eq gk sk s1 S D rc hrc x, hid_eq gk sk s1 S D rc hrc]
  refine last_eq gk hgko hgkc hgkob hgksb hgkm hgkv hgks gq hgqo hgqc hgqob hgqsb hgqm hgqv hgqs sk hsku hski hskd hskv sq hsqu hsqi hsqd hsqv s1 hn S D rc hrc _ Wl2 Wr2 b2 ?_ hWl2
  exact isReal_hidR gk sk s1 S D _ Wl1 Wr1 b1 (isReal_hidR gk sk s1 S D x Wl0 Wr0 b0 hx hWl0 hWr0 hb0) hWl1 hWr1 hb1

/-! ## The host's spellings, read as the pure forms -/

/-- A scalar constant broadcast to any shape is that constant at every index. -/
theorem splat {s : Shape} (h0 : (⟨0, ![]⟩ : Shape).BroadcastsInDim s (![] : Fin 0 → Fin s.rank)) (b : BitVec 32) :
    broadcastInDim s ![] h0 (constant (F := Ideal) (⟨0, ![]⟩ : Shape) .f32 b) = fun _ => Ideal.ofBits .f32 b := by
  funext i
  rw [broadcastInDim_apply _ h0 _ i ix0 (fun a => a.elim0), constant_apply]

/-- The same when the constant is written through the identity. -/
theorem splat_id {s : Shape} (h0 : (⟨0, ![]⟩ : Shape).BroadcastsInDim s (![] : Fin 0 → Fin s.rank)) (b : BitVec 32) :
    broadcastInDim s ![] h0 (id (constant (F := Ideal) (⟨0, ![]⟩ : Shape) .f32 b)) = fun _ => Ideal.ofBits .f32 b :=
  splat h0 b

theorem splat_zero {s : Shape} (h0 : (⟨0, ![]⟩ : Shape).BroadcastsInDim s (![] : Fin 0 → Fin s.rank)) :
    broadcastInDim s ![] h0 (constant (F := Ideal) (⟨0, ![]⟩ : Shape) .f32 0x00000000#32) = fun _ => zeroF :=
  splat h0 _

theorem splat_zero_id {s : Shape} (h0 : (⟨0, ![]⟩ : Shape).BroadcastsInDim s (![] : Fin 0 → Fin s.rank)) :
    broadcastInDim s ![] h0 (id (constant (F := Ideal) (⟨0, ![]⟩ : Shape) .f32 0x00000000#32)) = fun _ => zeroF :=
  splat h0 _

theorem splat_one {s : Shape} (h0 : (⟨0, ![]⟩ : Shape).BroadcastsInDim s (![] : Fin 0 → Fin s.rank)) :
    broadcastInDim s ![] h0 (constant (F := Ideal) (⟨0, ![]⟩ : Shape) .f32 0x3F800000#32) = fun _ => oneF :=
  splat h0 _

/-- Narrowing to a shorter float format before a gather and widening after it changes nothing on the extended reals:
    both format changes are the identity there. -/
theorem gather_narrow {s si t : Shape} {w : ℕ} (gd : GatherDims s si t) (x : FVec Ideal s .f32) (idx : IVec si w)
    (h : FTy.bf16.bits < FTy.f32.bits) :
    extf .f32 (Host.gather gd (truncf .bf16 x h) idx) h = Host.gather gd x idx := rfl

/-- The reciprocal column: one over the count clamped below at one, as a one-column array, read at row r. -/
theorem recip_col {n : ℕ} (cv : FVec Ideal (⟨1, ![n]⟩ : Shape) .f32)
    (h0 : (⟨0, ![]⟩ : Shape).BroadcastsInDim (⟨1, ![n]⟩ : Shape) (![] : Fin 0 → Fin 1))
    (hsc : (⟨1, ![n]⟩ : Shape).ShapeCasts (⟨2, ![n, 1]⟩ : Shape)) (r : Fin n) :
    shapeCast (⟨2, ![n, 1]⟩ : Shape)
        (Host.divf (broadcastInDim (⟨1, ![n]⟩ : Shape) ![] h0 (constant (F := Ideal) (⟨0, ![]⟩ : Shape) .f32 0x3F800000#32))
          (maximumf cv (broadcastInDim (⟨1, ![n]⟩ : Shape) ![] h0 (constant (F := Ideal) (⟨0, ![]⟩ : Shape) .f32 0x3F800000#32)))) hsc (ix2 r (0 : Fin 1))
      = Ideal.div oneF (max (cv (ix1 r)) oneF) := by
  rw [RowCol.shapeCast_a_a1_apply, hostDivf_apply, maximumf_apply, splat_one h0]

/-- The host's mean: every entry divided by its row's entry of a vector put beside the rows by two broadcasts. -/
theorem host_mean {n k : ℕ} (A : FVec Ideal (⟨2, ![n, k]⟩ : Shape) .f32) (dg : FVec Ideal (⟨1, ![n]⟩ : Shape) .f32)
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2)) :
    Host.divf A (broadcastInDim (⟨2, ![n, k]⟩ : Shape) ![0, 1] hrow (broadcastInDim (⟨2, ![n, 1]⟩ : Shape) ![0] hcol dg))
      = divRows A dg := by
  funext i
  obtain ⟨r, l, rfl⟩ : ∃ (r : Fin n) (l : Fin k), i = ix2 r l := ⟨i 0, i 1, eq_ix2 i⟩
  rw [hostDivf_apply, GcnOps.col_host_apply dg hcol hrow r l, divRows_ix2]

/-- The host's pre-activation: the two products of arrays added, then the bias vector broadcast over the rows. -/
theorem host_pre {n k q : ℕ} (M h : FVec Ideal (⟨2, ![n, k]⟩ : Shape) .f32) (Wl Wr : FVec Ideal (⟨2, ![k, q]⟩ : Shape) .f32)
    (b : FVec Ideal (⟨1, ![q]⟩ : Shape) .f32)
    (d : DotDims (⟨2, ![n, k]⟩ : Shape) (⟨2, ![k, q]⟩ : Shape) (⟨2, ![n, q]⟩ : Shape))
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (h1 : (⟨1, ![q]⟩ : Shape).BroadcastsInDim (⟨2, ![1, q]⟩ : Shape) (![1] : Fin 1 → Fin 2))
    (h2 : (⟨2, ![1, q]⟩ : Shape).BroadcastsInDim (⟨2, ![n, q]⟩ : Shape) (![0, 1] : Fin 2 → Fin 2))
    (hsc : (⟨1, ![q]⟩ : Shape).ShapeCasts (⟨2, ![1, q]⟩ : Shape)) :
    addf (addf (Host.dotGeneral d none M Wl) (Host.dotGeneral d none h Wr))
        (broadcastInDim (⟨2, ![n, q]⟩ : Shape) ![0, 1] h2 (broadcastInDim (⟨2, ![1, q]⟩ : Shape) ![1] h1 b))
      = pre M h Wl Wr (shapeCast (⟨2, ![1, q]⟩ : Shape) b hsc) := by
  funext i
  obtain ⟨r, c, rfl⟩ : ∃ (r : Fin n) (c : Fin q), i = ix2 r c := ⟨i 0, i 1, eq_ix2 i⟩
  rw [addf_apply, addf_apply, GcnOps.bias_host_apply b h1 h2 hsc r c, pre_ix2]
  have e1 := congrFun (GcnOps.dotGeneral_eq_lin d none .single hr hs hl0 hl1 hr0 hr1 M Wl) (ix2 r c)
  have e2 := congrFun (GcnOps.dotGeneral_eq_lin d none .single hr hs hl0 hl1 hr0 hr1 h Wr) (ix2 r c)
  refine congrArg (· + shapeCast (⟨2, ![1, q]⟩ : Shape) b hsc (ix2 (0 : Fin 1) c)) ?_
  exact congrArg₂ (· + ·) e1 e2

/-- The host's activation read at an index: the number itself above zero; otherwise one times (the exponential of the
    number, minus one), the inner choice having replaced only the positive numbers by zero. -/
theorem host_elu_apply {s : Shape} (z : FVec Ideal s .f32)
    (h0a h0b h0c h0o : (⟨0, ![]⟩ : Shape).BroadcastsInDim s (![] : Fin 0 → Fin s.rank)) (i : s.Idx) :
    select (cmpf .ogt z (broadcastInDim s ![] h0a (constant (F := Ideal) (⟨0, ![]⟩ : Shape) .f32 0x00000000#32))) z
        (mulf (broadcastInDim s ![] h0o (constant (F := Ideal) (⟨0, ![]⟩ : Shape) .f32 0x3F800000#32))
          (Host.expm1 (select (cmpf .ogt z (broadcastInDim s ![] h0b (constant (F := Ideal) (⟨0, ![]⟩ : Shape) .f32 0x00000000#32)))
            (broadcastInDim s ![] h0c (id (constant (F := Ideal) (⟨0, ![]⟩ : Shape) .f32 0x00000000#32))) z))) i
      = eluF (z i) := by
  have ea : broadcastInDim s ![] h0a (constant (F := Ideal) (⟨0, ![]⟩ : Shape) .f32 0x00000000#32) i = zeroF := congrFun (splat_zero h0a) i
  have ec : broadcastInDim s ![] h0c (id (constant (F := Ideal) (⟨0, ![]⟩ : Shape) .f32 0x00000000#32)) i = zeroF := congrFun (splat_zero_id h0c) i
  have eo : broadcastInDim s ![] h0o (constant (F := Ideal) (⟨0, ![]⟩ : Shape) .f32 0x3F800000#32) i = oneF := congrFun (splat_one h0o) i
  show Scalar.select (Ideal.cmp .ogt (z i) (broadcastInDim s ![] h0a (constant (F := Ideal) (⟨0, ![]⟩ : Shape) .f32 0x00000000#32) i)) (z i)
      (broadcastInDim s ![] h0o (constant (F := Ideal) (⟨0, ![]⟩ : Shape) .f32 0x3F800000#32) i
        * (Ideal.exp (Scalar.select (Ideal.cmp .ogt (z i) (broadcastInDim s ![] h0a (constant (F := Ideal) (⟨0, ![]⟩ : Shape) .f32 0x00000000#32) i))
            (broadcastInDim s ![] h0c (id (constant (F := Ideal) (⟨0, ![]⟩ : Shape) .f32 0x00000000#32)) i) (z i)) - 1)) = eluF (z i)
  rw [ea, ec, eo, select_gt, select_gt]
  by_cases hz : zeroF < z i
  · rw [if_pos hz, eluF_pos hz]
  · rw [if_neg hz, if_neg hz, eluF_nonpos hz, oneF_eq, one_mul]

end SageBridge

end
-- ==== Proof.PreReal.lean ====
/-
  From the precondition to real-valued inputs.

  The precondition asks, of each float input array `x`, that `|x| < +∞` hold at every index, and takes
  the conjunction of the ten answers. Read over the extended reals, `|x| = max x (-x)`, and the only
  extended reals whose absolute value is not below `+∞` are `+∞` and `-∞` themselves. So the
  precondition says exactly that every entry of every float input is a real number, which is what the
  algebra downstream needs: moving a factor across a finite sum and cancelling a nonzero divisor are
  valid on real numbers, not on the infinities.
-/
import proofs.«114920_j35115652612101_2_alg».proof.Defs
import Idealize.ShloMosaic.Lib.ReduceAll
import Idealize.ShloMosaic.Lib.ValueIdx

noncomputable section

namespace Cert.Proof.PreReal

open Idealize.ShloMosaic Idealize.SL.Sem

/-- The scalar shape has a single index. -/
instance subsingleton_scalar_idx : Subsingleton (⟨0, ![]⟩ : Shape).Idx :=
  ⟨fun a b => funext fun d => d.elim0⟩

/-- An extended real whose absolute value `max x (-x)` lies strictly below `+∞` is a real number:
    at `x = +∞` the maximum is `x`, at `x = -∞` it is `-x`, and either way it is `+∞`. -/
theorem exists_real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The single-precision pattern with all exponent bits set and no fraction bit denotes `+∞`. -/
theorem ofBits_inf : Ideal.ofBits .f32 0x7F800000#32 = (⊤ : EReal) := by
  simp [Ideal.ofBits, Ideal.ieee]

/-- One conjunct of the precondition, over an arbitrary shape: if the conjunction over all indices of
    the comparisons `|x i| < +∞` is true, then every entry of `x` is a real number. The conjunction
    over all indices being true gives the comparison at each index; the comparison at an index is the
    strict order of the extended reals between `max (x i) (-(x i))` and `+∞`. -/
theorem real_of_all_abs_lt_inf {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel)
    (x : FVec Ideal s .f32) (init : IVec (⟨0, ![]⟩ : Shape) 1)
    (e : Host.reduce IntOp.andi
          (cmpf .olt (Host.absf x)
            (broadcastInDim s ![] hb (constant (F := Ideal) (⟨0, ![]⟩ : Shape) .f32 0x7F800000#32)))
          init hr hu ValueIdx.ix0 = 1#1)
    (i : s.Idx) : ∃ r : ℝ, x i = (r : EReal) := by
  have hi := Host.reduce_andi_all _ init hr hu ValueIdx.ix0 e i
  have hc : Ideal.cmp .olt (max (x i) (-(x i))) (Ideal.ofBits .f32 0x7F800000#32) = 1#1 := hi
  rw [ofBits_inf] at hc
  refine exists_real_of_abs_lt_top (x i) ?_
  by_contra hn
  simp [Ideal.cmp, hn] at hc

/-- The precondition, split: the printed function is the conjunction, input by input, of "all entries
    have absolute value below `+∞`"; it being true makes each of the ten conjuncts true, and each
    conjunct makes its array real-valued. The integer input `a1` is not constrained. -/
theorem all_real [hPre : Cert.Pre_finite_inputs.Facts]
    (a0 : FVec Ideal Cert.Pre_finite_inputs.S50000x128 .f32)
    (a1 : IVec Cert.Pre_finite_inputs.S2x800000 32)
    (a2 : FVec Ideal Cert.Pre_finite_inputs.S128x128 .f32)
    (a3 : FVec Ideal Cert.Pre_finite_inputs.S128x128 .f32)
    (a4 : FVec Ideal Cert.Pre_finite_inputs.S128 .f32)
    (a5 : FVec Ideal Cert.Pre_finite_inputs.S128x128 .f32)
    (a6 : FVec Ideal Cert.Pre_finite_inputs.S128x128 .f32)
    (a7 : FVec Ideal Cert.Pre_finite_inputs.S128 .f32)
    (a8 : FVec Ideal Cert.Pre_finite_inputs.S128x64 .f32)
    (a9 : FVec Ideal Cert.Pre_finite_inputs.S128x64 .f32)
    (a10 : FVec Ideal Cert.Pre_finite_inputs.S64 .f32)
    (h : Cert.Pre_finite_inputs.fn (F := Ideal) a0 a1 a2 a3 a4 a5 a6 a7 a8 a9 a10 = fun _ => 1#1) :
    (∀ i : Cert.Pre_finite_inputs.S50000x128.Idx, ∃ r : ℝ, a0 i = (r : EReal))
      ∧ (∀ i : Cert.Pre_finite_inputs.S128x128.Idx, ∃ r : ℝ, a2 i = (r : EReal))
      ∧ (∀ i : Cert.Pre_finite_inputs.S128x128.Idx, ∃ r : ℝ, a3 i = (r : EReal))
      ∧ (∀ i : Cert.Pre_finite_inputs.S128.Idx, ∃ r : ℝ, a4 i = (r : EReal))
      ∧ (∀ i : Cert.Pre_finite_inputs.S128x128.Idx, ∃ r : ℝ, a5 i = (r : EReal))
      ∧ (∀ i : Cert.Pre_finite_inputs.S128x128.Idx, ∃ r : ℝ, a6 i = (r : EReal))
      ∧ (∀ i : Cert.Pre_finite_inputs.S128.Idx, ∃ r : ℝ, a7 i = (r : EReal))
      ∧ (∀ i : Cert.Pre_finite_inputs.S128x64.Idx, ∃ r : ℝ, a8 i = (r : EReal))
      ∧ (∀ i : Cert.Pre_finite_inputs.S128x64.Idx, ∃ r : ℝ, a9 i = (r : EReal))
      ∧ (∀ i : Cert.Pre_finite_inputs.S64.Idx, ∃ r : ℝ, a10 i = (r : EReal)) := by
  have h := congrFun h ValueIdx.ix0
  dsimp only [Cert.Pre_finite_inputs.fn, Cert.Pre_finite_inputs.fn_part1, Cert.Pre_finite_inputs.fn_part2, Idealize.ShloMosaic.andi] at h
  obtain ⟨h, e10⟩ := IntOp.andi_eq_one.1 h
  obtain ⟨h, e9⟩ := IntOp.andi_eq_one.1 h
  obtain ⟨h, e8⟩ := IntOp.andi_eq_one.1 h
  obtain ⟨h, e7⟩ := IntOp.andi_eq_one.1 h
  obtain ⟨h, e6⟩ := IntOp.andi_eq_one.1 h
  obtain ⟨h, e5⟩ := IntOp.andi_eq_one.1 h
  obtain ⟨h, e4⟩ := IntOp.andi_eq_one.1 h
  obtain ⟨h, e3⟩ := IntOp.andi_eq_one.1 h
  obtain ⟨h, e2⟩ := IntOp.andi_eq_one.1 h
  exact ⟨real_of_all_abs_lt_inf _ _ _ a0 _ h,
    real_of_all_abs_lt_inf _ _ _ a2 _ e2,
    real_of_all_abs_lt_inf _ _ _ a3 _ e3,
    real_of_all_abs_lt_inf _ _ _ a4 _ e4,
    real_of_all_abs_lt_inf _ _ _ a5 _ e5,
    real_of_all_abs_lt_inf _ _ _ a6 _ e6,
    real_of_all_abs_lt_inf _ _ _ a7 _ e7,
    real_of_all_abs_lt_inf _ _ _ a8 _ e8,
    real_of_all_abs_lt_inf _ _ _ a9 _ e9,
    real_of_all_abs_lt_inf _ _ _ a10 _ e10⟩

/-- Every entry of input 0 is a real number. -/
theorem real_arg0 [hPre : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S50000x128.Idx) :
    ∃ r : ℝ, m ((c.tc : Thread Cert.KernelIdeal.nD Cert.KernelIdeal.τ).loc Cert.KernelIdeal.main_arg0) i = (r : EReal) :=
  (all_real _ _ _ _ _ _ _ _ _ _ _ (hpre c)).1 i

/-- Every entry of input 2 is a real number. -/
theorem real_arg2 [hPre : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S128x128.Idx) :
    ∃ r : ℝ, m ((c.tc : Thread Cert.KernelIdeal.nD Cert.KernelIdeal.τ).loc Cert.KernelIdeal.main_arg2) i = (r : EReal) :=
  (all_real _ _ _ _ _ _ _ _ _ _ _ (hpre c)).2.1 i

/-- Every entry of input 3 is a real number. -/
theorem real_arg3 [hPre : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S128x128.Idx) :
    ∃ r : ℝ, m ((c.tc : Thread Cert.KernelIdeal.nD Cert.KernelIdeal.τ).loc Cert.KernelIdeal.main_arg3) i = (r : EReal) :=
  (all_real _ _ _ _ _ _ _ _ _ _ _ (hpre c)).2.2.1 i

/-- Every entry of input 4 is a real number. -/
theorem real_arg4 [hPre : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S128.Idx) :
    ∃ r : ℝ, m ((c.tc : Thread Cert.KernelIdeal.nD Cert.KernelIdeal.τ).loc Cert.KernelIdeal.main_arg4) i = (r : EReal) :=
  (all_real _ _ _ _ _ _ _ _ _ _ _ (hpre c)).2.2.2.1 i

/-- Every entry of input 5 is a real number. -/
theorem real_arg5 [hPre : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S128x128.Idx) :
    ∃ r : ℝ, m ((c.tc : Thread Cert.KernelIdeal.nD Cert.KernelIdeal.τ).loc Cert.KernelIdeal.main_arg5) i = (r : EReal) :=
  (all_real _ _ _ _ _ _ _ _ _ _ _ (hpre c)).2.2.2.2.1 i

/-- Every entry of input 6 is a real number. -/
theorem real_arg6 [hPre : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S128x128.Idx) :
    ∃ r : ℝ, m ((c.tc : Thread Cert.KernelIdeal.nD Cert.KernelIdeal.τ).loc Cert.KernelIdeal.main_arg6) i = (r : EReal) :=
  (all_real _ _ _ _ _ _ _ _ _ _ _ (hpre c)).2.2.2.2.2.1 i

/-- Every entry of input 7 is a real number. -/
theorem real_arg7 [hPre : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S128.Idx) :
    ∃ r : ℝ, m ((c.tc : Thread Cert.KernelIdeal.nD Cert.KernelIdeal.τ).loc Cert.KernelIdeal.main_arg7) i = (r : EReal) :=
  (all_real _ _ _ _ _ _ _ _ _ _ _ (hpre c)).2.2.2.2.2.2.1 i

/-- Every entry of input 8 is a real number. -/
theorem real_arg8 [hPre : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S128x64.Idx) :
    ∃ r : ℝ, m ((c.tc : Thread Cert.KernelIdeal.nD Cert.KernelIdeal.τ).loc Cert.KernelIdeal.main_arg8) i = (r : EReal) :=
  (all_real _ _ _ _ _ _ _ _ _ _ _ (hpre c)).2.2.2.2.2.2.2.1 i

/-- Every entry of input 9 is a real number. -/
theorem real_arg9 [hPre : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S128x64.Idx) :
    ∃ r : ℝ, m ((c.tc : Thread Cert.KernelIdeal.nD Cert.KernelIdeal.τ).loc Cert.KernelIdeal.main_arg9) i = (r : EReal) :=
  (all_real _ _ _ _ _ _ _ _ _ _ _ (hpre c)).2.2.2.2.2.2.2.2.1 i

/-- Every entry of input 10 is a real number. -/
theorem real_arg10 [hPre : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S64.Idx) :
    ∃ r : ℝ, m ((c.tc : Thread Cert.KernelIdeal.nD Cert.KernelIdeal.τ).loc Cert.KernelIdeal.main_arg10) i = (r : EReal) :=
  (all_real _ _ _ _ _ _ _ _ _ _ _ (hpre c)).2.2.2.2.2.2.2.2.2 i

end Cert.Proof.PreReal

end
-- ==== Proof.KPure.lean ====
/-
  The idealized kernel's value in pure form.

  The value computed by the kernel's program is the three-layer computation "kernel side" of the bridge: with the wrapped
  source column and the target column as the two edge arrays, the aggregate as gather-then-add (the passage through a
  narrower float format changes nothing on the extended reals, and a broadcast zero is the constant zero array), the
  reciprocal column equal, row by row, to one over the clamped count.  Under the precondition every entry of the ten
  float arguments is a real number, so the bridge applies and the value is the "reference side" computation.
-/
import proofs.«114920_j35115652612101_2_alg».proof.Proof.KValue
import proofs.«114920_j35115652612101_2_alg».proof.Proof.LibSageBridge
import proofs.«114920_j35115652612101_2_alg».proof.Proof.PreReal

set_option maxRecDepth 16384

noncomputable section

namespace Cert.KernelIdeal.KPure

open Cert.KernelIdeal Cert.KernelIdeal.KHost Cert.KernelIdeal.KValue
open Idealize.ShloMosaic Idealize.ShloMosaic.TcCoe Idealize.ShloMosaic.ValueIdx GcnSpec Sage SageElu SegSum
open Idealize.SL.Sem

/-- The aggregate of a 128-column array, as the program spells it, is gather-then-add onto the zero array. -/
theorem agg128_eq (h : Arr 50000 128) (s d : IVec S800000 32) :
    agg128 (F := Ideal) h s d = SageBridge.agg gather_S50000x128_S800000x1_S800000x128_1_0_n_n_0_1_1128 scatter_S50000x128_S800000x1_S800000x128_1_0_0_1 (wrapCol (F := Ideal) s) (dstCol (F := Ideal) d) h := by
  unfold agg128 SageBridge.agg
  rw [SageBridge.splat_zero, SageBridge.gather_narrow]

/-- The same for a 64-column array. -/
theorem agg64_eq (h : Arr 50000 64) (s d : IVec S800000 32) :
    agg64 (F := Ideal) h s d = SageBridge.agg gather_S50000x64_S800000x1_S800000x64_1_0_n_n_0_1_164 scatter_S50000x64_S800000x1_S800000x64_1_0_0_1 (wrapCol (F := Ideal) s) (dstCol (F := Ideal) d) h := by
  unfold agg64 SageBridge.agg
  rw [SageBridge.splat_zero, SageBridge.gather_narrow]

/-- The reciprocal column at a node is one over the clamped count of the edges arriving there. -/
theorem rc_apply (d : IVec S800000 32) (r : Fin 50000) :
    rcCol (F := Ideal) d (ix2 r (0 : Fin 1))
      = Ideal.div oneF (SageBridge.dmax scatter_S50000_S800000x1_S800000_n_0_0_1 (dstCol (F := Ideal) d) (ix1 r)) := by
  unfold rcCol
  refine (SageBridge.recip_col _ _ _ r).trans ?_
  unfold SageBridge.dmax SageBridge.cnt
  rw [SageBridge.splat_zero, SageBridge.splat_one]

variable (m : (ℓ : Loc nD τ sig) → Buf (Elt Ideal) ℓ)

/-- The kernel's value is the bridge's kernel-side computation at this program's edge arrays and parameters. -/
theorem outK_pure (c : Dev nD) :
    outK m c = SageBridge.outK gather_S50000x128_S800000x1_S800000x128_1_0_n_n_0_1_1128 scatter_S50000x128_S800000x1_S800000x128_1_0_0_1 gather_S50000x64_S800000x1_S800000x64_1_0_n_n_0_1_164 scatter_S50000x64_S800000x1_S800000x64_1_0_0_1
      (wrapCol (F := Ideal) (sV m c)) (dstCol (F := Ideal) (dV m c)) (rc m c) (m ((c : Thread nD τ).loc main_arg0)) (m ((c : Thread nD τ).loc main_arg2)) (m ((c : Thread nD τ).loc main_arg3)) (biasRow128 (F := Ideal) (m ((c : Thread nD τ).loc main_arg4))) (m ((c : Thread nD τ).loc main_arg5)) (m ((c : Thread nD τ).loc main_arg6)) (biasRow128 (F := Ideal) (m ((c : Thread nD τ).loc main_arg7))) (m ((c : Thread nD τ).loc main_arg8)) (m ((c : Thread nD τ).loc main_arg9)) (biasRow64 (F := Ideal) (m ((c : Thread nD τ).loc main_arg10))) := by
  unfold outK hW h2 h1 KReg0.G KReg1.G KReg2.G KReg3.G SageBridge.outK SageBridge.lastKer SageBridge.hidK
  simp only [agg128_eq, agg64_eq]

/-- A reshaped vector of real numbers holds real numbers. -/
theorem isReal_shapeCast {s t : Shape} (x : s.Idx → EReal) (h : s.ShapeCasts t) (hx : ∀ i, IsReal (x i)) (j : t.Idx) :
    IsReal (shapeCast t x h j) := hx _

/-- Under the precondition the kernel's value is the bridge's reference-side computation. -/
theorem outK_eq_outR [hPre : Cert.Pre_finite_inputs.Facts] (hpre : Cert.Pre_KernelIdeal m) (c : Dev nD) :
    outK m c = SageBridge.outR gather_S50000x128_S800000x1_S800000x128_1_0_n_n_0_1_1128 scatter_S50000x128_S800000x1_S800000x128_1_0_0_1 scatter_S50000_S800000x1_S800000_n_0_0_1
      (wrapCol (F := Ideal) (sV m c)) (dstCol (F := Ideal) (dV m c)) (m ((c : Thread nD τ).loc main_arg0)) (m ((c : Thread nD τ).loc main_arg2)) (m ((c : Thread nD τ).loc main_arg3)) (biasRow128 (F := Ideal) (m ((c : Thread nD τ).loc main_arg4))) (m ((c : Thread nD τ).loc main_arg5)) (m ((c : Thread nD τ).loc main_arg6)) (biasRow128 (F := Ideal) (m ((c : Thread nD τ).loc main_arg7))) (m ((c : Thread nD τ).loc main_arg8)) (m ((c : Thread nD τ).loc main_arg9)) (biasRow64 (F := Ideal) (m ((c : Thread nD τ).loc main_arg10))) :=
  (outK_pure m c).trans
    (SageBridge.bridge gather_S50000x128_S800000x1_S800000x128_1_0_n_n_0_1_1128 rfl rfl rfl rfl rfl rfl rfl gather_S50000x64_S800000x1_S800000x64_1_0_n_n_0_1_164 rfl rfl rfl rfl rfl rfl rfl
      scatter_S50000x128_S800000x1_S800000x128_1_0_0_1 rfl rfl rfl rfl scatter_S50000x64_S800000x1_S800000x64_1_0_0_1 rfl rfl rfl rfl scatter_S50000_S800000x1_S800000_n_0_0_1 (by decide)
      (wrapCol (F := Ideal) (sV m c)) (dstCol (F := Ideal) (dV m c)) (rc m c) (fun r => rc_apply (dV m c) r)
      (m ((c : Thread nD τ).loc main_arg0)) (m ((c : Thread nD τ).loc main_arg2)) (m ((c : Thread nD τ).loc main_arg3)) (biasRow128 (F := Ideal) (m ((c : Thread nD τ).loc main_arg4))) (m ((c : Thread nD τ).loc main_arg5)) (m ((c : Thread nD τ).loc main_arg6)) (biasRow128 (F := Ideal) (m ((c : Thread nD τ).loc main_arg7))) (m ((c : Thread nD τ).loc main_arg8)) (m ((c : Thread nD τ).loc main_arg9)) (biasRow64 (F := Ideal) (m ((c : Thread nD τ).loc main_arg10)))
      (fun i => Cert.Proof.PreReal.real_arg0 m hpre c i)
      (fun i => Cert.Proof.PreReal.real_arg2 m hpre c i)
      (fun i => Cert.Proof.PreReal.real_arg3 m hpre c i)
      (fun j => isReal_shapeCast _ _ (fun i => Cert.Proof.PreReal.real_arg4 m hpre c i) j)
      (fun i => Cert.Proof.PreReal.real_arg5 m hpre c i)
      (fun i => Cert.Proof.PreReal.real_arg6 m hpre c i)
      (fun j => isReal_shapeCast _ _ (fun i => Cert.Proof.PreReal.real_arg7 m hpre c i) j)
      (fun i => Cert.Proof.PreReal.real_arg8 m hpre c i)
      (fun i => Cert.Proof.PreReal.real_arg9 m hpre c i)
      (fun j => isReal_shapeCast _ _ (fun i => Cert.Proof.PreReal.real_arg10 m hpre c i) j))

end Cert.KernelIdeal.KPure

end
-- ==== Proof.RefRun.lean ====
/-
  The run of the reference program, read back.

  The reference is a three-layer graph network over 50000 nodes joined by 800000 edges. A layer takes the node
  features `h` (one row of 128 per node), averages at every node the rows of the sources of the edges arriving there,
  and returns `mean · Wl + h · Wr + b`; the first two layers (width 128) are followed by the exponential linear unit,
  the third has width 64. It is a straight line of host operations and no kernel: @main calls the function @elu twice,
  and @elu calls the two selection helpers. A call means the callee's body run on the caller's buffers, so with the
  three bodies unfolded at their call sites @main is a list of 127 operations (`ops`, `main_eq`), and every run of it
  ends with each buffer at the fold of the operations' results over the launch contents (`run_main`).

  What that fold leaves in the result buffer is one term of the eleven arguments' contents, `out`, written below in
  named stages (the two index columns, the divisor, the average, a layer at either width, the unit); `out_eq` reads
  it back and `argK_eq` say that no operation writes an argument. `run` puts the two together: from any memory
  with zero counters every weakly fair execution of @main terminates with the result buffer at `out` of the launch
  contents of the arguments, and the arguments unchanged.

  Every statement holds for any float values `F`: the operations are named, never opened.
-/
import proofs.«114920_j35115652612101_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The program as a list -/

/-- @main's 127 operations in order, the calls unfolded. The first layer is thirty-five operations (the two rows of
    the edge array, the wrapped sources as a column, the gather, the targets as a column, the two scatter-adds, the
    clamped divisor spread to the rows, the quotient, the two products, the bias); then @elu's fifteen into the
    buffers of `main_call0` — two tests `z > 0`, each against a zero of its own; the first helper's three (the scalar
    zero converted to its own type, spread, the selection of the exponent's argument) into `main_call0.call0`'s;
    `expm1`, the product with the spread one; the second helper's selection into `main_call0.call1`'s, which is
    @main's %29 —; the second layer's thirty-one (it keeps the two rows and computes the columns and the divisor
    afresh); @elu's fifteen again into `main_call1`'s, ending in %55; the third layer's thirty-one at width 64. -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x128 ![0, 1] bcast_S50000x1_S50000x128_0_1 : (⟨S50000x1, .f32⟩ : BufTy).Contents (Elt F) → (⟨S50000x128, .f32⟩ : BufTy).Contents (Elt F)),
    binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    binary main_v22 main_arg2 main_v23 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_arg0 main_arg3 main_v24 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v23 main_v24 main_v25 (addf : (⟨S50000x128, .f32⟩ : BufTy).Contents (Elt F) → (⟨S50000x128, .f32⟩ : BufTy).Contents (Elt F) → (⟨S50000x128, .f32⟩ : BufTy).Contents (Elt F)),
    unary main_arg4 main_v26 (broadcastInDim S1x128 ![1] bcast_S128_S1x128_1 : (⟨S128, .f32⟩ : BufTy).Contents (Elt F) → (⟨S1x128, .f32⟩ : BufTy).Contents (Elt F)),
    unary main_v26 main_v27 (broadcastInDim S50000x128 ![0, 1] bcast_S1x128_S50000x128_0_1 : (⟨S1x128, .f32⟩ : BufTy).Contents (Elt F) → (⟨S50000x128, .f32⟩ : BufTy).Contents (Elt F)),
    binary main_v25 main_v27 main_v28 (addf : (⟨S50000x128, .f32⟩ : BufTy).Contents (Elt F) → (⟨S50000x128, .f32⟩ : BufTy).Contents (Elt F) → (⟨S50000x128, .f32⟩ : BufTy).Contents (Elt F)),
    TRef.nullary main_call0.cst (constant S_ .f32 0x00000000#32),
    TRef.unary main_call0.cst main_call0.v0 (broadcastInDim S50000x128 ![] bcast_S_S50000x128),
    TRef.binary (TRef.of main_v28 : TRef sig ⟨S50000x128, .f32⟩) main_call0.v0 main_call0.v1 (cmpf .ogt),
    TRef.nullary main_call0.cst_0 (constant S_ .f32 0x00000000#32),
    TRef.unary main_call0.cst_0 main_call0.v2 (broadcastInDim S50000x128 ![] bcast_S_S50000x128),
    TRef.binary (TRef.of main_v28 : TRef sig ⟨S50000x128, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S50000x128 ![] bcast_S_S50000x128),
    TRef.ternary main_call0.v3 main_call0.call0.v1 (TRef.of main_v28 : TRef sig ⟨S50000x128, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S50000x128 ![] bcast_S_S50000x128),
    TRef.binary main_call0.v6 main_call0.v5 main_call0.v7 mulf,
    TRef.ternary main_call0.v1 (TRef.of main_v28 : TRef sig ⟨S50000x128, .f32⟩) main_call0.v7 main_call0.call1.v0 select,
    nullary main_c_4 (constantI S_ 32 0#32),
    unary main_c_4 main_v30 (broadcastInDim S800000 ![] bcast_S_S800000 : (⟨S_, .i32⟩ : BufTy).Contents (Elt F) → (⟨S800000, .i32⟩ : BufTy).Contents (Elt F)),
    binary main_v1 main_v30 main_v31 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v32 (broadcastInDim S800000 ![] bcast_S_S800000 : (⟨S_, .i32⟩ : BufTy).Contents (Elt F) → (⟨S800000, .i32⟩ : BufTy).Contents (Elt F)),
    binary main_v1 main_v32 main_v33 (addi : (⟨S800000, .i32⟩ : BufTy).Contents (Elt F) → (⟨S800000, .i32⟩ : BufTy).Contents (Elt F) → (⟨S800000, .i32⟩ : BufTy).Contents (Elt F)),
    ternary main_v31 main_v33 main_v1 main_v34 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v34 main_v35 (broadcastInDim S800000x1 ![0] bcast_S800000_S800000x1_0 : (⟨S800000, .i32⟩ : BufTy).Contents (Elt F) → (⟨S800000x1, .i32⟩ : BufTy).Contents (Elt F)),
    binary main_v29 main_v35 main_v36 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_6 (constant S_ .f32 0x00000000#32),
    unary main_cst_6 main_v37 (broadcastInDim S50000x128 ![] bcast_S_S50000x128 : (⟨S_, .f32⟩ : BufTy).Contents (Elt F) → (⟨S50000x128, .f32⟩ : BufTy).Contents (Elt F)),
    unary main_v3 main_v38 (broadcastInDim S800000x1 ![0] bcast_S800000_S800000x1_0 : (⟨S800000, .i32⟩ : BufTy).Contents (Elt F) → (⟨S800000x1, .i32⟩ : BufTy).Contents (Elt F)),
    ternary main_v37 main_v38 main_v36 main_v39 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_7 (constant S_ .f32 0x3F800000#32),
    unary main_cst_7 main_v40 (broadcastInDim S800000 ![] bcast_S_S800000 : (⟨S_, .f32⟩ : BufTy).Contents (Elt F) → (⟨S800000, .f32⟩ : BufTy).Contents (Elt F)),
    nullary main_cst_8 (constant S_ .f32 0x00000000#32),
    unary main_cst_8 main_v41 (broadcastInDim S50000 ![] bcast_S_S50000 : (⟨S_, .f32⟩ : BufTy).Contents (Elt F) → (⟨S50000, .f32⟩ : BufTy).Contents (Elt F)),
    unary main_v3 main_v42 (broadcastInDim S800000x1 ![0] bcast_S800000_S800000x1_0 : (⟨S800000, .i32⟩ : BufTy).Contents (Elt F) → (⟨S800000x1, .i32⟩ : BufTy).Contents (Elt F)),
    ternary main_v41 main_v42 main_v40 main_v43 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_9 (constant S_ .f32 0x3F800000#32),
    unary main_cst_9 main_v44 (broadcastInDim S50000 ![] bcast_S_S50000 : (⟨S_, .f32⟩ : BufTy).Contents (Elt F) → (⟨S50000, .f32⟩ : BufTy).Contents (Elt F)),
    binary main_v43 main_v44 main_v45 (maximumf : (⟨S50000, .f32⟩ : BufTy).Contents (Elt F) → (⟨S50000, .f32⟩ : BufTy).Contents (Elt F) → (⟨S50000, .f32⟩ : BufTy).Contents (Elt F)),
    unary main_v45 main_v46 (broadcastInDim S50000x1 ![0] bcast_S50000_S50000x1_0 : (⟨S50000, .f32⟩ : BufTy).Contents (Elt F) → (⟨S50000x1, .f32⟩ : BufTy).Contents (Elt F)),
    unary main_v46 main_v47 (broadcastInDim S50000x128 ![0, 1] bcast_S50000x1_S50000x128_0_1 : (⟨S50000x1, .f32⟩ : BufTy).Contents (Elt F) → (⟨S50000x128, .f32⟩ : BufTy).Contents (Elt F)),
    binary main_v39 main_v47 main_v48 (Host.divf : (⟨S50000x128, .f32⟩ : BufTy).Contents (Elt F) → (⟨S50000x128, .f32⟩ : BufTy).Contents (Elt F) → (⟨S50000x128, .f32⟩ : BufTy).Contents (Elt F)),
    binary main_v48 main_arg5 main_v49 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v29 main_arg6 main_v50 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v49 main_v50 main_v51 (addf : (⟨S50000x128, .f32⟩ : BufTy).Contents (Elt F) → (⟨S50000x128, .f32⟩ : BufTy).Contents (Elt F) → (⟨S50000x128, .f32⟩ : BufTy).Contents (Elt F)),
    unary main_arg7 main_v52 (broadcastInDim S1x128 ![1] bcast_S128_S1x128_1 : (⟨S128, .f32⟩ : BufTy).Contents (Elt F) → (⟨S1x128, .f32⟩ : BufTy).Contents (Elt F)),
    unary main_v52 main_v53 (broadcastInDim S50000x128 ![0, 1] bcast_S1x128_S50000x128_0_1 : (⟨S1x128, .f32⟩ : BufTy).Contents (Elt F) → (⟨S50000x128, .f32⟩ : BufTy).Contents (Elt F)),
    binary main_v51 main_v53 main_v54 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (TRef.of main_v54 : TRef sig ⟨S50000x128, .f32⟩) main_call1.v0 main_call1.v1 (cmpf .ogt),
    TRef.nullary main_call1.cst_0 (constant S_ .f32 0x00000000#32),
    TRef.unary main_call1.cst_0 main_call1.v2 (broadcastInDim S50000x128 ![] bcast_S_S50000x128),
    TRef.binary (TRef.of main_v54 : TRef sig ⟨S50000x128, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S50000x128 ![] bcast_S_S50000x128),
    TRef.ternary main_call1.v3 main_call1.call0.v1 (TRef.of main_v54 : TRef sig ⟨S50000x128, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S50000x128 ![] bcast_S_S50000x128),
    TRef.binary main_call1.v6 main_call1.v5 main_call1.v7 mulf,
    TRef.ternary main_call1.v1 (TRef.of main_v54 : TRef sig ⟨S50000x128, .f32⟩) main_call1.v7 main_call1.call1.v0 select,
    nullary main_c_10 (constantI S_ 32 0#32),
    unary main_c_10 main_v56 (broadcastInDim S800000 ![] bcast_S_S800000 : (⟨S_, .i32⟩ : BufTy).Contents (Elt F) → (⟨S800000, .i32⟩ : BufTy).Contents (Elt F)),
    binary main_v1 main_v56 main_v57 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v58 (broadcastInDim S800000 ![] bcast_S_S800000 : (⟨S_, .i32⟩ : BufTy).Contents (Elt F) → (⟨S800000, .i32⟩ : BufTy).Contents (Elt F)),
    binary main_v1 main_v58 main_v59 (addi : (⟨S800000, .i32⟩ : BufTy).Contents (Elt F) → (⟨S800000, .i32⟩ : BufTy).Contents (Elt F) → (⟨S800000, .i32⟩ : BufTy).Contents (Elt F)),
    ternary main_v57 main_v59 main_v1 main_v60 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v60 main_v61 (broadcastInDim S800000x1 ![0] bcast_S800000_S800000x1_0 : (⟨S800000, .i32⟩ : BufTy).Contents (Elt F) → (⟨S800000x1, .i32⟩ : BufTy).Contents (Elt F)),
    binary main_v55 main_v61 main_v62 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_12 (constant S_ .f32 0x00000000#32),
    unary main_cst_12 main_v63 (broadcastInDim S50000x128 ![] bcast_S_S50000x128 : (⟨S_, .f32⟩ : BufTy).Contents (Elt F) → (⟨S50000x128, .f32⟩ : BufTy).Contents (Elt F)),
    unary main_v3 main_v64 (broadcastInDim S800000x1 ![0] bcast_S800000_S800000x1_0 : (⟨S800000, .i32⟩ : BufTy).Contents (Elt F) → (⟨S800000x1, .i32⟩ : BufTy).Contents (Elt F)),
    ternary main_v63 main_v64 main_v62 main_v65 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_13 (constant S_ .f32 0x3F800000#32),
    unary main_cst_13 main_v66 (broadcastInDim S800000 ![] bcast_S_S800000 : (⟨S_, .f32⟩ : BufTy).Contents (Elt F) → (⟨S800000, .f32⟩ : BufTy).Contents (Elt F)),
    nullary main_cst_14 (constant S_ .f32 0x00000000#32),
    unary main_cst_14 main_v67 (broadcastInDim S50000 ![] bcast_S_S50000 : (⟨S_, .f32⟩ : BufTy).Contents (Elt F) → (⟨S50000, .f32⟩ : BufTy).Contents (Elt F)),
    unary main_v3 main_v68 (broadcastInDim S800000x1 ![0] bcast_S800000_S800000x1_0 : (⟨S800000, .i32⟩ : BufTy).Contents (Elt F) → (⟨S800000x1, .i32⟩ : BufTy).Contents (Elt F)),
    ternary main_v67 main_v68 main_v66 main_v69 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_15 (constant S_ .f32 0x3F800000#32),
    unary main_cst_15 main_v70 (broadcastInDim S50000 ![] bcast_S_S50000 : (⟨S_, .f32⟩ : BufTy).Contents (Elt F) → (⟨S50000, .f32⟩ : BufTy).Contents (Elt F)),
    binary main_v69 main_v70 main_v71 (maximumf : (⟨S50000, .f32⟩ : BufTy).Contents (Elt F) → (⟨S50000, .f32⟩ : BufTy).Contents (Elt F) → (⟨S50000, .f32⟩ : BufTy).Contents (Elt F)),
    unary main_v71 main_v72 (broadcastInDim S50000x1 ![0] bcast_S50000_S50000x1_0 : (⟨S50000, .f32⟩ : BufTy).Contents (Elt F) → (⟨S50000x1, .f32⟩ : BufTy).Contents (Elt F)),
    unary main_v72 main_v73 (broadcastInDim S50000x128 ![0, 1] bcast_S50000x1_S50000x128_0_1 : (⟨S50000x1, .f32⟩ : BufTy).Contents (Elt F) → (⟨S50000x128, .f32⟩ : BufTy).Contents (Elt F)),
    binary main_v65 main_v73 main_v74 (Host.divf : (⟨S50000x128, .f32⟩ : BufTy).Contents (Elt F) → (⟨S50000x128, .f32⟩ : BufTy).Contents (Elt F) → (⟨S50000x128, .f32⟩ : BufTy).Contents (Elt F)),
    binary main_v74 main_arg8 main_v75 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    binary main_v55 main_arg9 main_v76 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    binary main_v75 main_v76 main_v77 (addf : (⟨S50000x64, .f32⟩ : BufTy).Contents (Elt F) → (⟨S50000x64, .f32⟩ : BufTy).Contents (Elt F) → (⟨S50000x64, .f32⟩ : BufTy).Contents (Elt F)),
    unary main_arg10 main_v78 (broadcastInDim S1x64 ![1] bcast_S64_S1x64_1 : (⟨S64, .f32⟩ : BufTy).Contents (Elt F) → (⟨S1x64, .f32⟩ : BufTy).Contents (Elt F)),
    unary main_v78 main_v79 (broadcastInDim S50000x64 ![0, 1] bcast_S1x64_S50000x64_0_1 : (⟨S1x64, .f32⟩ : BufTy).Contents (Elt F) → (⟨S50000x64, .f32⟩ : BufTy).Contents (Elt F)),
    binary main_v77 main_v79 main_v80 (addf : (⟨S50000x64, .f32⟩ : BufTy).Contents (Elt F) → (⟨S50000x64, .f32⟩ : BufTy).Contents (Elt F) → (⟨S50000x64, .f32⟩ : BufTy).Contents (Elt F)) ]

-- 127 binds re-associated: the rewrite under the chain recurses once per statement
set_option maxRecDepth 4096 in
/-- @main is that straight line: its two windows in order, the three functions' definitions unfolded at their calls
    and the records at their fields; both sides are one chain of steps once sequencing is re-associated. -/
theorem main_eq (c : Dev nD) : main (F := F) c = seq ops := by
  simp only [main, main_part0, main_part1, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The value, in stages

The graph is a list of 800000 edges between 50000 nodes, given as a 2 × 800000 array of node numbers: row 0 the
source of each edge, row 1 its target. One layer averages, at every node, the feature rows of the sources of the
edges that arrive there, and adds two linear images — of that average and of the node's own row — and a bias. The
network is three such layers, the first two followed by the exponential linear unit. -/

/-- Row 0 of the edge array, as a vector: each edge's source. -/
def srcRow (ei : IVec S2x800000 32) : IVec S800000 32 :=
  shapeCast S800000 (extractStridedSlice S1x800000 ![0, 0] ei slices_S2x800000_S1x800000_0_0) shapeCasts_S1x800000_S800000

/-- Row 1 of the edge array, as a vector: each edge's target. -/
def tgtRow (ei : IVec S2x800000 32) : IVec S800000 32 :=
  shapeCast S800000 (extractStridedSlice S1x800000 ![1, 0] ei slices_S2x800000_S1x800000_1_0) shapeCasts_S1x800000_S800000

/-- The sources as a column of row numbers, a negative one counted from the end: `s + 50000` where `s < 0`, else `s`. -/
def srcCol (ei : IVec S2x800000 32) : IVec S800000x1 32 :=
  broadcastInDim S800000x1 ![0] bcast_S800000_S800000x1_0
    (select (cmpi .slt (srcRow ei) (broadcastInDim S800000 ![] bcast_S_S800000 (constantI S_ 32 0#32)))
      (addi (srcRow ei) (broadcastInDim S800000 ![] bcast_S_S800000 (constantI S_ 32 50000#32)))
      (srcRow ei))

/-- The targets as a column of row numbers. -/
def tgtCol (ei : IVec S2x800000 32) : IVec S800000x1 32 :=
  broadcastInDim S800000x1 ![0] bcast_S800000_S800000x1_0 (tgtRow ei)

/-- The number of edges arriving at each node — a one added at its target for every edge, onto zeros —, and one
    where none arrives: the divisor of the average. -/
def deg (ei : IVec S2x800000 32) : FVec F S50000 .f32 :=
  maximumf
    (Host.scatterAdd scatter_S50000_S800000x1_S800000_n_0_0_1
      (broadcastInDim S50000 ![] bcast_S_S50000 (constant S_ .f32 0x00000000#32))
      (tgtCol ei)
      (broadcastInDim S800000 ![] bcast_S_S800000 (constant S_ .f32 0x3F800000#32)))
    (broadcastInDim S50000 ![] bcast_S_S50000 (constant S_ .f32 0x3F800000#32))

/-- At every node the average of the rows of `h` at the sources of its incoming edges: the rows gathered edge by
    edge, added at the targets onto zeros, each node's sum divided by `deg` (spread along the row in two steps). -/
def mean (h : FVec F S50000x128 .f32) (ei : IVec S2x800000 32) : FVec F S50000x128 .f32 :=
  Host.divf
    (Host.scatterAdd scatter_S50000x128_S800000x1_S800000x128_1_0_0_1
      (broadcastInDim S50000x128 ![] bcast_S_S50000x128 (constant S_ .f32 0x00000000#32))
      (tgtCol ei)
      (Host.gather gather_S50000x128_S800000x1_S800000x128_1_0_n_n_0_1_1128 h (srcCol ei)))
    (broadcastInDim S50000x128 ![0, 1] bcast_S50000x1_S50000x128_0_1
      (broadcastInDim S50000x1 ![0] bcast_S50000_S50000x1_0 (deg (F := F) ei)))

/-- A layer of width 128: `mean h · Wl + h · Wr + b`, the bias spread down the rows in two steps. -/
def lin128 (h : FVec F S50000x128 .f32) (ei : IVec S2x800000 32) (Wl Wr : FVec F S128x128 .f32) (b : FVec F S128 .f32) :
    FVec F S50000x128 .f32 :=
  addf
    (addf (Host.dotGeneral dot_S50000x128_S128x128_S50000x128_1_0_0_1_n_n none (mean h ei) Wl)
      (Host.dotGeneral dot_S50000x128_S128x128_S50000x128_1_0_0_1_n_n none h Wr))
    (broadcastInDim S50000x128 ![0, 1] bcast_S1x128_S50000x128_0_1 (broadcastInDim S1x128 ![1] bcast_S128_S1x128_1 b))

/-- The same layer at width 64. -/
def lin64 (h : FVec F S50000x128 .f32) (ei : IVec S2x800000 32) (Wl Wr : FVec F S128x64 .f32) (b : FVec F S64 .f32) :
    FVec F S50000x64 .f32 :=
  addf
    (addf (Host.dotGeneral dot_S50000x128_S128x64_S50000x64_1_0_0_1_n_n none (mean h ei) Wl)
      (Host.dotGeneral dot_S50000x128_S128x64_S50000x64_1_0_0_1_n_n none h Wr))
    (broadcastInDim S50000x64 ![0, 1] bcast_S1x64_S50000x64_0_1 (broadcastInDim S1x64 ![1] bcast_S64_S1x64_1 b))

/-- The exponential linear unit: `z` where `z > 0`, else `1 · expm1 z'`, the exponent's argument `z'` being `0`
    where `z > 0` and `z` elsewhere (so that the exponential is never taken of a large positive number). The test
    `z > 0` is made twice, each time against a zero of its own. -/
def elu (z : FVec F S50000x128 .f32) : FVec F S50000x128 .f32 :=
  select (cmpf .ogt z (broadcastInDim S50000x128 ![] bcast_S_S50000x128 (constant S_ .f32 0x00000000#32)))
    z
    (mulf (broadcastInDim S50000x128 ![] bcast_S_S50000x128 (constant S_ .f32 0x3F800000#32))
      (Host.expm1
        (select (cmpf .ogt z (broadcastInDim S50000x128 ![] bcast_S_S50000x128 (constant S_ .f32 0x00000000#32)))
          (broadcastInDim S50000x128 ![] bcast_S_S50000x128 (constant S_ .f32 0x00000000#32))
          z)))

/-- The three layers. -/
def out (x : FVec F S50000x128 .f32) (ei : IVec S2x800000 32) (Wl0 Wr0 : FVec F S128x128 .f32) (b0 : FVec F S128 .f32)
    (Wl1 Wr1 : FVec F S128x128 .f32) (b1 : FVec F S128 .f32) (Wl2 Wr2 : FVec F S128x64 .f32) (b2 : FVec F S64 .f32) :
    FVec F S50000x64 .f32 :=
  lin64 (elu (lin128 (elu (lin128 x ei Wl0 Wr0 b0)) ei Wl1 Wr1 b1)) ei Wl2 Wr2 b2

/-! ## The read-back -/

attribute [local irreducible] Host.gather Host.scatterAdd in
set_option maxRecDepth 16384 in
set_option maxHeartbeats 1600000 in
/-- The fold at the result buffer is `out` of the arguments' contents. One pass rewrites each operation's result at
    its own buffer to its function of its operands' contents and at any other buffer to what was there (two buffers
    told apart as references); what is left is the composed term, each operation applied to its operands' terms, and
    that is `out` with its stages opened — the helpers' conversion the identity, a typed reference's transport the
    identity at a literal reference. The gather and the scatter-add stay folded throughout: the equation never looks
    inside them. -/
theorem out_eq (V : Valuation τ sig (Elt F)) :
    after ops V (main_v80 : DevRef τ sig)
      = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  after_results_simp
  rfl

/-! No operation writes an argument: each is where it was. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

theorem arg10_eq (V : Valuation τ sig (Elt F)) :
    after ops V (main_arg10 : DevRef τ sig) = V (main_arg10 : DevRef τ sig) := by
  after_results_simp

/-! ## The run -/

/-- On every device, for any float values, from any memory with zero counters: every weakly fair execution of @main
    terminates with the result buffer at `out` of the arguments' launch contents, and the eleven arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v80)
          = out (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v80).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_main m ρ)

end Cert.ReferenceIdeal.RefRun

end
-- ==== Proof.RefPure.lean ====
/-
  The reference's value in pure form.

  Stage by stage the reference's operations are the bridge's reference-side computation: the degree vector is the clamped
  count of arriving edges; the mean is the aggregate with every row divided by its node's degree; a layer is the two
  products and then the bias row; the activation is the exponential-linear unit entry by entry (where the entry is not
  positive, one times (exp of it minus one) is exp of it minus one).
-/
import proofs.«114920_j35115652612101_2_alg».proof.Proof.RefRun
import proofs.«114920_j35115652612101_2_alg».proof.Proof.LibSageBridge
import proofs.«114920_j35115652612101_2_alg».proof.Proof.LibDot2

set_option maxRecDepth 16384

noncomputable section

namespace Cert.ReferenceIdeal.RefPure

open Cert.ReferenceIdeal Cert.ReferenceIdeal.RefRun
open Idealize.ShloMosaic Idealize.ShloMosaic.ValueIdx GcnSpec Sage SageElu SegSum

/-- A vector of 128 (of 64) reshaped to one row: the shape relation. -/
theorem hsc128 : (⟨1, ![128]⟩ : Shape).ShapeCasts ⟨2, ![1, 128]⟩ := by decide
theorem hsc64 : (⟨1, ![64]⟩ : Shape).ShapeCasts ⟨2, ![1, 64]⟩ := by decide

/-- The degree vector is the clamped count. -/
theorem deg_eq (ei : IVec S2x800000 32) :
    deg (F := Ideal) ei = SageBridge.dmax scatter_S50000_S800000x1_S800000_n_0_0_1 (tgtCol ei) := by
  unfold deg SageBridge.dmax SageBridge.cnt
  rw [SageBridge.splat_zero, SageBridge.splat_one, SageBridge.splat_one]
  rfl

/-- The mean is the aggregate divided, row by row, by the degree. -/
theorem mean_eq (h : Arr 50000 128) (ei : IVec S2x800000 32) :
    mean (F := Ideal) h ei
      = divRows (SageBridge.agg gather_S50000x128_S800000x1_S800000x128_1_0_n_n_0_1_1128 scatter_S50000x128_S800000x1_S800000x128_1_0_0_1 (srcCol ei) (tgtCol ei) h) (SageBridge.dmax scatter_S50000_S800000x1_S800000_n_0_0_1 (tgtCol ei)) := by
  unfold mean
  rw [SageBridge.host_mean, deg_eq]
  unfold SageBridge.agg
  rw [SageBridge.splat_zero]

/-- A layer of width 128 is the pre-activation of the mean and the node rows. -/
theorem lin128_eq (h : Arr 50000 128) (ei : IVec S2x800000 32) (Wl Wr : Arr 128 128) (b : (⟨1, ![128]⟩ : Shape).Idx → EReal) :
    lin128 (F := Ideal) h ei Wl Wr b
      = pre (divRows (SageBridge.agg gather_S50000x128_S800000x1_S800000x128_1_0_n_n_0_1_1128 scatter_S50000x128_S800000x1_S800000x128_1_0_0_1 (srcCol ei) (tgtCol ei) h) (SageBridge.dmax scatter_S50000_S800000x1_S800000_n_0_0_1 (tgtCol ei)))
          h Wl Wr (shapeCast ⟨2, ![1, 128]⟩ b hsc128) := by
  unfold lin128
  rw [SageBridge.host_pre _ _ _ _ _ dot_S50000x128_S128x128_S50000x128_1_0_0_1_n_n (Dot2.rank_contr dot_S50000x128_S128x128_S50000x128_1_0_0_1_n_n rfl) (Dot2.size_contr dot_S50000x128_S128x128_S50000x128_1_0_0_1_n_n rfl _) (Dot2.lhs0 dot_S50000x128_S128x128_S50000x128_1_0_0_1_n_n rfl rfl) (Dot2.lhs1 dot_S50000x128_S128x128_S50000x128_1_0_0_1_n_n rfl _) (Dot2.rhs0 dot_S50000x128_S128x128_S50000x128_1_0_0_1_n_n rfl _) (Dot2.rhs1 dot_S50000x128_S128x128_S50000x128_1_0_0_1_n_n rfl rfl rfl rfl) _ _ hsc128, mean_eq]

/-- The same at width 64. -/
theorem lin64_eq (h : Arr 50000 128) (ei : IVec S2x800000 32) (Wl Wr : Arr 128 64) (b : (⟨1, ![64]⟩ : Shape).Idx → EReal) :
    lin64 (F := Ideal) h ei Wl Wr b
      = pre (divRows (SageBridge.agg gather_S50000x128_S800000x1_S800000x128_1_0_n_n_0_1_1128 scatter_S50000x128_S800000x1_S800000x128_1_0_0_1 (srcCol ei) (tgtCol ei) h) (SageBridge.dmax scatter_S50000_S800000x1_S800000_n_0_0_1 (tgtCol ei)))
          h Wl Wr (shapeCast ⟨2, ![1, 64]⟩ b hsc64) := by
  unfold lin64
  rw [SageBridge.host_pre _ _ _ _ _ dot_S50000x128_S128x64_S50000x64_1_0_0_1_n_n (Dot2.rank_contr dot_S50000x128_S128x64_S50000x64_1_0_0_1_n_n rfl) (Dot2.size_contr dot_S50000x128_S128x64_S50000x64_1_0_0_1_n_n rfl _) (Dot2.lhs0 dot_S50000x128_S128x64_S50000x64_1_0_0_1_n_n rfl rfl) (Dot2.lhs1 dot_S50000x128_S128x64_S50000x64_1_0_0_1_n_n rfl _) (Dot2.rhs0 dot_S50000x128_S128x64_S50000x64_1_0_0_1_n_n rfl _) (Dot2.rhs1 dot_S50000x128_S128x64_S50000x64_1_0_0_1_n_n rfl rfl rfl rfl) _ _ hsc64, mean_eq]

/-- The activation, entry by entry. -/
theorem elu_eq (z : Arr 50000 128) : elu (F := Ideal) z = fun i => eluF (z i) :=
  funext fun i => SageBridge.host_elu_apply z _ _ _ _ i

/-- A hidden layer of the reference is the bridge's. -/
theorem hid_eq (h : Arr 50000 128) (ei : IVec S2x800000 32) (Wl Wr : Arr 128 128) (b : (⟨1, ![128]⟩ : Shape).Idx → EReal) :
    elu (F := Ideal) (lin128 (F := Ideal) h ei Wl Wr b)
      = SageBridge.hidR gather_S50000x128_S800000x1_S800000x128_1_0_n_n_0_1_1128 scatter_S50000x128_S800000x1_S800000x128_1_0_0_1 scatter_S50000_S800000x1_S800000_n_0_0_1 (srcCol ei) (tgtCol ei) h Wl Wr (shapeCast ⟨2, ![1, 128]⟩ b hsc128) := by
  rw [elu_eq, lin128_eq]
  rfl

/-- The reference's value is the bridge's reference-side computation. -/
theorem out_pure (x : Arr 50000 128) (ei : IVec S2x800000 32) (Wl0 Wr0 : Arr 128 128) (b0 : (⟨1, ![128]⟩ : Shape).Idx → EReal)
    (Wl1 Wr1 : Arr 128 128) (b1 : (⟨1, ![128]⟩ : Shape).Idx → EReal) (Wl2 Wr2 : Arr 128 64)
    (b2 : (⟨1, ![64]⟩ : Shape).Idx → EReal) :
    out (F := Ideal) x ei Wl0 Wr0 b0 Wl1 Wr1 b1 Wl2 Wr2 b2
      = SageBridge.outR gather_S50000x128_S800000x1_S800000x128_1_0_n_n_0_1_1128 scatter_S50000x128_S800000x1_S800000x128_1_0_0_1 scatter_S50000_S800000x1_S800000_n_0_0_1 (srcCol ei) (tgtCol ei) x Wl0 Wr0 (shapeCast ⟨2, ![1, 128]⟩ b0 hsc128)
          Wl1 Wr1 (shapeCast ⟨2, ![1, 128]⟩ b1 hsc128) Wl2 Wr2 (shapeCast ⟨2, ![1, 64]⟩ b2 hsc64) := by
  unfold out SageBridge.outR SageBridge.lastRef
  rw [hid_eq, hid_eq, lin64_eq]

end Cert.ReferenceIdeal.RefPure

end
-- ==== Proof.lean ====
/-
  Three layers of a mean-aggregation graph network with an exponential-linear activation: the kernel's program against
  the plain reference, on the extended reals.

  A layer sends node features h to  (A(h) / d) · Wl + h · Wr + b,  where A(h) adds, at every node, the rows of h at the
  sources of the edges arriving there, and d is the number of those edges, at least one.  The reference computes exactly
  this three times, the first two followed by  elu z = z  for  z > 0,  exp z − 1  otherwise.

  The kernel's program differs in two ways.  It multiplies A(h) by the reciprocal 1 / d computed once instead of
  dividing: the same number, since d is not zero.  And in the last layer it projects before it aggregates,
  A(h · Wl) · (1 / d)  in place of  (A(h) / d) · Wl : the two agree because aggregation is a finite sum and the entries are
  real numbers — every input is finite by the precondition, and sums, products, quotients by d and the activation keep
  real numbers real — so the sums may be exchanged and the factors moved across them.  Narrowing an operand to a shorter
  float format is the identity on the extended reals, and a product accumulated onto zero is the product.

  Each program's run is read back to one term of the argument arrays: the kernel's through its four launches (each
  launch's output array is the layer of its input arrays, band by band) and the host operations between them, the
  reference's through its list of host operations.  The two terms are then the two sides of the law above.
-/
import proofs.«114920_j35115652612101_2_alg».proof.Defs
import proofs.«114920_j35115652612101_2_alg».proof.Proof.Gen.Kernel
import proofs.«114920_j35115652612101_2_alg».proof.Proof.Gen.Kernel.Skeleton
import proofs.«114920_j35115652612101_2_alg».proof.Proof.Gen.Kernel.Launch
import proofs.«114920_j35115652612101_2_alg».proof.Proof.Gen.Kernel.Points
import proofs.«114920_j35115652612101_2_alg».proof.Proof.Gen.Kernel.Frame
import proofs.«114920_j35115652612101_2_alg».proof.Proof.Gen.KernelIdeal
import proofs.«114920_j35115652612101_2_alg».proof.Proof.Gen.KernelIdeal.Skeleton
import proofs.«114920_j35115652612101_2_alg».proof.Proof.Gen.KernelIdeal.Launch
import proofs.«114920_j35115652612101_2_alg».proof.Proof.Gen.KernelIdeal.Points
import proofs.«114920_j35115652612101_2_alg».proof.Proof.Gen.KernelIdeal.Frame
import proofs.«114920_j35115652612101_2_alg».proof.Proof.Gen.ReferenceIdeal
import proofs.«114920_j35115652612101_2_alg».proof.Proof.Gen.Pre_finite_inputs
import proofs.«114920_j35115652612101_2_alg».proof.Proof.KPure
import proofs.«114920_j35115652612101_2_alg».proof.Proof.RefPure
import Idealize.ShloMosaic.Adequacy
import Idealize.ShloMosaic.Init

set_option maxRecDepth 16384

noncomputable section

namespace Cert.Proof

open Idealize.ShloMosaic Idealize.SL.Sem

/-- The word-level kernel runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its run, the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- On the same finite arguments the reference's value is the kernel's: both are the bridge's reference-side computation
    at the same edge columns and parameters. -/
theorem value_eq (m : (ℓ : Loc Cert.KernelIdeal.nD Cert.KernelIdeal.τ Cert.KernelIdeal.sig) → Buf (Elt Ideal) ℓ) (hpre : Cert.Pre_KernelIdeal m)
    (c : Dev Cert.KernelIdeal.nD) :
    Cert.ReferenceIdeal.RefRun.out (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      = Cert.KernelIdeal.KValue.outK m c := by
  rw [Cert.ReferenceIdeal.RefPure.out_pure, Cert.KernelIdeal.KPure.outK_eq_outR m hpre c]
  rfl

/-- From memories agreeing on the arguments both programs run and end with the same result. -/
theorem algebraic : Cert.algebraic_KernelIdeal_ReferenceIdeal := by
  intro m ρ m' ρ' hpre hagree
  refine ⟨fun c => Cert.KernelIdeal.KValue.outK m c, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5, a6, a7, a8, a9, a10⟩ := hagree c
  rw [a0, a1, a2, a3, a4, a5, a6, a7, a8, a9, a10]
  exact value_eq m hpre c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
